-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v0_0)) (v2 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v0_0) = v1 c
          ∧ r.2.mem ((c.tc : Thread Cert.KernelIdeal.nD Cert.KernelIdeal.τ).loc Cert.KernelIdeal.main_v7) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_v46) = v1 c
          ∧ r.2.mem ((c.tc : Thread Cert.ReferenceIdeal.nD Cert.ReferenceIdeal.τ).loc Cert.ReferenceIdeal.main_v52) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x256x256x256 : Shape := ⟨4, ![2, 256, 256, 256]⟩
abbrev S2x256x256x7 : Shape := ⟨4, ![2, 256, 256, 7]⟩
abbrev S_ : Shape := ⟨0, ![]⟩

class Facts : Prop where
  bcast_S_S2x256x256x256 : S_.BroadcastsInDim S2x256x256x256 (![] : Fin 0 → Fin S2x256x256x256.rank)
  reducesTo_S2x256x256x256_S_d0_1_2_3 : S2x256x256x256.ReducesTo [0, 1, 2, 3] S_
  h_S_ : 0 < S_.numel
  bcast_S_S2x256x256x7 : S_.BroadcastsInDim S2x256x256x7 (![] : Fin 0 → Fin S2x256x256x7.rank)
  reducesTo_S2x256x256x7_S_d0_1_2_3 : S2x256x256x7.ReducesTo [0, 1, 2, 3] S_

variable [Facts]

def fn {F : FTy → Type} [FloatOps F] (main_arg0 : FVec F S2x256x256x256 .f32) (main_arg1 : FVec F S2x256x256x7 .f32) (main_arg2 : FVec F S2x256x256x256 .f32) : IVec S_ 1 :=
  let main_v0 : FVec F S2x256x256x256 .f32 := Host.absf main_arg0
  let main_cst : FVec F S_ .f32 := constant S_ .f32 0x7F800000#32
  let main_v1 : FVec F S2x256x256x256 .f32 := broadcastInDim S2x256x256x256 ![] bcast_S_S2x256x256x256 main_cst
  let main_v2 : IVec S2x256x256x256 1 := cmpf .olt main_v0 main_v1
  let main_c : IVec S_ 1 := constantI S_ 1 1#1
  let main_v3 : IVec S_ 1 := (fun x v => Host.reduce IntOp.andi x v reducesTo_S2x256x256x256_S_d0_1_2_3 h_S_) main_v2 main_c
  let main_v4 : FVec F S2x256x256x7 .f32 := Host.absf main_arg1
  let main_cst_0 : FVec F S_ .f32 := constant S_ .f32 0x7F800000#32
  let main_v5 : FVec F S2x256x256x7 .f32 := broadcastInDim S2x256x256x7 ![] bcast_S_S2x256x256x7 main_cst_0
  let main_v6 : IVec S2x256x256x7 1 := cmpf .olt main_v4 main_v5
  let main_c_1 : IVec S_ 1 := constantI S_ 1 1#1
  let main_v7 : IVec S_ 1 := (fun x v => Host.reduce IntOp.andi x v reducesTo_S2x256x256x7_S_d0_1_2_3 h_S_) main_v6 main_c_1
  let main_v8 : IVec S_ 1 := andi main_v3 main_v7
  let main_v9 : FVec F S2x256x256x256 .f32 := Host.absf main_arg2
  let main_cst_2 : FVec F S_ .f32 := constant S_ .f32 0x7F800000#32
  let main_v10 : FVec F S2x256x256x256 .f32 := broadcastInDim S2x256x256x256 ![] bcast_S_S2x256x256x256 main_cst_2
  let main_v11 : IVec S2x256x256x256 1 := cmpf .olt main_v9 main_v10
  let main_c_3 : IVec S_ 1 := constantI S_ 1 1#1
  let main_v12 : IVec S_ 1 := (fun x v => Host.reduce IntOp.andi x v reducesTo_S2x256x256x256_S_d0_1_2_3 h_S_) main_v11 main_c_3
  let main_v13 : IVec S_ 1 := andi main_v8 main_v12
  main_v13
-- ==== Kernel.lean ====
abbrev S2x256x256x256 : Shape := ⟨4, ![2, 256, 256, 256]⟩
abbrev S2x256x256x7 : Shape := ⟨4, ![2, 256, 256, 7]⟩
abbrev S2x8x128 : Shape := ⟨3, ![2, 8, 128]⟩
abbrev S1x8x256x256 : Shape := ⟨4, ![1, 8, 256, 256]⟩
abbrev S1x1x256x256 : Shape := ⟨4, ![1, 1, 256, 256]⟩
abbrev S1x8x256x7 : Shape := ⟨4, ![1, 8, 256, 7]⟩
abbrev S1x8x128 : Shape := ⟨3, ![1, 8, 128]⟩
abbrev S8x256x256 : Shape := ⟨3, ![8, 256, 256]⟩
abbrev S1x256x256 : Shape := ⟨3, ![1, 256, 256]⟩
abbrev S8x256x7 : Shape := ⟨3, ![8, 256, 7]⟩
abbrev S7x256x256 : Shape := ⟨3, ![7, 256, 256]⟩
abbrev S8x256x1 : Shape := ⟨3, ![8, 256, 1]⟩
abbrev S8x256 : Shape := ⟨2, ![8, 256]⟩
abbrev S8 : Shape := ⟨1, ![8]⟩
abbrev S8x1 : Shape := ⟨2, ![8, 1]⟩
abbrev S1x8x1 : Shape := ⟨3, ![1, 8, 1]⟩
abbrev S2x8x1 : Shape := ⟨3, ![2, 8, 1]⟩
abbrev S2x8 : Shape := ⟨2, ![2, 8]⟩
abbrev S_ : Shape := ⟨0, ![]⟩

abbrev nBuf : Space → Nat
  | .hbm => 16
  | .vmem => 16
  | .smem => 0
  | _ => 0

abbrev bufTy : (tb : Table) → Fin (tcTables nBuf tb) → BufTy
  | .hbm, ⟨0, _⟩ => ⟨S2x256x256x256, .f32⟩
  | .hbm, ⟨1, _⟩ => ⟨S2x256x256x7, .f32⟩
  | .hbm, ⟨2, _⟩ => ⟨S2x256x256x256, .f32⟩
  | .hbm, ⟨3, _⟩ => ⟨S2x256x256x256, .f32⟩
  | .hbm, ⟨4, _⟩ => ⟨S2x8x128, .f32⟩
  | .hbm, ⟨5, _⟩ => ⟨S2x8x128, .f32⟩
  | .hbm, ⟨6, _⟩ => ⟨S2x8x1, .f32⟩
  | .hbm, ⟨7, _⟩ => ⟨S2x8, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S2x8x1, .f32⟩
  | .hbm, ⟨13, _⟩ => ⟨S2x8, .f32⟩
  | .hbm, ⟨14, _⟩ => ⟨S_, .f32⟩
  | .hbm, ⟨15, _⟩ => ⟨S_, .f32⟩
  | .local _ .vmem, ⟨0, _⟩ => ⟨S1x8x256x256, .f32⟩
  | .local _ .vmem, ⟨1, _⟩ => ⟨S1x8x256x256, .f32⟩
  | .local _ .vmem, ⟨2, _⟩ => ⟨S1x1x256x256, .f32⟩
  | .local _ .vmem, ⟨3, _⟩ => ⟨S1x1x256x256, .f32⟩
  | .local _ .vmem, ⟨4, _⟩ => ⟨S1x1x256x256, .f32⟩
  | .local _ .vmem, ⟨5, _⟩ => ⟨S1x1x256x256, .f32⟩
  | .local _ .vmem, ⟨6, _⟩ => ⟨S1x8x256x7, .f32⟩
  | .local _ .vmem, ⟨7, _⟩ => ⟨S1x8x256x7, .f32⟩
  | .local _ .vmem, ⟨8, _⟩ => ⟨S1x8x256x256, .f32⟩
  | .local _ .vmem, ⟨9, _⟩ => ⟨S1x8x256x256, .f32⟩
  | .local _ .vmem, ⟨10, _⟩ => ⟨S1x8x256x256, .f32⟩
  | .local _ .vmem, ⟨11, _⟩ => ⟨S1x8x256x256, .f32⟩
  | .local _ .vmem, ⟨12, _⟩ => ⟨S1x8x128, .f32⟩
  | .local _ .vmem, ⟨13, _⟩ => ⟨S1x8x128, .f32⟩
  | .local _ .vmem, ⟨14, _⟩ => ⟨S1x8x128, .f32⟩
  | .local _ .vmem, ⟨15, _⟩ => ⟨S1x8x128, .f32⟩
  | _, _ => ⟨S2x256x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 32], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c1_i32 : BitVec 32 := 1#32
  let v1 : BitVec 32 := Scalar.subi v0 c1_i32
  let c0_i32 : BitVec 32 := 0#32
  let c255_i32 : BitVec 32 := 255#32
  let v2 : BitVec 32 := Scalar.maxsi c0_i32 v1
  let v3 : BitVec 32 := Scalar.minsi c255_i32 v2
  let c0_i32_0 : BitVec 32 := 0#32
  let c0_i32_1 : BitVec 32 := 0#32
  let c0_i32_2 : BitVec 32 := 0#32
  ![arg0.toNat, v3.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c8_i32_0 : BitVec 32 := 8#32
  let v1 : BitVec 32 := Scalar.addi v0 c8_i32_0
  let c0_i32 : BitVec 32 := 0#32
  let c255_i32 : BitVec 32 := 255#32
  let v2 : BitVec 32 := Scalar.maxsi c0_i32 v1
  let v3 : BitVec 32 := Scalar.minsi c255_i32 v2
  let c0_i32_1 : BitVec 32 := 0#32
  let c0_i32_2 : BitVec 32 := 0#32
  let c0_i32_3 : BitVec 32 := 0#32
  ![arg0.toNat, v3.toNat, c0_i32_1.toNat, c0_i32_2.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x8x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x256x7 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x8x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x8x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

class Facts₀ : Prop where
  inb_S1x8x128_S1x8x128_0_0_0 : ∀ a, (![0, 0, 0] : Fin 3 → Nat) a + S1x8x128.size a ≤ S1x8x128.size a
  h_S1x8x128 : 0 < S1x8x128.numel
  inb_S1x8x256x256_S1x8x256x256_0_0_0_0 : ∀ a, (![0, 0, 0, 0] : Fin 4 → Nat) a + S1x8x256x256.size a ≤ S1x8x256x256.size a
  h_S1x8x256x256 : 0 < S1x8x256x256.numel
  shapeCasts_S1x8x256x256_S8x256x256 : S1x8x256x256.ShapeCasts S8x256x256
  inb_S1x1x256x256_S1x1x256x256_0_0_0_0 : ∀ a, (![0, 0, 0, 0] : Fin 4 → Nat) a + S1x1x256x256.size a ≤ S1x1x256x256.size a
  h_S1x1x256x256 : 0 < S1x1x256x256.numel
  shapeCasts_S1x1x256x256_S1x256x256 : S1x1x256x256.ShapeCasts S1x256x256
  inb_S1x8x256x7_S1x8x256x7_0_0_0_0 : ∀ a, (![0, 0, 0, 0] : Fin 4 → Nat) a + S1x8x256x7.size a ≤ S1x8x256x7.size a
  h_S1x8x256x7 : 0 < S1x8x256x7.numel
  shapeCasts_S1x8x256x7_S8x256x7 : S1x8x256x7.ShapeCasts S8x256x7
  slices_S8x256x256_o0_0_0_S7x256x256 : S8x256x256.Slices ![0, 0, 0] S7x256x256
  concatenates_S1x256x256_S7x256x256_S8x256x256_d0 : Shape.Concatenates [S1x256x256, S7x256x256] S8x256x256 0
  slices_S8x256x256_o1_0_0_S7x256x256 : S8x256x256.Slices ![1, 0, 0] S7x256x256
  concatenates_S7x256x256_S1x256x256_S8x256x256_d0 : Shape.Concatenates [S7x256x256, S1x256x256] S8x256x256 0
  iota_S8x256x256_d1_w32 : S8x256x256.Iotas .tc 32 [1]
  rotates_S8x256x256_d1 : S8x256x256.Rotates 1 none
  iota_S8x256x256_d2_w32 : S8x256x256.Iotas .tc 32 [2]
  rotates_S8x256x256_d2 : S8x256x256.Rotates 2 none
  slices_S8x256x7_o0_0_0_S8x256x1 : S8x256x7.Slices ![0, 0, 0] S8x256x1
  slices_S8x256x7_o0_0_1_S8x256x1 : S8x256x7.Slices ![0, 0, 1] S8x256x1
  slices_S8x256x7_o0_0_2_S8x256x1 : S8x256x7.Slices ![0, 0, 2] S8x256x1
  slices_S8x256x7_o0_0_3_S8x256x1 : S8x256x7.Slices ![0, 0, 3] S8x256x1
  slices_S8x256x7_o0_0_4_S8x256x1 : S8x256x7.Slices ![0, 0, 4] S8x256x1
  slices_S8x256x7_o0_0_5_S8x256x1 : S8x256x7.Slices ![0, 0, 5] S8x256x1
  slices_S8x256x7_o0_0_6_S8x256x1 : S8x256x7.Slices ![0, 0, 6] S8x256x1
  broadcasts_S8x256x1_S8x256x256 : S8x256x1.Broadcasts S8x256x256
  shapeCasts_S8x256x256_S1x8x256x256 : S8x256x256.ShapeCasts S1x8x256x256
  reduces_S8x256x256_S8x256 : S8x256x256.Reduces [2] S8x256
  reduces_S8x256_S8 : S8x256.Reduces [1] S8
  shapeCasts_S8_S8x1 : S8.ShapeCasts S8x1
  shapeCasts_S1x8x128_S1x8x128 : S1x8x128.ShapeCasts S1x8x128
  shapeCasts_S8x1_S1x8x1 : S8x1.ShapeCasts S1x8x1
  shapeCasts_S1x8x1_S1x8x1 : S1x8x1.ShapeCasts S1x8x1
  broadcasts_S1x8x1_S1x8x128 : S1x8x1.Broadcasts S1x8x128
  slices_S2x8x128_S2x8x1_0_0_0 : S2x8x128.Slices ![0, 0, 0] S2x8x1
  shapeCasts_S2x8x1_S2x8 : S2x8x1.ShapeCasts S2x8
  reducesTo_S2x8_S_d0_1 : S2x8.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8x256x256.size a ≤ S2x256x256x256.size a
  hwx0_0 : ∀ i : grid0.Coords, EltTy.bits .f32 = 32 ∨ (Rect.block (s := S2x256x256x256) S1x8x256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x256x256.size a ≤ S2x256x256x256.size a
  hwx0_1 : ∀ i : grid0.Coords, EltTy.bits .f32 = 32 ∨ (Rect.block (s := S2x256x256x256) S1x1x256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x256x256.size a ≤ S2x256x256x256.size a
  hwx0_2 : ∀ i : grid0.Coords, EltTy.bits .f32 = 32 ∨ (Rect.block (s := S2x256x256x256) S1x1x256x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x8x256x7.size a ≤ S2x256x256x7.size a
  hwx0_3 : ∀ i : grid0.Coords, EltTy.bits .f32 = 32 ∨ (Rect.block (s := S2x256x256x7) S1x8x256x7.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x8x256x256.size a ≤ S2x256x256x256.size a
  hwx0_4 : ∀ i : grid0.Coords, EltTy.bits .f32 = 32 ∨ (Rect.block (s := S2x256x256x256) S1x8x256x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x8x256x256.size a ≤ S2x256x256x256.size a
  hwx0_5 : ∀ i : grid0.Coords, EltTy.bits .f32 = 32 ∨ (Rect.block (s := S2x256x256x256) S1x8x256x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x8x128.size a ≤ S2x8x128.size a
  hwx0_6 : ∀ i : grid0.Coords, EltTy.bits .f32 = 32 ∨ (Rect.block (s := S2x8x128) S1x8x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x8x128.size a ≤ S2x8x128.size a
  hwx0_7 : ∀ i : grid0.Coords, EltTy.bits .f32 = 32 ∨ (Rect.block (s := S2x8x128) S1x8x128.size (cc0_transform_7 i) (hinb0_7 i)).WholeWords (EltTy.packing .f32)

variable [Facts₀]

abbrev win0_0 : Pipeline.Window sig grid0 :=
  Pipeline.Window.ofSpec (Memref.whole main_arg0) S1x8x256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x1x256x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S1x1x256x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S1x8x256x7.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S1x8x256x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_0) S1x8x256x256.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_1) S1x8x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v0_2) S1x8x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S2x256x256x256 : Shape := ⟨4, ![2, 256, 256, 256]⟩
abbrev S2x256x256x7 : Shape := ⟨4, ![2, 256, 256, 7]⟩
abbrev S_ : Shape := ⟨0, ![]⟩
abbrev S2x256x257x256 : Shape := ⟨4, ![2, 256, 257, 256]⟩
abbrev S2x257x256x256 : Shape := ⟨4, ![2, 257, 256, 256]⟩
abbrev S2x256x256x257 : Shape := ⟨4, ![2, 256, 256, 257]⟩
abbrev S2x256x256x1x7 : Shape := ⟨5, ![2, 256, 256, 1, 7]⟩
abbrev S2x256x256x1x1 : Shape := ⟨5, ![2, 256, 256, 1, 1]⟩
abbrev S2x256x256x1 : Shape := ⟨4, ![2, 256, 256, 1]⟩

abbrev nBuf : Space → Nat
  | .hbm => 71
  | .vmem => 0
  | .smem => 0
  | _ => 0

abbrev bufTy : (tb : Table) → Fin (tcTables nBuf tb) → BufTy
  | .hbm, ⟨0, _⟩ => ⟨S2x256x256x256, .f32⟩
  | .hbm, ⟨1, _⟩ => ⟨S2x256x256x7, .f32⟩
  | .hbm, ⟨2, _⟩ => ⟨S2x256x256x256, .f32⟩
  | .hbm, ⟨3, _⟩ => ⟨S_, .i32⟩
  | .hbm, ⟨4, _⟩ => ⟨S_, .f32⟩
  | .hbm, ⟨5, _⟩ => ⟨S2x256x257x256, .f32⟩
  | .hbm, ⟨6, _⟩ => ⟨S2x256x256x256, .f32⟩
  | .hbm, ⟨7, _⟩ => ⟨S_, .i32⟩
  | .hbm, ⟨8, _⟩ => ⟨S_, .f32⟩
  | .hbm, ⟨9, _⟩ => ⟨S2x256x257x256, .f32⟩
  | .hbm, ⟨10, _⟩ => ⟨S2x256x256x256, .f32⟩
  | .hbm, ⟨11, _⟩ => ⟨S_, .i32⟩
  | .hbm, ⟨12, _⟩ => ⟨S_, .f32⟩
  | .hbm, ⟨13, _⟩ => ⟨S2x257x256x256, .f32⟩
  | .hbm, ⟨14, _⟩ => ⟨S2x256x256x256, .f32⟩
  | .hbm, ⟨15, _⟩ => ⟨S_, .i32⟩
  | .hbm, ⟨16, _⟩ => ⟨S_, .f32⟩
  | .hbm, ⟨17, _⟩ => ⟨S2x257x256x256, .f32⟩
  | .hbm, ⟨18, _⟩ => ⟨S2x256x256x256, .f32⟩
  | .hbm, ⟨19, _⟩ => ⟨S_, .i32⟩
  | .hbm, ⟨20, _⟩ => ⟨S_, .f32⟩
  | .hbm, ⟨21, _⟩ => ⟨S2x256x256x257, .f32⟩
  | .hbm, ⟨22, _⟩ => ⟨S2x256x256x256, .f32⟩
  | .hbm, ⟨23, _⟩ => ⟨S_, .i32⟩
  | .hbm, ⟨24, _⟩ => ⟨S_, .f32⟩
  | .hbm, ⟨25, _⟩ => ⟨S2x256x256x257, .f32⟩
  | .hbm, ⟨26, _⟩ => ⟨S2x256x256x256, .f32⟩
  | .hbm, ⟨27, _⟩ => ⟨S2x256x256x1x7, .f32⟩
  | .hbm, ⟨28, _⟩ => ⟨S2x256x256x1x1, .f32⟩
  | .hbm, ⟨29, _⟩ => ⟨S2x256x256x1, .f32⟩
  | .hbm, ⟨30, _⟩ => ⟨S2x256x256x256, .f32⟩
  | .hbm, ⟨31, _⟩ => ⟨S2x256x256x256, .f32⟩
  | .hbm, ⟨32, _⟩ => ⟨S2x256x256x1x1, .f32⟩
  | .hbm, ⟨33, _⟩ => ⟨S2x256x256x1, .f32⟩
  | .hbm, ⟨34, _⟩ => ⟨S2x256x256x256, .f32⟩
  | .hbm, ⟨35, _⟩ => ⟨S2x256x256x256, .f32⟩
  | .hbm, ⟨36, _⟩ => ⟨S2x256x256x256, .f32⟩
  | .hbm, ⟨37, _⟩ => ⟨S2x256x256x1x1, .f32⟩
  | .hbm, ⟨38, _⟩ => ⟨S2x256x256x1, .f32⟩
  | .hbm, ⟨39, _⟩ => ⟨S2x256x256x256, .f32⟩
  | .hbm, ⟨40, _⟩ => ⟨S2x256x256x256, .f32⟩
  | .hbm, ⟨41, _⟩ => ⟨S2x256x256x256, .f32⟩
  | .hbm, ⟨42, _⟩ => ⟨S2x256x256x1x1, .f32⟩
  | .hbm, ⟨43, _⟩ => ⟨S2x256x256x1, .f32⟩
  | .hbm, ⟨44, _⟩ => ⟨S2x256x256x256, .f32⟩
  | .hbm, ⟨45, _⟩ => ⟨S2x256x256x256, .f32⟩
  | .hbm, ⟨46, _⟩ => ⟨S2x256x256x256, .f32⟩
  | .hbm, ⟨47, _⟩ => ⟨S2x256x256x1x1, .f32⟩
  | .hbm, ⟨48, _⟩ => ⟨S2x256x256x1, .f32⟩
  | .hbm, ⟨49, _⟩ => ⟨S2x256x256x256, .f32⟩
  | .hbm, ⟨50, _⟩ => ⟨S2x256x256x256, .f32⟩
  | .hbm, ⟨51, _⟩ => ⟨S2x256x256x256, .f32⟩
  | .hbm, ⟨52, _⟩ => ⟨S2x256x256x1x1, .f32⟩
  | .hbm, ⟨53, _⟩ => ⟨S2x256x256x1, .f32⟩
  | .hbm, ⟨54, _⟩ => ⟨S2x256x256x256, .f32⟩
  | .hbm, ⟨55, _⟩ => ⟨S2x256x256x256, .f32⟩
  | .hbm, ⟨56, _⟩ => ⟨S2x256x256x256, .f32⟩
  | .hbm, ⟨57, _⟩ => ⟨S2x256x256x1x1, .f32⟩
  | .hbm, ⟨58, _⟩ => ⟨S2x256x256x1, .f32⟩
  | .hbm, ⟨59, _⟩ => ⟨S2x256x256x256, .f32⟩
  | .hbm, ⟨60, _⟩ => ⟨S2x256x256x256, .f32⟩
  | .hbm, ⟨61, _⟩ => ⟨S2x256x256x256, .f32⟩
  | .hbm, ⟨62, _⟩ => ⟨S2x256x256x256, .f32⟩
  | .hbm, ⟨63, _⟩ => ⟨S2x256x256x256, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S2x256x256x256, .f32⟩
  | .hbm, ⟨69, _⟩ => ⟨S_, .f32⟩
  | .hbm, ⟨70, _⟩ => ⟨S_, .f32⟩
  | _, _ => ⟨S2x256x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_call1_v0 : Ref sig .tc := ⟨.hbm, 8, rfl⟩
abbrev main_v2 : Ref sig .tc := ⟨.hbm, 9, rfl⟩
abbrev main_v3 : Ref sig .tc := ⟨.hbm, 10, rfl⟩
abbrev main_c_1 : Ref sig .tc := ⟨.hbm, 11, rfl⟩
abbrev main_call2_v0 : Ref sig .tc := ⟨.hbm, 12, rfl⟩
abbrev main_v4 : Ref sig .tc := ⟨.hbm, 13, rfl⟩
abbrev main_v5 : Ref sig .tc := ⟨.hbm, 14, rfl⟩
abbrev main_c_2 : Ref sig .tc := ⟨.hbm, 15, rfl⟩
abbrev main_call3_v0 : Ref sig .tc := ⟨.hbm, 16, rfl⟩
abbrev main_v6 : Ref sig .tc := ⟨.hbm, 17, rfl⟩
abbrev main_v7 : Ref sig .tc := ⟨.hbm, 18, rfl⟩
abbrev main_c_3 : Ref sig .tc := ⟨.hbm, 19, rfl⟩
abbrev main_call4_v0 : Ref sig .tc := ⟨.hbm, 20, rfl⟩
abbrev main_v8 : Ref sig .tc := ⟨.hbm, 21, rfl⟩
abbrev main_v9 : Ref sig .tc := ⟨.hbm, 22, rfl⟩
abbrev main_c_4 : Ref sig .tc := ⟨.hbm, 23, rfl⟩
abbrev main_call5_v0 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst : Ref sig .tc := ⟨.hbm, 64, rfl⟩
abbrev main_v49 : Ref sig .tc := ⟨.hbm, 65, rfl⟩
abbrev main_cst_5 : Ref sig .tc := ⟨.hbm, 66, rfl⟩
abbrev main_v50 : Ref sig .tc := ⟨.hbm, 67, rfl⟩
abbrev main_v51 : Ref sig .tc := ⟨.hbm, 68, rfl⟩
abbrev main_cst_6 : Ref sig .tc := ⟨.hbm, 69, rfl⟩
abbrev main_v52 : Ref sig .tc := ⟨.hbm, 70, rfl⟩

abbrev nD : Nat := 1
abbrev τ : Topo := Topo.v7x

variable {F : FTy → Type} [FloatOps F]

class Facts₀ : Prop where
  pads_S2x256x256x256_S2x256x257x256_000_000_100_000 : S2x256x256x256.Pads (![0, 0, 1, 0] : Fin 4 → Nat) ![0, 0, 0, 0] ![0, 0, 0, 0] S2x256x257x256
  h_S_ : 0 < S_.numel
  slices_S2x256x257x256_S2x256x256x256_0_0_0_0 : S2x256x257x256.Slices ![0, 0, 0, 0] S2x256x256x256
  pads_S2x256x256x256_S2x256x257x256_000_000_010_000 : S2x256x256x256.Pads (![0, 0, 0, 0] : Fin 4 → Nat) ![0, 0, 1, 0] ![0, 0, 0, 0] S2x256x257x256
  slices_S2x256x257x256_S2x256x256x256_0_0_1_0 : S2x256x257x256.Slices ![0, 0, 1, 0] S2x256x256x256
  pads_S2x256x256x256_S2x257x256x256_000_100_000_000 : S2x256x256x256.Pads (![0, 1, 0, 0] : Fin 4 → Nat) ![0, 0, 0, 0] ![0, 0, 0, 0] S2x257x256x256
  slices_S2x257x256x256_S2x256x256x256_0_0_0_0 : S2x257x256x256.Slices ![0, 0, 0, 0] S2x256x256x256
  pads_S2x256x256x256_S2x257x256x256_000_010_000_000 : S2x256x256x256.Pads (![0, 0, 0, 0] : Fin 4 → Nat) ![0, 1, 0, 0] ![0, 0, 0, 0] S2x257x256x256
  slices_S2x257x256x256_S2x256x256x256_0_1_0_0 : S2x257x256x256.Slices ![0, 1, 0, 0] S2x256x256x256
  pads_S2x256x256x256_S2x256x256x257_000_000_000_100 : S2x256x256x256.Pads (![0, 0, 0, 1] : Fin 4 → Nat) ![0, 0, 0, 0] ![0, 0, 0, 0] S2x256x256x257
  slices_S2x256x256x257_S2x256x256x256_0_0_0_0 : S2x256x256x257.Slices ![0, 0, 0, 0] S2x256x256x256
  pads_S2x256x256x256_S2x256x256x257_000_000_000_010 : S2x256x256x256.Pads (![0, 0, 0, 0] : Fin 4 → Nat) ![0, 0, 0, 1] ![0, 0, 0, 0] S2x256x256x257
  slices_S2x256x256x257_S2x256x256x256_0_0_0_1 : S2x256x256x257.Slices ![0, 0, 0, 1] S2x256x256x256
  bcast_S2x256x256x7_S2x256x256x1x7_0_1_2_4 : S2x256x256x7.BroadcastsInDim S2x256x256x1x7 (![0, 1, 2, 4] : Fin 4 → Fin S2x256x256x1x7.rank)
  slices_S2x256x256x1x7_S2x256x256x1x1_0_0_0_0_0 : S2x256x256x1x7.Slices ![0, 0, 0, 0, 0] S2x256x256x1x1
  shapeCasts_S2x256x256x1x1_S2x256x256x1 : S2x256x256x1x1.ShapeCasts S2x256x256x1
  bcast_S2x256x256x1_S2x256x256x256_0_1_2_3 : S2x256x256x1.BroadcastsInDim S2x256x256x256 (![0, 1, 2, 3] : Fin 4 → Fin S2x256x256x256.rank)
  slices_S2x256x256x1x7_S2x256x256x1x1_0_0_0_0_1 : S2x256x256x1x7.Slices ![0, 0, 0, 0, 1] S2x256x256x1x1
  slices_S2x256x256x1x7_S2x256x256x1x1_0_0_0_0_2 : S2x256x256x1x7.Slices ![0, 0, 0, 0, 2] S2x256x256x1x1
  slices_S2x256x256x1x7_S2x256x256x1x1_0_0_0_0_3 : S2x256x256x1x7.Slices ![0, 0, 0, 0, 3] S2x256x256x1x1
  slices_S2x256x256x1x7_S2x256x256x1x1_0_0_0_0_4 : S2x256x256x1x7.Slices ![0, 0, 0, 0, 4] S2x256x256x1x1
  slices_S2x256x256x1x7_S2x256x256x1x1_0_0_0_0_5 : S2x256x256x1x7.Slices ![0, 0, 0, 0, 5] S2x256x256x1x1
  slices_S2x256x256x1x7_S2x256x256x1x1_0_0_0_0_6 : S2x256x256x1x7.Slices ![0, 0, 0, 0, 6] S2x256x256x1x1
  reducesTo_S2x256x256x256_S_d0_1_2_3 : S2x256x256x256.ReducesTo [0, 1, 2, 3] S_

variable [Facts₀]

class Facts : Prop extends Facts₀ where

variable [Facts]
-- ==== Proof.BodyShared.lean ====
/-
  What the two runs of the kernel's body are stated over.

  The grid is 2 × 32: a batch coordinate and a tile coordinate along h, eight rows per tile. The body starts by asking
  whether the tile coordinate is zero; where it is, the two running totals (the sum of squared errors and the largest
  absolute error, one number per row of the tile) are set to zero before the tile's contribution is added. In the
  row-major numbering of the 64 grid points that is the case exactly at the points divisible by 32. Each of the eight
  windows has two staging buffers and is on one of them at each point.
-/
import proofs.«175465_j3083786518603_2_alg».proof.Proof.Gen.KernelIdeal.Launch
import proofs.«175465_j3083786518603_2_alg».proof.Proof.Gen.KernelIdeal.Skeleton
import proofs.«175465_j3083786518603_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- "The tile coordinate is zero", as the body computes it from the grid coordinates: compare, widen, compare with zero. -/
abbrev firstTile (i : grid0.Coords) : Prop :=
  (Scalar.cmpi .ne (Scalar.extui (Scalar.cmpi .eq (BitVec.ofNat 32 (i 1).val) 0#32)) 0#32) = 1#1

/-- It holds exactly at the grid points divisible by 32: the first tile of each batch entry. -/
theorem firstTile_iff : ∀ t : Fin cfg0.N, firstTile (grid0.coords t) ↔ t.val % 32 = 0 :=
  (by decide +kernel : ∀ t : Fin grid0.N, firstTile (grid0.coords t) ↔ t.val % 32 = 0)

/-- Each window's current staging buffer at point `t`, and that it is a whole buffer. -/
abbrev ms0 (t : Fin cfg0.N) : Memref sig .tc .vmem S1x8x256x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x1x256x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1x256x256 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x8x256x7 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x8x256x256 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x8x256x256 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x8x128 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x8x128 .f32 := win0_7.stage (cfg0.slots t 7)
abbrev hs7 (t : Fin cfg0.N) : (ms7 t).IsWhole := hstage0_7 ((cfg0.slots t 7).cast nbuf0_7)

/-- One staging buffer of each result window, through which that window's contents are stated (which of the two is
    chosen does not matter: a block's contents are read through the view, not the buffer). -/
abbrev viewOut : View sig .tc .vmem S1x8x256x256 .f32 := (Memref.whole cc0_stg5_0 : Memref sig .tc .vmem S1x8x256x256 .f32).view
abbrev viewSum : View sig .tc .vmem S1x8x128 .f32 := (Memref.whole cc0_stg6_0 : Memref sig .tc .vmem S1x8x128 .f32).view
abbrev viewMax : View sig .tc .vmem S1x8x128 .f32 := (Memref.whole cc0_stg7_0 : Memref sig .tc .vmem S1x8x128 .f32).view

end Cert.KernelIdeal.Body

end
-- ==== Proof.BodyRunFirst.lean ====
/-
  The body at a first tile of a batch entry.

  On whole staging buffers — the five inputs' at given contents, the three results' at anything — the body runs to its
  end without a fault, leaves the inputs as they were, and leaves in each result's buffer a list of stored pieces (the
  last store first): in the output block's buffer the one whole-block store of the stencil's values; in each running
  total's buffer the whole-block store of the tile's contribution over the whole-block store of zeros that the first
  tile begins with. The lists are the ones the body's run produces; they are the witness of this definition.
-/
import proofs.«175465_j3083786518603_2_alg».proof.Proof.BodyShared

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces each result's buffer ends with at a first tile, with the run that produces them. -/
noncomputable def runFirst (c : Dev nD) (i : grid0.Coords) (arg2 : Memref sig .tc .vmem S1x8x256x256 .f32) (harg2 : arg2.IsWhole) (arg3 : Memref sig .tc .vmem S1x1x256x256 .f32) (harg3 : arg3.IsWhole) (arg4 : Memref sig .tc .vmem S1x1x256x256 .f32) (harg4 : arg4.IsWhole) (arg5 : Memref sig .tc .vmem S1x8x256x7 .f32) (harg5 : arg5.IsWhole) (arg6 : Memref sig .tc .vmem S1x8x256x256 .f32) (harg6 : arg6.IsWhole) (arg7 : Memref sig .tc .vmem S1x8x256x256 .f32) (harg7 : arg7.IsWhole) (arg8 : Memref sig .tc .vmem S1x8x128 .f32) (harg8 : arg8.IsWhole) (arg9 : Memref sig .tc .vmem S1x8x128 .f32) (harg9 : arg9.IsWhole) (hc : firstTile i)
    (x0 : Vec F S1x8x256x256 .f32) (x1 : Vec F S1x1x256x256 .f32) (x2 : Vec F S1x1x256x256 .f32) (x3 : Vec F S1x8x256x7 .f32) (x4 : Vec F S1x8x256x256 .f32) :
    { L : List (View.Piece (Elt F) S1x8x256x256 .f32) × List (View.Piece (Elt F) S1x8x128 .f32) × List (View.Piece (Elt F) S1x8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2
                ∗ owns (c : Thread nD τ) arg5 fullShare x3 ∗ owns (c : Thread nD τ) arg6 fullShare x4
                ∗ (∃ f, arg7.view.loc (c : Thread nD τ) ↦[arg7.view.set]{fullShare} arg7.view.writes (Elt F) f L.1)
                ∗ (∃ f, arg8.view.loc (c : Thread nD τ) ↦[arg8.view.set]{fullShare} arg8.view.writes (Elt F) f L.2.1)
                ∗ (∃ f, arg9.view.loc (c : Thread nD τ) ↦[arg9.view.set]{fullShare} arg9.view.writes (Elt F) f L.2.2)) -∗ K ⟨⟩))
          ⊢ wp frame (wpE (defs₀ (F := F)) Variants.none c none) E (cc0__stencil_kernel i arg2 harg2 arg3 harg3 arg4 harg4 arg5 harg5 arg6 harg6 arg7 harg7 arg8 harg8 arg9 harg9) K } := by
  refine ⟨⟨?_, ?_, ?_⟩, fun E K => ?run⟩
  case run =>
    simp only [cc0__stencil_kernel_eq_skeleton]; unfold cc0__stencil_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
    obtain rfl := harg2.eq_unread hf0
    obtain rfl := harg3.eq_unread hf1
    obtain rfl := harg4.eq_unread hf2
    obtain rfl := harg5.eq_unread hf3
    obtain rfl := harg6.eq_unread hf4
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; iexact H5
    isplitl [H6]
    · iexists _; iexact H6
    iexists _; iexact H7

end Cert.KernelIdeal.Body

end
-- ==== Proof.BodyRunLater.lean ====
/-
  The body at a later tile of a batch entry.

  As at a first tile, but the two running totals' buffers are held at the contents the tile before left, which the body
  reads: each ends with the one whole-block store of those contents combined with this tile's contribution (added, for
  the sum of squared errors; the larger of the two, for the largest absolute error).
-/
import proofs.«175465_j3083786518603_2_alg».proof.Proof.BodyRunFirst

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces each result's buffer ends with at a later tile, with the run that produces them. -/
noncomputable def runLater (c : Dev nD) (i : grid0.Coords) (arg2 : Memref sig .tc .vmem S1x8x256x256 .f32) (harg2 : arg2.IsWhole) (arg3 : Memref sig .tc .vmem S1x1x256x256 .f32) (harg3 : arg3.IsWhole) (arg4 : Memref sig .tc .vmem S1x1x256x256 .f32) (harg4 : arg4.IsWhole) (arg5 : Memref sig .tc .vmem S1x8x256x7 .f32) (harg5 : arg5.IsWhole) (arg6 : Memref sig .tc .vmem S1x8x256x256 .f32) (harg6 : arg6.IsWhole) (arg7 : Memref sig .tc .vmem S1x8x256x256 .f32) (harg7 : arg7.IsWhole) (arg8 : Memref sig .tc .vmem S1x8x128 .f32) (harg8 : arg8.IsWhole) (arg9 : Memref sig .tc .vmem S1x8x128 .f32) (harg9 : arg9.IsWhole) (hc : ¬firstTile i)
    (x0 : Vec F S1x8x256x256 .f32) (x1 : Vec F S1x1x256x256 .f32) (x2 : Vec F S1x1x256x256 .f32) (x3 : Vec F S1x8x256x7 .f32) (x4 : Vec F S1x8x256x256 .f32) (xo6 : Vec F S1x8x128 .f32) (xo7 : Vec F S1x8x128 .f32) :
    { L : List (View.Piece (Elt F) S1x8x256x256 .f32) × List (View.Piece (Elt F) S1x8x128 .f32) × List (View.Piece (Elt F) S1x8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ (∃ d, owns (c : Thread nD τ) arg7 fullShare d) ∗ owns (c : Thread nD τ) arg8 fullShare xo6 ∗ owns (c : Thread nD τ) arg9 fullShare xo7
            ∗ (iprop(owns (c : Thread nD τ) arg2 fullShare x0 ∗ owns (c : Thread nD τ) arg3 fullShare x1 ∗ owns (c : Thread nD τ) arg4 fullShare x2
                ∗ owns (c : Thread nD τ) arg5 fullShare x3 ∗ owns (c : Thread nD τ) arg6 fullShare x4
                ∗ (∃ f, arg7.view.loc (c : Thread nD τ) ↦[arg7.view.set]{fullShare} arg7.view.writes (Elt F) f L.1)
                ∗ (∃ f, arg8.view.loc (c : Thread nD τ) ↦[arg8.view.set]{fullShare} arg8.view.writes (Elt F) f L.2.1)
                ∗ (∃ f, arg9.view.loc (c : Thread nD τ) ↦[arg9.view.set]{fullShare} arg9.view.writes (Elt F) f L.2.2)) -∗ K ⟨⟩))
          ⊢ wp frame (wpE (defs₀ (F := F)) Variants.none c none) E (cc0__stencil_kernel i arg2 harg2 arg3 harg3 arg4 harg4 arg5 harg5 arg6 harg6 arg7 harg7 arg8 harg8 arg9 harg9) K } := by
  refine ⟨⟨?_, ?_, ?_⟩, fun E K => ?run⟩
  case run =>
    simp only [cc0__stencil_kernel_eq_skeleton]; unfold cc0__stencil_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, Hk⟩
    obtain rfl := harg2.eq_unread hf0
    obtain rfl := harg3.eq_unread hf1
    obtain rfl := harg4.eq_unread hf2
    obtain rfl := harg5.eq_unread hf3
    obtain rfl := harg6.eq_unread hf4
    obtain rfl := harg8.eq_unread hf6
    obtain rfl := harg9.eq_unread hf7
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; iexact H5
    isplitl [H6]
    · iexists _; iexact H6
    iexists _; iexact H7

end Cert.KernelIdeal.Body

end
-- ==== Proof.BodyData.lean ====
/-
  What the kernel's three result buffers hold after each grid point, and the pipeline's proof data.

  A grid point is a tile of eight rows of one batch entry. After the body has run at a point, the output block's buffer
  holds the stencil's values on the tile; each running total's buffer holds, per row of the tile, the total over the
  tiles of this batch entry seen so far: at a first tile this tile's contribution over zero, at a later tile this
  tile's contribution combined with what the tile before left. The buffers of the two running totals are written back
  to their arrays only after the last tile of a batch entry, so between tiles they keep what the body left. The five
  input windows' buffers hold their blocks of the argument arrays, which the body only reads.
-/
import proofs.«175465_j3083786518603_2_alg».proof.Proof.BodyRunLater

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The core's buffers when the region is entered: as launched (the region is the first thing the program does). -/
abbrev V (c : Dev nD) (b : Ref sig .tc) : Buf (Elt F) ((c : Thread nD τ).loc b) := m ((c : Thread nD τ).loc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The stored pieces cover each result's block -/

section Covers
variable (c : Dev nD) (i : grid0.Coords) (arg2 : Memref sig .tc .vmem S1x8x256x256 .f32) (harg2 : arg2.IsWhole) (arg3 : Memref sig .tc .vmem S1x1x256x256 .f32) (harg3 : arg3.IsWhole) (arg4 : Memref sig .tc .vmem S1x1x256x256 .f32) (harg4 : arg4.IsWhole) (arg5 : Memref sig .tc .vmem S1x8x256x7 .f32) (harg5 : arg5.IsWhole) (arg6 : Memref sig .tc .vmem S1x8x256x256 .f32) (harg6 : arg6.IsWhole) (arg7 : Memref sig .tc .vmem S1x8x256x256 .f32) (harg7 : arg7.IsWhole) (arg8 : Memref sig .tc .vmem S1x8x128 .f32) (harg8 : arg8.IsWhole) (arg9 : Memref sig .tc .vmem S1x8x128 .f32) (harg9 : arg9.IsWhole) (x0 : Vec F S1x8x256x256 .f32) (x1 : Vec F S1x1x256x256 .f32) (x2 : Vec F S1x1x256x256 .f32) (x3 : Vec F S1x8x256x7 .f32) (x4 : Vec F S1x8x256x256 .f32)

theorem coverFirst5 (hc : firstTile i) (y : S1x8x256x256.Idx) : ∃ pc ∈ (runFirst c i arg2 harg2 arg3 harg3 arg4 harg4 arg5 harg5 arg6 harg6 arg7 harg7 arg8 harg8 arg9 harg9 hc x0 x1 x2 x3 x4).1.1, y ∈ pc.1.set :=
  View.cover_of_tiledL (runFirst c i arg2 harg2 arg3 harg3 arg4 harg4 arg5 harg5 arg6 harg6 arg7 harg7 arg8 harg8 arg9 harg9 hc x0 x1 x2 x3 x4).1.1 S1x8x256x256.size (by sl_kernel_rfl) y
theorem coverFirst6 (hc : firstTile i) (y : S1x8x128.Idx) : ∃ pc ∈ (runFirst c i arg2 harg2 arg3 harg3 arg4 harg4 arg5 harg5 arg6 harg6 arg7 harg7 arg8 harg8 arg9 harg9 hc x0 x1 x2 x3 x4).1.2.1, y ∈ pc.1.set :=
  View.cover_of_tiledL (runFirst c i arg2 harg2 arg3 harg3 arg4 harg4 arg5 harg5 arg6 harg6 arg7 harg7 arg8 harg8 arg9 harg9 hc x0 x1 x2 x3 x4).1.2.1 S1x8x128.size (by sl_kernel_rfl) y
theorem coverFirst7 (hc : firstTile i) (y : S1x8x128.Idx) : ∃ pc ∈ (runFirst c i arg2 harg2 arg3 harg3 arg4 harg4 arg5 harg5 arg6 harg6 arg7 harg7 arg8 harg8 arg9 harg9 hc x0 x1 x2 x3 x4).1.2.2, y ∈ pc.1.set :=
  View.cover_of_tiledL (runFirst c i arg2 harg2 arg3 harg3 arg4 harg4 arg5 harg5 arg6 harg6 arg7 harg7 arg8 harg8 arg9 harg9 hc x0 x1 x2 x3 x4).1.2.2 S1x8x128.size (by sl_kernel_rfl) y
theorem coverLater5 (hc : ¬firstTile i) (xo6 xo7 : Vec F S1x8x128 .f32) (y : S1x8x256x256.Idx) : ∃ pc ∈ (runLater c i arg2 harg2 arg3 harg3 arg4 harg4 arg5 harg5 arg6 harg6 arg7 harg7 arg8 harg8 arg9 harg9 hc x0 x1 x2 x3 x4 xo6 xo7).1.1, y ∈ pc.1.set :=
  View.cover_of_tiledL (runLater c i arg2 harg2 arg3 harg3 arg4 harg4 arg5 harg5 arg6 harg6 arg7 harg7 arg8 harg8 arg9 harg9 hc x0 x1 x2 x3 x4 xo6 xo7).1.1 S1x8x256x256.size (by sl_kernel_rfl) y
theorem coverLater6 (hc : ¬firstTile i) (xo6 xo7 : Vec F S1x8x128 .f32) (y : S1x8x128.Idx) : ∃ pc ∈ (runLater c i arg2 harg2 arg3 harg3 arg4 harg4 arg5 harg5 arg6 harg6 arg7 harg7 arg8 harg8 arg9 harg9 hc x0 x1 x2 x3 x4 xo6 xo7).1.2.1, y ∈ pc.1.set :=
  View.cover_of_tiledL (runLater c i arg2 harg2 arg3 harg3 arg4 harg4 arg5 harg5 arg6 harg6 arg7 harg7 arg8 harg8 arg9 harg9 hc x0 x1 x2 x3 x4 xo6 xo7).1.2.1 S1x8x128.size (by sl_kernel_rfl) y
theorem coverLater7 (hc : ¬firstTile i) (xo6 xo7 : Vec F S1x8x128 .f32) (y : S1x8x128.Idx) : ∃ pc ∈ (runLater c i arg2 harg2 arg3 harg3 arg4 harg4 arg5 harg5 arg6 harg6 arg7 harg7 arg8 harg8 arg9 harg9 hc x0 x1 x2 x3 x4 xo6 xo7).1.2.2, y ∈ pc.1.set :=
  View.cover_of_tiledL (runLater c i arg2 harg2 arg3 harg3 arg4 harg4 arg5 harg5 arg6 harg6 arg7 harg7 arg8 harg8 arg9 harg9 hc x0 x1 x2 x3 x4 xo6 xo7).1.2.2 S1x8x128.size (by sl_kernel_rfl) y

/-- What a first tile leaves in the three result buffers: its pieces read back. -/
def leftFirst (hc : firstTile i) : Vec F S1x8x256x256 .f32 × Vec F S1x8x128 .f32 × Vec F S1x8x128 .f32 :=
  (viewOut.read (Elt F) (viewOut.writes (Elt F) viewOut.junk (runFirst c i arg2 harg2 arg3 harg3 arg4 harg4 arg5 harg5 arg6 harg6 arg7 harg7 arg8 harg8 arg9 harg9 hc x0 x1 x2 x3 x4).1.1),
   viewSum.read (Elt F) (viewSum.writes (Elt F) viewSum.junk (runFirst c i arg2 harg2 arg3 harg3 arg4 harg4 arg5 harg5 arg6 harg6 arg7 harg7 arg8 harg8 arg9 harg9 hc x0 x1 x2 x3 x4).1.2.1),
   viewMax.read (Elt F) (viewMax.writes (Elt F) viewMax.junk (runFirst c i arg2 harg2 arg3 harg3 arg4 harg4 arg5 harg5 arg6 harg6 arg7 harg7 arg8 harg8 arg9 harg9 hc x0 x1 x2 x3 x4).1.2.2))

/-- What a later tile leaves in them, from what the tile before left in the two running totals' buffers. -/
def leftLater (hc : ¬firstTile i) (xo6 xo7 : Vec F S1x8x128 .f32) : Vec F S1x8x256x256 .f32 × Vec F S1x8x128 .f32 × Vec F S1x8x128 .f32 :=
  (viewOut.read (Elt F) (viewOut.writes (Elt F) viewOut.junk (runLater c i arg2 harg2 arg3 harg3 arg4 harg4 arg5 harg5 arg6 harg6 arg7 harg7 arg8 harg8 arg9 harg9 hc x0 x1 x2 x3 x4 xo6 xo7).1.1),
   viewSum.read (Elt F) (viewSum.writes (Elt F) viewSum.junk (runLater c i arg2 harg2 arg3 harg3 arg4 harg4 arg5 harg5 arg6 harg6 arg7 harg7 arg8 harg8 arg9 harg9 hc x0 x1 x2 x3 x4 xo6 xo7).1.2.1),
   viewMax.read (Elt F) (viewMax.writes (Elt F) viewMax.junk (runLater c i arg2 harg2 arg3 harg3 arg4 harg4 arg5 harg5 arg6 harg6 arg7 harg7 arg8 harg8 arg9 harg9 hc x0 x1 x2 x3 x4 xo6 xo7).1.2.2))
end Covers

/-! ## Point by point -/

/-- What the three result buffers hold after the body at position `n` of the grid: the first-tile case at the positions
    divisible by 32, else the later-tile case over what position `n - 1` left in the running totals' buffers. -/
def leftAt (c : Dev nD) : (n : ℕ) → n < cfg0.N → Vec F S1x8x256x256 .f32 × Vec F S1x8x128 .f32 × Vec F S1x8x128 .f32
  | 0, hn => leftFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) (ms7 ⟨0, hn⟩) (hs7 ⟨0, hn⟩) (iblk m c 0 ⟨0, hn⟩) (iblk m c 1 ⟨0, hn⟩) (iblk m c 2 ⟨0, hn⟩) (iblk m c 3 ⟨0, hn⟩) (iblk m c 4 ⟨0, hn⟩) ((firstTile_iff ⟨0, hn⟩).mpr (Nat.zero_mod _))
  | n + 1, hn =>
    if h0 : (n + 1) % 32 = 0 then
      leftFirst c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (iblk m c 0 ⟨n + 1, hn⟩) (iblk m c 1 ⟨n + 1, hn⟩) (iblk m c 2 ⟨n + 1, hn⟩) (iblk m c 3 ⟨n + 1, hn⟩) (iblk m c 4 ⟨n + 1, hn⟩) ((firstTile_iff ⟨n + 1, hn⟩).mpr h0)
    else
      leftLater c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (iblk m c 0 ⟨n + 1, hn⟩) (iblk m c 1 ⟨n + 1, hn⟩) (iblk m c 2 ⟨n + 1, hn⟩) (iblk m c 3 ⟨n + 1, hn⟩) (iblk m c 4 ⟨n + 1, hn⟩) (fun h => h0 ((firstTile_iff ⟨n + 1, hn⟩).mp h))
        (leftAt c n (Nat.lt_of_succ_lt hn)).2.1 (leftAt c n (Nat.lt_of_succ_lt hn)).2.2

theorem leftAt_first (c : Dev nD) (t : Fin cfg0.N) (h0 : t.val % 32 = 0) :
    leftAt m c t.val t.isLt = leftFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) (iblk m c 0 t) (iblk m c 1 t) (iblk m c 2 t) (iblk m c 3 t) (iblk m c 4 t) ((firstTile_iff t).mpr h0) := by
  obtain ⟨n, hn⟩ := t
  cases n with
  | zero => exact rfl
  | succ n => exact (dif_pos h0).trans rfl

theorem leftAt_later (c : Dev nD) (t : Fin cfg0.N) (h0 : ¬t.val % 32 = 0) :
    leftAt m c t.val t.isLt = leftLater c (grid0.coords t) (ms0 t) (hs0 t) (ms1 t) (hs1 t) (ms2 t) (hs2 t) (ms3 t) (hs3 t) (ms4 t) (hs4 t) (ms5 t) (hs5 t) (ms6 t) (hs6 t) (ms7 t) (hs7 t) (iblk m c 0 t) (iblk m c 1 t) (iblk m c 2 t) (iblk m c 3 t) (iblk m c 4 t) (fun h => h0 ((firstTile_iff t).mp h))
      (leftAt m c (t.val - 1) (Nat.lt_of_le_of_lt (Nat.sub_le _ _) t.isLt)).2.1 (leftAt m c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans rfl

/-! ## The proof data -/

/-- The pipeline's proof data on core `c`, for any way `q` of dealing the argument arrays' shares among the input
    windows: the arrays as the region finds them; after the body at point `t` each input's buffer at its block and the
    three results' buffers at `leftAt`; between points nothing but the buffers no window stages; nothing owed. -/
def dats (q : Fin cfg0.W → PosShare TreeShare) (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (leftAt m c t.val t.isLt).1
    | ⟨6, _⟩ => (leftAt m c t.val t.isLt).2.1
    | ⟨7, _⟩ => (leftAt m c t.val t.isLt).2.2
  Φ _ := Pipeline.scopedRest spec0 c
  q := q
  owed _ := 0

variable (q : Fin cfg0.W → PosShare TreeShare)

theorem A_eq (c : Dev nD) (w : Fin cfg0.W) : (dats m q 0 c).A w = V m c (Pipeline.arrRef spec0 w) := by dsimp only [dats]

theorem after0 (c : Dev nD) (t : Fin cfg0.N) : (dats m q 0 c).after 0 t = iblk m c 0 t := by dsimp only [dats]
theorem after1 (c : Dev nD) (t : Fin cfg0.N) : (dats m q 0 c).after 1 t = iblk m c 1 t := by dsimp only [dats]
theorem after2 (c : Dev nD) (t : Fin cfg0.N) : (dats m q 0 c).after 2 t = iblk m c 2 t := by dsimp only [dats]
theorem after3 (c : Dev nD) (t : Fin cfg0.N) : (dats m q 0 c).after 3 t = iblk m c 3 t := by dsimp only [dats]
theorem after4 (c : Dev nD) (t : Fin cfg0.N) : (dats m q 0 c).after 4 t = iblk m c 4 t := by dsimp only [dats]
theorem after5 (c : Dev nD) (t : Fin cfg0.N) : (dats m q 0 c).after 5 t = (leftAt m c t.val t.isLt).1 := by dsimp only [dats]
theorem after6 (c : Dev nD) (t : Fin cfg0.N) : (dats m q 0 c).after 6 t = (leftAt m c t.val t.isLt).2.1 := by dsimp only [dats]
theorem after7 (c : Dev nD) (t : Fin cfg0.N) : (dats m q 0 c).after 7 t = (leftAt m c t.val t.isLt).2.2 := by dsimp only [dats]

/-- Each input window is fetched at every point, so its current buffer holds its block of the argument array. -/
theorem before0 (c : Dev nD) (t : Fin cfg0.N) (d) : (dats m q 0 c).before 0 t d = iblk m c 0 t := by
  rw [Dat.before_fetched _ 0 t (fetch0_0 t)]; unfold Dat.fetched Dat.blockOf iblk; dsimp only [dats]; rfl
theorem before1 (c : Dev nD) (t : Fin cfg0.N) (d) : (dats m q 0 c).before 1 t d = iblk m c 1 t := by
  rw [Dat.before_fetched _ 1 t (fetch0_1 t)]; unfold Dat.fetched Dat.blockOf iblk; dsimp only [dats]; rfl
theorem before2 (c : Dev nD) (t : Fin cfg0.N) (d) : (dats m q 0 c).before 2 t d = iblk m c 2 t := by
  rw [Dat.before_fetched _ 2 t (fetch0_2 t)]; unfold Dat.fetched Dat.blockOf iblk; dsimp only [dats]; rfl
theorem before3 (c : Dev nD) (t : Fin cfg0.N) (d) : (dats m q 0 c).before 3 t d = iblk m c 3 t := by
  rw [Dat.before_fetched _ 3 t (fetch0_3 t)]; unfold Dat.fetched Dat.blockOf iblk; dsimp only [dats]; rfl
theorem before4 (c : Dev nD) (t : Fin cfg0.N) (d) : (dats m q 0 c).before 4 t d = iblk m c 4 t := by
  rw [Dat.before_fetched _ 4 t (fetch0_4 t)]; unfold Dat.fetched Dat.blockOf iblk; dsimp only [dats]; rfl

/-- At a later tile each running total's buffer holds what the body left at the tile before: the point is not the
    first, and the buffer is written back only after a batch entry's last tile, which the tile before is not. -/
theorem before6_later (c : Dev nD) (t : Fin cfg0.N) (h0 : ¬t.val % 32 = 0) (d) :
    (dats m q 0 c).before 6 t d = (leftAt m c (t.val - 1) (Nat.lt_of_le_of_lt (Nat.sub_le _ _) t.isLt)).2.1 := by
  have hN : t.val < 64 := lt_of_lt_of_eq t.isLt (show cfg0.N = 64 from N_0)
  rw [Dat.before_out_kept _ 6 rfl t (by omega) (Bool.eq_false_iff.mpr fun h => by have := (flush0_6 _).mp h; dsimp only at this; omega)
    (fun _ => rfl) (fun _ _ => rfl)]
  dsimp only [dats]
theorem before7_later (c : Dev nD) (t : Fin cfg0.N) (h0 : ¬t.val % 32 = 0) (d) :
    (dats m q 0 c).before 7 t d = (leftAt m c (t.val - 1) (Nat.lt_of_le_of_lt (Nat.sub_le _ _) t.isLt)).2.2 := by
  have hN : t.val < 64 := lt_of_lt_of_eq t.isLt (show cfg0.N = 64 from N_0)
  rw [Dat.before_out_kept _ 7 rfl t (by omega) (Bool.eq_false_iff.mpr fun h => by have := (flush0_7 _).mp h; dsimp only at this; omega)
    (fun _ => rfl) (fun _ _ => rfl)]
  dsimp only [dats]

end Cert.KernelIdeal.Body

end
-- ==== Proof.BodyObligation.lean ====
/-
  The body obligation of the pipeline's proof data.

  At every grid point the body, called on the eight windows' current staging buffers holding what the proof data says
  they hold before it, runs to its end and leaves them holding what the proof data says they hold after it: the inputs'
  buffers hold their blocks before and after; at a first tile the three results' buffers may hold anything before, at a
  later tile the two running totals' hold what the tile before left; after, each result's buffer holds its stored
  pieces read back, which is all of its block because the pieces cover it.
-/
import proofs.«175465_j3083786518603_2_alg».proof.Proof.BodyData

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (q : Fin cfg0.W → PosShare TreeShare)

/-- What the body is called with at point `t`, the windows one by one, -/
def bodyPre (c : Dev nD) (t : Fin cfg0.N) : sProp 𝕄 :=
  iprop((dats m q 0 c).Φ t.castSucc ∗ (dats m q 0 c).owesAt () t.castSucc
    ∗ (∃ d, owns (c : Thread nD τ) (ms0 t) fullShare ((dats m q 0 c).before 0 t d))
    ∗ (∃ d, owns (c : Thread nD τ) (ms1 t) fullShare ((dats m q 0 c).before 1 t d))
    ∗ (∃ d, owns (c : Thread nD τ) (ms2 t) fullShare ((dats m q 0 c).before 2 t d))
    ∗ (∃ d, owns (c : Thread nD τ) (ms3 t) fullShare ((dats m q 0 c).before 3 t d))
    ∗ (∃ d, owns (c : Thread nD τ) (ms4 t) fullShare ((dats m q 0 c).before 4 t d))
    ∗ (∃ d, owns (c : Thread nD τ) (ms5 t) fullShare ((dats m q 0 c).before 5 t d))
    ∗ (∃ d, owns (c : Thread nD τ) (ms6 t) fullShare ((dats m q 0 c).before 6 t d))
    ∗ (∃ d, owns (c : Thread nD τ) (ms7 t) fullShare ((dats m q 0 c).before 7 t d)))

/-- and what it returns. -/
def bodyPost (c : Dev nD) (t : Fin cfg0.N) : sProp 𝕄 :=
  iprop((dats m q 0 c).Φ t.succ ∗ (dats m q 0 c).owesAt () t.succ
    ∗ owns (c : Thread nD τ) (ms0 t) fullShare ((dats m q 0 c).after 0 t)
    ∗ owns (c : Thread nD τ) (ms1 t) fullShare ((dats m q 0 c).after 1 t)
    ∗ owns (c : Thread nD τ) (ms2 t) fullShare ((dats m q 0 c).after 2 t)
    ∗ owns (c : Thread nD τ) (ms3 t) fullShare ((dats m q 0 c).after 3 t)
    ∗ owns (c : Thread nD τ) (ms4 t) fullShare ((dats m q 0 c).after 4 t)
    ∗ owns (c : Thread nD τ) (ms5 t) fullShare ((dats m q 0 c).after 5 t)
    ∗ owns (c : Thread nD τ) (ms6 t) fullShare ((dats m q 0 c).after 6 t)
    ∗ owns (c : Thread nD τ) (ms7 t) fullShare ((dats m q 0 c).after 7 t))

set_option maxHeartbeats 4000000 in
theorem sound_body (c : Dev nD) (t : Fin cfg0.N) :
    bodyPre m q c t ⊢ wp frame (wpE (defs₀ (F := F)) Variants.none c none) Set.univ (bodyAt0 t) (fun _ => bodyPost m q c t) := by
  unfold bodyPre bodyPost bodyAt0
  simp only [before0, before1, before2, before3, before4]
  rw [show (dats m q 0 c).Φ t.succ = (dats m q 0 c).Φ t.castSucc from rfl,
    show (dats m q 0 c).owesAt () t.succ = (dats m q 0 c).owesAt () t.castSucc from rfl,
    after0, after1, after2, after3, after4, after5, after6, after7]
  have hN : t.val < 64 := lt_of_lt_of_eq t.isLt (show cfg0.N = 64 from N_0)
  by_cases h0 : t.val % 32 = 0
  · rw [leftAt_first m c t h0]
    unfold leftFirst
    dsimp only
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runFirst c (grid0.coords t) _ _ _ _ _ _ _ _ _ _ _ _ _ _ _ _ ((firstTile_iff t).mpr h0) (iblk m c 0 t) (iblk m c 1 t) (iblk m c 2 t) (iblk m c 3 t) (iblk m c 4 t)).2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    iintro ⟨H0, H1, H2, H3, H4, ⟨%e5, H5⟩, ⟨%e6, H6⟩, ⟨%e7, H7⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (coverFirst5 c _ _ _ _ _ _ _ _ _ _ _ _ _ _ _ _ _ _ _ _ _ _ _)
    isplitl [H6]
    · unfold owns; iexists _; isplitr
      swap; · iexact H6
      ipureintro; exact View.read_writes_of_cover _ _ _ _ _ (coverFirst6 c _ _ _ _ _ _ _ _ _ _ _ _ _ _ _ _ _ _ _ _ _ _ _)
    unfold owns; iexists _; isplitr
    swap; · iexact H7
    ipureintro; exact View.read_writes_of_cover _ _ _ _ _ (coverFirst7 c _ _ _ _ _ _ _ _ _ _ _ _ _ _ _ _ _ _ _ _ _ _ _)
  · rw [leftAt_later m c t h0]
    simp only [before6_later m q c t h0, before7_later m q c t h0]
    unfold leftLater
    dsimp only
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runLater c (grid0.coords t) _ _ _ _ _ _ _ _ _ _ _ _ _ _ _ _ (fun h => h0 ((firstTile_iff t).mp h)) (iblk m c 0 t) (iblk m c 1 t) (iblk m c 2 t) (iblk m c 3 t) (iblk m c 4 t) _ _).2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [H7]; · iexact H7
    iintro ⟨H0, H1, H2, H3, H4, ⟨%e5, H5⟩, ⟨%e6, H6⟩, ⟨%e7, H7⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (coverLater5 c _ _ _ _ _ _ _ _ _ _ _ _ _ _ _ _ _ _ _ _ _ _ _ _ _)
    isplitl [H6]
    · unfold owns; iexists _; isplitr
      swap; · iexact H6
      ipureintro; exact View.read_writes_of_cover _ _ _ _ _ (coverLater6 c _ _ _ _ _ _ _ _ _ _ _ _ _ _ _ _ _ _ _ _ _ _ _ _ _)
    unfold owns; iexists _; isplitr
    swap; · iexact H7
    ipureintro; exact View.read_writes_of_cover _ _ _ _ _ (coverLater7 c _ _ _ _ _ _ _ _ _ _ _ _ _ _ _ _ _ _ _ _ _ _ _ _ _)

/-- The library's body obligation, at every point. -/
theorem body_obligation (c : Dev nD) : BodyObligation (dats (F := F) m q 0 c) (defs₀ (F := F)) Variants.none () Set.univ := fun t => by
  rw [bigSep_W0, bigSep_W0]
  exact sound_body m q c t

end Cert.KernelIdeal.Body

end
-- ==== Proof.LaunchSplit.lean ====
/-
  The launch of a pipeline whose windows share an array, part 1: how the buffers behind the arrays, each held
  whole at the full share, make the pipeline's arrays. Three windows read the first argument; its full share is
  dealt among them as the left half and the two halves of the right half. Every other window holds its array whole.
-/
import proofs.«175465_j3083786518603_2_alg».proof.Proof.Gen.KernelIdeal.Launch
import Idealize.ShloMosaic.Lib.Pipeline.Launch
import Idealize.ShloMosaic.Rules.PointsTo

noncomputable section

namespace Cert.KernelIdeal.Shared

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (dats : (p : Fin 1) → (c : Dev nD) → Pipeline.Dat τ (Elt F) Unit ℕ (UR sig nD τ) ℕ (cfgs p) c)

/-- The six distinct buffers behind the eight windows' arrays. -/
theorem image_arrRef :
    Finset.univ.image (Pipeline.arrRef spec0) = {main_arg0, main_arg1, main_arg2, main_v0_0, main_v0_1, main_v0_2} := by
  decide

/-- An input window holds its array at the share the proof data names. -/
theorem share_in (c : Dev nD) (w : Fin 8) (h : (win0 w).isOut = false) : (dats 0 c).share w = (dats 0 c).q w := by
  unfold Pipeline.Dat.share
  exact if_neg (by rw [h]; exact Bool.false_ne_true)

/-- An output window holds its array at the full share. -/
theorem share_out (c : Dev nD) (w : Fin 8) (h : (win0 w).isOut = true) : (dats 0 c).share w = fullShare := by
  unfold Pipeline.Dat.share
  exact if_pos h

/-- One window's array at contents `f`, its share and element set spelt out. -/
theorem arr_pt (c : Dev nD) (w : Fin 8) (q : PosShare TreeShare) (hs : (dats 0 c).share w = q)
    (f : Buf (Elt F) ((win0 w).arr.view.loc (c.tc : Thread nD τ))) :
    ((win0 w).arr.view.loc (c.tc : Thread nD τ) ↦[(win0 w).arr.view.set]{(dats 0 c).share w} f : sProp 𝕄)
      = (((c.tc : Thread nD τ).loc (Pipeline.arrRef spec0 w)) ↦{q} f) := by
  rw [(arr_whole0 w).set_eq_univ, hs]

/-- The shares of the eight windows: the first array's full share dealt in three among the windows that read it
    (its left half, and the two halves of its right half), every other window's the full share. -/
structure Shares (c : Dev nD) : Prop where
  q0 : (dats 0 c).q 0 = fullShare.left
  q1 : (dats 0 c).q 1 = fullShare.right.left
  q2 : (dats 0 c).q 2 = fullShare.right.right
  q3 : (dats 0 c).q 3 = fullShare
  q4 : (dats 0 c).q 4 = fullShare

/-- The pipeline's arrays at contents `G`, window by window. -/
theorem arrays_chain (c : Dev nD) (hq : Shares dats c)
    (G : (w : Fin 8) → Buf (Elt F) ((win0 w).arr.view.loc (c.tc : Thread nD τ))) :
    ((dats 0 c).arrays G : sProp 𝕄)
      = iprop((((c.tc : Thread nD τ).loc main_arg0) ↦{fullShare.left} G 0)
          ∗ (((c.tc : Thread nD τ).loc main_arg0) ↦{fullShare.right.left} G 1)
          ∗ (((c.tc : Thread nD τ).loc main_arg0) ↦{fullShare.right.right} G 2)
          ∗ (((c.tc : Thread nD τ).loc main_arg1) ↦{fullShare} G 3)
          ∗ (((c.tc : Thread nD τ).loc main_arg2) ↦{fullShare} G 4)
          ∗ (((c.tc : Thread nD τ).loc main_v0_0) ↦{fullShare} G 5)
          ∗ (((c.tc : Thread nD τ).loc main_v0_1) ↦{fullShare} G 6)
          ∗ (((c.tc : Thread nD τ).loc main_v0_2) ↦{fullShare} G 7)) := by
  unfold Pipeline.Dat.arrays
  rw [bigSep_W0,
    arr_pt dats c 0 fullShare.left ((share_in dats c 0 rfl).trans hq.q0),
    arr_pt dats c 1 fullShare.right.left ((share_in dats c 1 rfl).trans hq.q1),
    arr_pt dats c 2 fullShare.right.right ((share_in dats c 2 rfl).trans hq.q2),
    arr_pt dats c 3 fullShare ((share_in dats c 3 rfl).trans hq.q3),
    arr_pt dats c 4 fullShare ((share_in dats c 4 rfl).trans hq.q4),
    arr_pt dats c 5 fullShare (share_out dats c 5 rfl),
    arr_pt dats c 6 fullShare (share_out dats c 6 rfl),
    arr_pt dats c 7 fullShare (share_out dats c 7 rfl)]

/-- The buffers behind the arrays, one by one. -/
theorem arrBufs_chain (c : Dev nD) (V : (b : Ref sig .tc) → Buf (Elt F) ((c.tc : Thread nD τ).loc b)) :
    (Pipeline.arrBufs spec0 c V : sProp 𝕄)
      = iprop((((c.tc : Thread nD τ).loc main_arg0) ↦{fullShare} V main_arg0)
          ∗ (((c.tc : Thread nD τ).loc main_arg1) ↦{fullShare} V main_arg1)
          ∗ (((c.tc : Thread nD τ).loc main_arg2) ↦{fullShare} V main_arg2)
          ∗ (((c.tc : Thread nD τ).loc main_v0_0) ↦{fullShare} V main_v0_0)
          ∗ (((c.tc : Thread nD τ).loc main_v0_1) ↦{fullShare} V main_v0_1)
          ∗ (((c.tc : Thread nD τ).loc main_v0_2) ↦{fullShare} V main_v0_2)) := by
  unfold Pipeline.arrBufs
  rw [image_arrRef, bigSep_insert (by decide), bigSep_insert (by decide), bigSep_insert (by decide), bigSep_insert (by decide),
    bigSep_insert (by decide), bigSep_singleton]
  rfl

/-- The buffers behind the arrays, each whole at the full share, make the pipeline's arrays at the same contents:
    the first array's full share is dealt among the three windows that read it. -/
theorem arrays_split_shared (c : Dev nD) (hq : Shares dats c)
    (V : (b : Ref sig .tc) → Buf (Elt F) ((c.tc : Thread nD τ).loc b))
    (G : (w : Fin 8) → Buf (Elt F) ((win0 w).arr.view.loc (c.tc : Thread nD τ)))
    (hG : ∀ w, G w = V (Pipeline.arrRef spec0 w)) :
    (Pipeline.arrBufs spec0 c V : sProp 𝕄) ⊢ (dats 0 c).arrays G := by
  rw [arrays_chain dats c hq G, hG 0, hG 1, hG 2, hG 3, hG 4, hG 5, hG 6, hG 7, arrBufs_chain c V]
  iintro ⟨H0, H1, H2, H3, H4, H5⟩
  ihave ⟨Ha, Hbc⟩ := (pointsTo_share (PosShare.mem_left_op_right fullShare)).1 $$ H0
  ihave ⟨Hb, Hc⟩ := (pointsTo_share (PosShare.mem_left_op_right fullShare.right)).1 $$ Hbc
  isplitl [Ha]; · iexact Ha
  isplitl [Hb]; · iexact Hb
  isplitl [Hc]; · iexact Hc
  isplitl [H1]; · iexact H1
  isplitl [H2]; · iexact H2
  isplitl [H3]; · iexact H3
  isplitl [H4]; · iexact H4
  iexact H5

end Cert.KernelIdeal.Shared

end
-- ==== Proof.LaunchTail.lean ====
/-
  The launch of a pipeline whose windows share an array, part 2: the host operations that follow the region. They
  read two of the region's result arrays and write ten buffers that bypass the region. From the region's exit they
  run holding exactly those twelve buffers whole; the arrays they do not write come back unchanged, the ten
  buffers at the operations' results computed from the exit contents.
-/
import proofs.«175465_j3083786518603_2_alg».proof.Proof.LaunchSplit
import Idealize.ShloMosaic.Lib.Pipeline.FrameSuffix

noncomputable section

namespace Cert.KernelIdeal.Shared

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The ten buffers that bypass the region: what the host operations after it write. -/
def bypass : List (Ref sig .tc) := [main_v1, main_v2, main_cst, main_v3, main_cst_0, main_v4, main_v5, main_v6, main_cst_1, main_v7]

/-- The unscoped buffers that are no window's array. -/
abbrev restSet : Finset (Ref sig .tc) :=
  (Finset.univ.filter fun b : Ref sig .tc => ¬ b.isScoped) \ Finset.univ.image (Pipeline.arrRef spec0)

/-- What the host operations after the region may touch: the two result arrays they read, and the bypassing buffers. -/
def tailSet : Finset (Ref sig .tc) := {main_v0_1, main_v0_2} ∪ restSet

/-- The same as device buffers. -/
def tailRefs : Finset (DevRef τ sig) := tailSet.map ⟨Proc.devRef (sig := sig) .tc, Proc.devRef_injective _⟩

theorem mem_restSet (r : Ref sig .tc) (h₁ : r.isScoped = false)
    (h₂ : r ∉ ({main_arg0, main_arg1, main_arg2, main_v0_0, main_v0_1, main_v0_2} : Finset (Ref sig .tc))) : r ∈ restSet :=
  Finset.mem_sdiff.mpr ⟨Finset.mem_filter.mpr ⟨Finset.mem_univ _, by simp [h₁]⟩, by rw [image_arrRef]; exact h₂⟩

theorem bypass_sub_restSet : ∀ r ∈ bypass, r ∈ restSet := by
  intro r hr
  refine mem_restSet r ?_ ?_ <;> revert r <;> decide

theorem results_not_mem_restSet : ∀ r ∈ ({main_v0_1, main_v0_2} : Finset (Ref sig .tc)), r ∉ restSet := by
  intro r hr h
  exact (Finset.mem_sdiff.mp h).2 (by rw [image_arrRef]; revert r; decide)

theorem devRef_mem_tailRefs (r : Ref sig .tc) (h : r ∈ tailSet) : Proc.devRef (τ := τ) .tc r ∈ tailRefs :=
  Finset.mem_map_of_mem _ h

theorem mem_tailSet_of_bypass (r : Ref sig .tc) (h : r ∈ bypass) : r ∈ tailSet :=
  Finset.mem_union_right _ (bypass_sub_restSet r h)

/-- The set held at contents `W`: the two result arrays, and the bypassing buffers. -/
theorem held_tailRefs (c : Dev nD) (W : Valuation τ sig (Elt F)) :
    (StableHlo.held (c.tc : Thread nD τ) tailRefs W : sProp 𝕄)
      = iprop(((((c.tc : Thread nD τ).loc main_v0_1) ↦{fullShare} W (Proc.devRef .tc main_v0_1))
            ∗ (((c.tc : Thread nD τ).loc main_v0_2) ↦{fullShare} W (Proc.devRef .tc main_v0_2)))
          ∗ Pipeline.unscopedRest spec0 c (fun b => W (Proc.devRef .tc b))) := by
  have hdisj : Disjoint ({main_v0_1, main_v0_2} : Finset (Ref sig .tc)) restSet :=
    Finset.disjoint_left.mpr fun b hb hr => results_not_mem_restSet b hb hr
  unfold StableHlo.held tailRefs tailSet Pipeline.unscopedRest
  rw [bigSep_map, bigSep_union hdisj, bigSep_insert (by decide), bigSep_singleton]
  rfl

/-- Every host operation after the region touches only the two result arrays and the bypassing buffers; -/
theorem hostOps1_tail : (hostOps1 : List (HloOp τ sig (Elt F))).Forall fun op => op.bufs ⊆ tailRefs := by
  have hb : ∀ r ∈ bypass, Proc.devRef (τ := τ) .tc r ∈ tailRefs := fun r h => devRef_mem_tailRefs r (mem_tailSet_of_bypass r h)
  have h6 : Proc.devRef (τ := τ) .tc main_v0_1 ∈ tailRefs := devRef_mem_tailRefs _ (Finset.mem_union_left _ (by decide))
  have h7 : Proc.devRef (τ := τ) .tc main_v0_2 ∈ tailRefs := devRef_mem_tailRefs _ (Finset.mem_union_left _ (by decide))
  have s1 : ∀ y ∈ bypass, ({Proc.devRef .tc y} : Finset (DevRef τ sig)) ⊆ tailRefs := fun y hy => Finset.singleton_subset_iff.mpr (hb y hy)
  exact ⟨Finset.insert_subset h6 (s1 main_v1 (by decide)),
    Finset.insert_subset (hb main_v1 (by decide)) (s1 main_v2 (by decide)),
    s1 main_cst (by decide),
    Finset.insert_subset (hb main_v2 (by decide)) (Finset.insert_subset (hb main_cst (by decide)) (s1 main_v3 (by decide))),
    s1 main_cst_0 (by decide),
    Finset.insert_subset (hb main_v3 (by decide)) (Finset.insert_subset (hb main_cst_0 (by decide)) (s1 main_v4 (by decide))),
    Finset.insert_subset h7 (s1 main_v5 (by decide)),
    Finset.insert_subset (hb main_v5 (by decide)) (s1 main_v6 (by decide)),
    s1 main_cst_1 (by decide),
    Finset.insert_subset (hb main_v6 (by decide)) (Finset.insert_subset (hb main_cst_1 (by decide)) (s1 main_v7 (by decide)))⟩

/-- determines all it writes; -/
theorem hostOps1_fresh : (hostOps1 : List (HloOp τ sig (Elt F))).Forall fun op => op.fresh = ∅ :=
  ⟨rfl, rfl, rfl, rfl, rfl, rfl, rfl, rfl, rfl, rfl⟩

/-- and writes a bypassing buffer. -/
theorem hostOps1_writes : (hostOps1 : List (HloOp τ sig (Elt F))).Forall fun op =>
    op.writes ⊆ (bypass.map (Proc.devRef (τ := τ) .tc)).toFinset := by
  have s1 : ∀ y ∈ bypass, ({Proc.devRef .tc y} : Finset (DevRef τ sig)) ⊆ (bypass.map (Proc.devRef (τ := τ) .tc)).toFinset :=
    fun y hy => Finset.singleton_subset_iff.mpr (List.mem_toFinset.mpr (List.mem_map.mpr ⟨y, hy, rfl⟩))
  exact ⟨s1 main_v1 (by decide), s1 main_v2 (by decide), s1 main_cst (by decide), s1 main_v3 (by decide), s1 main_cst_0 (by decide),
    s1 main_v4 (by decide), s1 main_v5 (by decide), s1 main_v6 (by decide), s1 main_cst_1 (by decide), s1 main_v7 (by decide)⟩

/-- The core's buffer contents at the region's exit: the launch memory, the two result arrays the host operations read at
    what the region leaves in them. -/
def exitV (m : (ℓ : Loc nD τ sig) → Buf (Elt F) ℓ) (c : Dev nD)
    (A6 : Buf (Elt F) ((c.tc : Thread nD τ).loc main_v0_1)) (A7 : Buf (Elt F) ((c.tc : Thread nD τ).loc main_v0_2)) : Valuation τ sig (Elt F) :=
  Function.update (Function.update (fun b => m (c, b)) (Proc.devRef .tc main_v0_1) A6) (Proc.devRef .tc main_v0_2) A7

theorem exitV_v0_1 (m : (ℓ : Loc nD τ sig) → Buf (Elt F) ℓ) (c : Dev nD) (A6 A7) :
    exitV m c A6 A7 (Proc.devRef .tc main_v0_1) = A6 := by
  unfold exitV
  rw [Function.update_of_ne (StableHlo.devRef_ne_of_ne (by decide)), Function.update_self]

theorem exitV_v0_2 (m : (ℓ : Loc nD τ sig) → Buf (Elt F) ℓ) (c : Dev nD) (A6 A7) :
    exitV m c A6 A7 (Proc.devRef .tc main_v0_2) = A7 := by
  unfold exitV
  rw [Function.update_self]

theorem exitV_rest (m : (ℓ : Loc nD τ sig) → Buf (Elt F) ℓ) (c : Dev nD) (A6 A7) (b : Ref sig .tc) (hb : b ∈ restSet) :
    exitV m c A6 A7 (Proc.devRef .tc b) = m ((c.tc : Thread nD τ).loc b) := by
  unfold exitV
  rw [Function.update_of_ne (StableHlo.devRef_ne_of_ne fun e => results_not_mem_restSet _ (by decide) (e ▸ hb)),
    Function.update_of_ne (StableHlo.devRef_ne_of_ne fun e => results_not_mem_restSet _ (by decide) (e ▸ hb))]

/-- The host operations write neither result array. -/
theorem after_v0_1 (W : Valuation τ sig (Elt F)) :
    StableHlo.after hostOps1 W (Proc.devRef .tc main_v0_1) = W (Proc.devRef .tc main_v0_1) :=
  StableHlo.after_of_writes_sub hostOps1 W hostOps1_writes (by decide)

theorem after_v0_2 (W : Valuation τ sig (Elt F)) :
    StableHlo.after hostOps1 W (Proc.devRef .tc main_v0_2) = W (Proc.devRef .tc main_v0_2) :=
  StableHlo.after_of_writes_sub hostOps1 W hostOps1_writes (by decide)

theorem unscopedRest_exitV (m : (ℓ : Loc nD τ sig) → Buf (Elt F) ℓ) (c : Dev nD) (A6 A7) :
    (Pipeline.unscopedRest spec0 c (fun b => exitV m c A6 A7 (Proc.devRef .tc b)) : sProp 𝕄)
      = Pipeline.unscopedRest spec0 c (fun b => m ((c.tc : Thread nD τ).loc b)) := by
  unfold Pipeline.unscopedRest
  exact bigSep_congr fun b hb => by beta_reduce; rw [exitV_rest m c _ _ b hb]

variable (dats : (p : Fin 1) → (c : Dev nD) → Pipeline.Dat τ (Elt F) Unit ℕ (UR sig nD τ) ℕ (cfgs p) c)

local notation "𝔻" => Pipeline.defs (pcfgs (F := F)) (defs₀ (F := F))
local notation "𝕍" => Variants.lift Variants.none

/-- The contents of the bypassing buffers after the host operations, run from the region's exit. -/
abbrev afterV (m : (ℓ : Loc nD τ sig) → Buf (Elt F) ℓ) (c : Dev nD) : Valuation τ sig (Elt F) :=
  StableHlo.after hostOps1 (exitV m c ((dats 0 c).arrAt 6 cfg0.N) ((dats 0 c).arrAt 7 cfg0.N))

-- a rule stated for any thread is applied at the TensorCore thread
set_option backward.isDefEq.respectTransparency.types false in
/-- THE HOST OPERATIONS AFTER THE REGION: from the region's exit (the boundary, the arrays at what the region leaves, the
    bypassing buffers at the launch contents) they run within the two result arrays they read and the bypassing buffers,
    and hand back the arrays unchanged and the bypassing buffers at the operations' results. -/
theorem tail_shared (m : (ℓ : Loc nD τ sig) → Buf (Elt F) ℓ) (c : Dev nD) (hq : Shares dats c) (Q' : PUnit → sProp 𝕄) :
    iprop((iprop((dats 0 c).arrays ((dats 0 c).arrAt · cfg0.N)
              ∗ Pipeline.unscopedRest spec0 c (fun b => afterV dats m c (Proc.devRef .tc b))) -∗ Q' ⟨⟩)
        ∗ boundary (c.tc : Thread nD τ) ∗ (dats 0 c).arrays ((dats 0 c).arrAt · cfg0.N)
        ∗ Pipeline.unscopedRest spec0 c (fun b => m ((c.tc : Thread nD τ).loc b)))
      ⊢ wp frame (wpE 𝔻 𝕍 (c.tc : Thread nD τ) none) Set.univ (Pipeline.chain [StableHlo.seq hostOps1]) Q' := by
  have hW : (StableHlo.held (c.tc : Thread nD τ) tailRefs (exitV m c ((dats 0 c).arrAt 6 cfg0.N) ((dats 0 c).arrAt 7 cfg0.N)) : sProp 𝕄)
      = iprop(((((c.tc : Thread nD τ).loc main_v0_1) ↦{fullShare} (dats 0 c).arrAt 6 cfg0.N)
            ∗ (((c.tc : Thread nD τ).loc main_v0_2) ↦{fullShare} (dats 0 c).arrAt 7 cfg0.N))
          ∗ Pipeline.unscopedRest spec0 c (fun b => m ((c.tc : Thread nD τ).loc b))) := by
    rw [held_tailRefs, exitV_v0_1, exitV_v0_2, unscopedRest_exitV]
  have hW' : (StableHlo.held (c.tc : Thread nD τ) tailRefs (afterV dats m c) : sProp 𝕄)
      = iprop(((((c.tc : Thread nD τ).loc main_v0_1) ↦{fullShare} (dats 0 c).arrAt 6 cfg0.N)
            ∗ (((c.tc : Thread nD τ).loc main_v0_2) ↦{fullShare} (dats 0 c).arrAt 7 cfg0.N))
          ∗ Pipeline.unscopedRest spec0 c (fun b => afterV dats m c (Proc.devRef .tc b))) := by
    rw [held_tailRefs]
    unfold afterV
    rw [after_v0_1, after_v0_2, exitV_v0_1, exitV_v0_2]
  rw [arrays_chain dats c hq, Pipeline.chain_cons]
  iintro ⟨Hk, Hb, ⟨H0, H1, H2, H3, H4, H5, H6, H7⟩, HZ⟩
  iapply (StableHlo.wp_seq 𝕍 none Set.univ c tailRefs _ hostOps1 (List.forall_iff_forall_mem.mp hostOps1_tail)
    (List.forall_iff_forall_mem.mp hostOps1_fresh) (exitV m c ((dats 0 c).arrAt 6 cfg0.N) ((dats 0 c).arrAt 7 cfg0.N))) $$ [Hb H6 H7 HZ]
  · rw [hW]
    isplitl [Hb]; · iexact Hb
    isplitr [HZ]
    · isplitl [H6]; · iexact H6
      iexact H7
    · iexact HZ
  iintro H
  rw [Pipeline.chain_nil, wp_pure, hW']
  imodintro
  icases H with ⟨-, ⟨H6, H7⟩, HZ⟩
  iapply Hk
  isplitr [HZ]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · iexact HZ

end Cert.KernelIdeal.Shared

end
-- ==== Proof.LaunchRun.lean ====
/-
  The launch of a pipeline whose windows share an array, part 3: the run of @main. The region's launch theorem for
  windows that need not have distinct arrays is instantiated with the deal of the first argument's share among
  its three windows (part 1) and the host operations after the region (part 2); the region's invariant is the scoped
  rest, nothing is owed, and the final memory is read off the arrays and the bypassing buffers.
-/
import proofs.«175465_j3083786518603_2_alg».proof.Proof.LaunchTail
import Idealize.ShloMosaic.Lib.Pipeline.Kit

noncomputable section

namespace Cert.KernelIdeal.Shared

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- THE RUN of @main: the region, whose windows 0, 1, 2 share the first argument, then the ten host operations. From
    any memory whose semaphore counters are zero every weakly fair execution terminates, and in every final state each
    window's array holds what the write-backs of all the grid's points leave in it, and each buffer the host operations
    write holds the operations' result computed from the contents at the region's exit. -/
theorem run_shared (m : (ℓ : Loc nD τ sig) → Buf (Elt F) ℓ) (ρ : Dev nD → PrngReg)
    (dats : (p : Fin 1) → (c : Dev nD) → Pipeline.Dat τ (Elt F) Unit ℕ (UR sig nD τ) ℕ (cfgs p) c)
    (hA : ∀ c w, (dats 0 c).A w = m ((c.tc : Thread nD τ).loc (Pipeline.arrRef spec0 w)))
    (hΦ : ∀ c t, (dats 0 c).Φ t = Pipeline.scopedRest spec0 c)
    (hq : ∀ c, (dats 0 c).q 0 = fullShare.left ∧ (dats 0 c).q 1 = fullShare.right.left ∧ (dats 0 c).q 2 = fullShare.right.right
      ∧ (dats 0 c).q 3 = fullShare ∧ (dats 0 c).q 4 = fullShare)
    (howed : ∀ c t, (dats 0 c).owed t = 0)
    (hbody : ∀ c, Pipeline.BodyObligation (dats 0 c) (defs₀ (F := F)) Variants.none () Set.univ) :
    θ_run defs (onTc (τ := τ) (main (F := F))) ⟨m, fun _ => 0, ρ⟩ (fun r => ∀ c : Dev nD,
      (∀ w, r.2.mem ((spec0 w).arr.view.loc (c.tc : Thread nD τ)) = (dats 0 c).arrAt w cfg0.N)
      ∧ (∀ b ∈ bypass, r.2.mem ((c.tc : Thread nD τ).loc b)
          = StableHlo.after hostOps1 (exitV m c ((dats 0 c).arrAt 6 cfg0.N) ((dats 0 c).arrAt 7 cfg0.N)) (Proc.devRef .tc b))) := by
  have hS : ∀ c, Shares dats c := fun c => ⟨(hq c).1, (hq c).2.1, (hq c).2.2.1, (hq c).2.2.2.1, (hq c).2.2.2.2⟩
  unfold defs
  exact Pipeline.θ_run_region_noSem_pf_tail (pcfgs (F := F)) (fun p => (cfgs p).toPCfg_adm) dats () cellOf_inj 0 winFacts₀0 (Pipeline.PreFacts.none _)
    emb₁ defs₀ Variants.none m ρ main (fun _ => Pipeline.chain [StableHlo.seq hostOps1])
    (fun c => (hbody c).loose) block_pos0 arr_whole0 stage_whole0 howed
    (u₀ := initOf (Pipeline.cells cfgs cellOf_inj) (Pipeline.launchToks cfgs cellOf_inj)) (hu₀ := .rfl)
    (V := fun c b => m ((c.tc : Thread nD τ).loc b))
    (hmain := Pipeline.hmain_around cfgs 0 defs₀ Variants.none m main [] [hostOps1] trivial trivial main_chain)
    (hsplit := fun c => arrays_split_shared dats c (hS c) _ _ fun w => hA c w)
    (hpf := fun _ k => k.elim0)
    (X := fun _ => iprop(emp)) (Y := fun _ => iprop(emp))
    (Z := fun c => Pipeline.unscopedRest spec0 c (fun b => m ((c.tc : Thread nD τ).loc b)))
    (Z' := fun c => Pipeline.unscopedRest spec0 c (fun b => afterV dats m c (Proc.devRef .tc b)))
    (hX := fun c => by
      rw [Pipeline.unscopedRestP_none]
      iintro H; isplitr; · iempintro
      iexact H)
    (hin := fun c => by
      rw [hΦ]
      iintro ⟨-, -, HR⟩; iexact HR)
    (hout := fun c => by
      rw [hΦ]
      iintro HR; isplitr; · iempintro
      iexact HR)
    (htail := fun c Q' => tail_shared dats m c (hS c) Q')
    (QY := fun c s => ∀ b ∈ restSet, s.mem ((c.tc : Thread nD τ).loc b) = afterV dats m c (Proc.devRef .tc b))
    (hY := fun c s' => by
      iintro ⟨-, HU, HSI⟩
      unfold Pipeline.unscopedRest
      imodintro
      iapply (pointsTo_read_all restSet (fun b => (c.tc : Thread nD τ).loc b) (fun b => afterV dats m c (Proc.devRef .tc b)) s')
      isplitl [HU] <;> iassumption)
    (hQ := fun s h c => ⟨(h c).1, fun b hb => (h c).2.2 b (bypass_sub_restSet b hb)⟩)

end Cert.KernelIdeal.Shared

end
-- ==== Proof.Frames.lean ====
/-
  The kernel program's run and its frame.

  The pipeline's proof data deals the first argument array, which three of the kernel's windows read (the eight-row
  tile and the one row before and after it), among those three windows in three disjoint shares that make up the whole;
  the other two argument arrays go whole to their one window each. With the body's obligation at every grid point, the
  launch of the region and the host operations after it run to the end without a fault; in the final state every
  window's array holds what the proof data computes for it, and an input window's array is computed to hold what it
  held at the start. The three argument arrays are input windows' arrays, so they end unchanged.
-/
import proofs.«175465_j3083786518603_2_alg».proof.Proof.BodyObligation
import proofs.«175465_j3083786518603_2_alg».proof.Proof.LaunchRun

noncomputable section

namespace Cert.KernelIdeal.Frames

open Cert.KernelIdeal Cert.KernelIdeal.Gen
open Idealize.ShloMosaic Idealize.ShloMosaic.TcCoe
open Idealize.SL Idealize.SL.RA Idealize.SL.Sem
open Idealize.ShloMosaic.Rounds

variable {F : FTy → Type} [FloatOps F]

/-- How the argument arrays' shares are dealt among the five input windows: the first array in three disjoint pieces
    of the whole, the other two whole. (The result windows hold their arrays whole whatever is said here.) -/
def qShared : Fin cfg0.W → PosShare TreeShare
  | ⟨0, _⟩ => fullShare.left
  | ⟨1, _⟩ => fullShare.right.left
  | ⟨2, _⟩ => fullShare.right.right
  | _ => fullShare

variable (m : (ℓ : Loc nD τ sig) → Buf (Elt F) ℓ) (ρ : Dev nD → PrngReg)

/-- The proof data of the run. -/
abbrev dats (p : Fin 1) (c : Dev nD) := Body.dats (F := F) m qShared p c

/-- The program runs to the end without a fault; every window's array ends at what the proof data computes, and every
    buffer the host operations after the region write ends at those operations' result from the region's exit. -/
theorem run : θ_run defs (onTc (τ := τ) (main (F := F))) ⟨m, fun _ => 0, ρ⟩ (fun r => ∀ c : Dev nD,
      (∀ w, r.2.mem ((spec0 w).arr.view.loc (c.tc : Thread nD τ)) = (dats m 0 c).arrAt w cfg0.N)
      ∧ (∀ b ∈ Shared.bypass, r.2.mem ((c.tc : Thread nD τ).loc b)
          = StableHlo.after hostOps1 (Shared.exitV m c ((dats m 0 c).arrAt 6 cfg0.N) ((dats m 0 c).arrAt 7 cfg0.N)) (Proc.devRef .tc b))) :=
  Shared.run_shared m ρ (dats m) (fun _ _ => rfl) (fun _ _ => rfl) (fun _ => ⟨rfl, rfl, rfl, rfl, rfl⟩) (fun _ _ => rfl)
    (fun c => Body.body_obligation m qShared c)

/-- The frame: the three argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).1 0).trans ((dats m 0 c).arrAt_in 0 rfl _),
     ((h c).1 3).trans ((dats m 0 c).arrAt_in 3 rfl _),
     ((h c).1 4).trans ((dats m 0 c).arrAt_in 4 rfl _)⟩) (run m ρ)

end Cert.KernelIdeal.Frames

end
-- ==== Proof.BitsBodyShared.lean ====
/-
  What the two runs of the kernel's body are stated over.

  The grid is 2 × 32: a batch coordinate and a tile coordinate along h, eight rows per tile. The body starts by asking
  whether the tile coordinate is zero; where it is, the two running totals (the sum of squared errors and the largest
  absolute error, one number per row of the tile) are set to zero before the tile's contribution is added. In the
  row-major numbering of the 64 grid points that is the case exactly at the points divisible by 32. Each of the eight
  windows has two staging buffers and is on one of them at each point.
-/
import proofs.«175465_j3083786518603_2_alg».proof.Proof.Gen.Kernel.Launch
import proofs.«175465_j3083786518603_2_alg».proof.Proof.Gen.Kernel.Skeleton
import proofs.«175465_j3083786518603_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- "The tile coordinate is zero", as the body computes it from the grid coordinates: compare, widen, compare with zero. -/
abbrev firstTile (i : grid0.Coords) : Prop :=
  (Scalar.cmpi .ne (Scalar.extui (Scalar.cmpi .eq (BitVec.ofNat 32 (i 1).val) 0#32)) 0#32) = 1#1

/-- It holds exactly at the grid points divisible by 32: the first tile of each batch entry. -/
theorem firstTile_iff : ∀ t : Fin cfg0.N, firstTile (grid0.coords t) ↔ t.val % 32 = 0 :=
  (by decide +kernel : ∀ t : Fin grid0.N, firstTile (grid0.coords t) ↔ t.val % 32 = 0)

/-- Each window's current staging buffer at point `t`, and that it is a whole buffer. -/
abbrev ms0 (t : Fin cfg0.N) : Memref sig .tc .vmem S1x8x256x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x1x256x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1x256x256 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x8x256x7 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x8x256x256 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x8x256x256 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x8x128 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x8x128 .f32 := win0_7.stage (cfg0.slots t 7)
abbrev hs7 (t : Fin cfg0.N) : (ms7 t).IsWhole := hstage0_7 ((cfg0.slots t 7).cast nbuf0_7)

/-- One staging buffer of each result window, through which that window's contents are stated (which of the two is
    chosen does not matter: a block's contents are read through the view, not the buffer). -/
abbrev viewOut : View sig .tc .vmem S1x8x256x256 .f32 := (Memref.whole cc0_stg5_0 : Memref sig .tc .vmem S1x8x256x256 .f32).view
abbrev viewSum : View sig .tc .vmem S1x8x128 .f32 := (Memref.whole cc0_stg6_0 : Memref sig .tc .vmem S1x8x128 .f32).view
abbrev viewMax : View sig .tc .vmem S1x8x128 .f32 := (Memref.whole cc0_stg7_0 : Memref sig .tc .vmem S1x8x128 .f32).view

end Cert.Kernel.Body

end
-- ==== Proof.BitsBodyRunFirst.lean ====
/-
  The body at a first tile of a batch entry.

  On whole staging buffers — the five inputs' at given contents, the three results' at anything — the body runs to its
  end without a fault, leaves the inputs as they were, and leaves in each result's buffer a list of stored pieces (the
  last store first): in the output block's buffer the one whole-block store of the stencil's values; in each running
  total's buffer the whole-block store of the tile's contribution over the whole-block store of zeros that the first
  tile begins with. The lists are the ones the body's run produces; they are the witness of this definition.
-/
import proofs.«175465_j3083786518603_2_alg».proof.Proof.BitsBodyShared

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces each result's buffer ends with at a first tile, with the run that produces them. -/
noncomputable def runFirst (c : Dev nD) (i : grid0.Coords) (arg2 : Memref sig .tc .vmem S1x8x256x256 .f32) (harg2 : arg2.IsWhole) (arg3 : Memref sig .tc .vmem S1x1x256x256 .f32) (harg3 : arg3.IsWhole) (arg4 : Memref sig .tc .vmem S1x1x256x256 .f32) (harg4 : arg4.IsWhole) (arg5 : Memref sig .tc .vmem S1x8x256x7 .f32) (harg5 : arg5.IsWhole) (arg6 : Memref sig .tc .vmem S1x8x256x256 .f32) (harg6 : arg6.IsWhole) (arg7 : Memref sig .tc .vmem S1x8x256x256 .f32) (harg7 : arg7.IsWhole) (arg8 : Memref sig .tc .vmem S1x8x128 .f32) (harg8 : arg8.IsWhole) (arg9 : Memref sig .tc .vmem S1x8x128 .f32) (harg9 : arg9.IsWhole) (hc : firstTile i)
    (x0 : Vec F S1x8x256x256 .f32) (x1 : Vec F S1x1x256x256 .f32) (x2 : Vec F S1x1x256x256 .f32) (x3 : Vec F S1x8x256x7 .f32) (x4 : Vec F S1x8x256x256 .f32) :
    { L : List (View.Piece (Elt F) S1x8x256x256 .f32) × List (View.Piece (Elt F) S1x8x128 .f32) × List (View.Piece (Elt F) S1x8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2
                ∗ owns (c : Thread nD τ) arg5 fullShare x3 ∗ owns (c : Thread nD τ) arg6 fullShare x4
                ∗ (∃ f, arg7.view.loc (c : Thread nD τ) ↦[arg7.view.set]{fullShare} arg7.view.writes (Elt F) f L.1)
                ∗ (∃ f, arg8.view.loc (c : Thread nD τ) ↦[arg8.view.set]{fullShare} arg8.view.writes (Elt F) f L.2.1)
                ∗ (∃ f, arg9.view.loc (c : Thread nD τ) ↦[arg9.view.set]{fullShare} arg9.view.writes (Elt F) f L.2.2)) -∗ K ⟨⟩))
          ⊢ wp frame (wpE (defs₀ (F := F)) Variants.none c none) E (cc0__stencil_kernel i arg2 harg2 arg3 harg3 arg4 harg4 arg5 harg5 arg6 harg6 arg7 harg7 arg8 harg8 arg9 harg9) K } := by
  refine ⟨⟨?_, ?_, ?_⟩, fun E K => ?run⟩
  case run =>
    simp only [cc0__stencil_kernel_eq_skeleton]; unfold cc0__stencil_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
    obtain rfl := harg2.eq_unread hf0
    obtain rfl := harg3.eq_unread hf1
    obtain rfl := harg4.eq_unread hf2
    obtain rfl := harg5.eq_unread hf3
    obtain rfl := harg6.eq_unread hf4
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; iexact H5
    isplitl [H6]
    · iexists _; iexact H6
    iexists _; iexact H7

end Cert.Kernel.Body

end
-- ==== Proof.BitsBodyRunLater.lean ====
/-
  The body at a later tile of a batch entry.

  As at a first tile, but the two running totals' buffers are held at the contents the tile before left, which the body
  reads: each ends with the one whole-block store of those contents combined with this tile's contribution (added, for
  the sum of squared errors; the larger of the two, for the largest absolute error).
-/
import proofs.«175465_j3083786518603_2_alg».proof.Proof.BitsBodyRunFirst

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces each result's buffer ends with at a later tile, with the run that produces them. -/
noncomputable def runLater (c : Dev nD) (i : grid0.Coords) (arg2 : Memref sig .tc .vmem S1x8x256x256 .f32) (harg2 : arg2.IsWhole) (arg3 : Memref sig .tc .vmem S1x1x256x256 .f32) (harg3 : arg3.IsWhole) (arg4 : Memref sig .tc .vmem S1x1x256x256 .f32) (harg4 : arg4.IsWhole) (arg5 : Memref sig .tc .vmem S1x8x256x7 .f32) (harg5 : arg5.IsWhole) (arg6 : Memref sig .tc .vmem S1x8x256x256 .f32) (harg6 : arg6.IsWhole) (arg7 : Memref sig .tc .vmem S1x8x256x256 .f32) (harg7 : arg7.IsWhole) (arg8 : Memref sig .tc .vmem S1x8x128 .f32) (harg8 : arg8.IsWhole) (arg9 : Memref sig .tc .vmem S1x8x128 .f32) (harg9 : arg9.IsWhole) (hc : ¬firstTile i)
    (x0 : Vec F S1x8x256x256 .f32) (x1 : Vec F S1x1x256x256 .f32) (x2 : Vec F S1x1x256x256 .f32) (x3 : Vec F S1x8x256x7 .f32) (x4 : Vec F S1x8x256x256 .f32) (xo6 : Vec F S1x8x128 .f32) (xo7 : Vec F S1x8x128 .f32) :
    { L : List (View.Piece (Elt F) S1x8x256x256 .f32) × List (View.Piece (Elt F) S1x8x128 .f32) × List (View.Piece (Elt F) S1x8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ (∃ d, owns (c : Thread nD τ) arg7 fullShare d) ∗ owns (c : Thread nD τ) arg8 fullShare xo6 ∗ owns (c : Thread nD τ) arg9 fullShare xo7
            ∗ (iprop(owns (c : Thread nD τ) arg2 fullShare x0 ∗ owns (c : Thread nD τ) arg3 fullShare x1 ∗ owns (c : Thread nD τ) arg4 fullShare x2
                ∗ owns (c : Thread nD τ) arg5 fullShare x3 ∗ owns (c : Thread nD τ) arg6 fullShare x4
                ∗ (∃ f, arg7.view.loc (c : Thread nD τ) ↦[arg7.view.set]{fullShare} arg7.view.writes (Elt F) f L.1)
                ∗ (∃ f, arg8.view.loc (c : Thread nD τ) ↦[arg8.view.set]{fullShare} arg8.view.writes (Elt F) f L.2.1)
                ∗ (∃ f, arg9.view.loc (c : Thread nD τ) ↦[arg9.view.set]{fullShare} arg9.view.writes (Elt F) f L.2.2)) -∗ K ⟨⟩))
          ⊢ wp frame (wpE (defs₀ (F := F)) Variants.none c none) E (cc0__stencil_kernel i arg2 harg2 arg3 harg3 arg4 harg4 arg5 harg5 arg6 harg6 arg7 harg7 arg8 harg8 arg9 harg9) K } := by
  refine ⟨⟨?_, ?_, ?_⟩, fun E K => ?run⟩
  case run =>
    simp only [cc0__stencil_kernel_eq_skeleton]; unfold cc0__stencil_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, Hk⟩
    obtain rfl := harg2.eq_unread hf0
    obtain rfl := harg3.eq_unread hf1
    obtain rfl := harg4.eq_unread hf2
    obtain rfl := harg5.eq_unread hf3
    obtain rfl := harg6.eq_unread hf4
    obtain rfl := harg8.eq_unread hf6
    obtain rfl := harg9.eq_unread hf7
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; iexact H5
    isplitl [H6]
    · iexists _; iexact H6
    iexists _; iexact H7

end Cert.Kernel.Body

end
-- ==== Proof.BitsBodyData.lean ====
/-
  What the kernel's three result buffers hold after each grid point, and the pipeline's proof data.

  A grid point is a tile of eight rows of one batch entry. After the body has run at a point, the output block's buffer
  holds the stencil's values on the tile; each running total's buffer holds, per row of the tile, the total over the
  tiles of this batch entry seen so far: at a first tile this tile's contribution over zero, at a later tile this
  tile's contribution combined with what the tile before left. The buffers of the two running totals are written back
  to their arrays only after the last tile of a batch entry, so between tiles they keep what the body left. The five
  input windows' buffers hold their blocks of the argument arrays, which the body only reads.
-/
import proofs.«175465_j3083786518603_2_alg».proof.Proof.BitsBodyRunLater

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The core's buffers when the region is entered: as launched (the region is the first thing the program does). -/
abbrev V (c : Dev nD) (b : Ref sig .tc) : Buf (Elt F) ((c : Thread nD τ).loc b) := m ((c : Thread nD τ).loc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The stored pieces cover each result's block -/

section Covers
variable (c : Dev nD) (i : grid0.Coords) (arg2 : Memref sig .tc .vmem S1x8x256x256 .f32) (harg2 : arg2.IsWhole) (arg3 : Memref sig .tc .vmem S1x1x256x256 .f32) (harg3 : arg3.IsWhole) (arg4 : Memref sig .tc .vmem S1x1x256x256 .f32) (harg4 : arg4.IsWhole) (arg5 : Memref sig .tc .vmem S1x8x256x7 .f32) (harg5 : arg5.IsWhole) (arg6 : Memref sig .tc .vmem S1x8x256x256 .f32) (harg6 : arg6.IsWhole) (arg7 : Memref sig .tc .vmem S1x8x256x256 .f32) (harg7 : arg7.IsWhole) (arg8 : Memref sig .tc .vmem S1x8x128 .f32) (harg8 : arg8.IsWhole) (arg9 : Memref sig .tc .vmem S1x8x128 .f32) (harg9 : arg9.IsWhole) (x0 : Vec F S1x8x256x256 .f32) (x1 : Vec F S1x1x256x256 .f32) (x2 : Vec F S1x1x256x256 .f32) (x3 : Vec F S1x8x256x7 .f32) (x4 : Vec F S1x8x256x256 .f32)

theorem coverFirst5 (hc : firstTile i) (y : S1x8x256x256.Idx) : ∃ pc ∈ (runFirst c i arg2 harg2 arg3 harg3 arg4 harg4 arg5 harg5 arg6 harg6 arg7 harg7 arg8 harg8 arg9 harg9 hc x0 x1 x2 x3 x4).1.1, y ∈ pc.1.set :=
  View.cover_of_tiledL (runFirst c i arg2 harg2 arg3 harg3 arg4 harg4 arg5 harg5 arg6 harg6 arg7 harg7 arg8 harg8 arg9 harg9 hc x0 x1 x2 x3 x4).1.1 S1x8x256x256.size (by sl_kernel_rfl) y
theorem coverFirst6 (hc : firstTile i) (y : S1x8x128.Idx) : ∃ pc ∈ (runFirst c i arg2 harg2 arg3 harg3 arg4 harg4 arg5 harg5 arg6 harg6 arg7 harg7 arg8 harg8 arg9 harg9 hc x0 x1 x2 x3 x4).1.2.1, y ∈ pc.1.set :=
  View.cover_of_tiledL (runFirst c i arg2 harg2 arg3 harg3 arg4 harg4 arg5 harg5 arg6 harg6 arg7 harg7 arg8 harg8 arg9 harg9 hc x0 x1 x2 x3 x4).1.2.1 S1x8x128.size (by sl_kernel_rfl) y
theorem coverFirst7 (hc : firstTile i) (y : S1x8x128.Idx) : ∃ pc ∈ (runFirst c i arg2 harg2 arg3 harg3 arg4 harg4 arg5 harg5 arg6 harg6 arg7 harg7 arg8 harg8 arg9 harg9 hc x0 x1 x2 x3 x4).1.2.2, y ∈ pc.1.set :=
  View.cover_of_tiledL (runFirst c i arg2 harg2 arg3 harg3 arg4 harg4 arg5 harg5 arg6 harg6 arg7 harg7 arg8 harg8 arg9 harg9 hc x0 x1 x2 x3 x4).1.2.2 S1x8x128.size (by sl_kernel_rfl) y
theorem coverLater5 (hc : ¬firstTile i) (xo6 xo7 : Vec F S1x8x128 .f32) (y : S1x8x256x256.Idx) : ∃ pc ∈ (runLater c i arg2 harg2 arg3 harg3 arg4 harg4 arg5 harg5 arg6 harg6 arg7 harg7 arg8 harg8 arg9 harg9 hc x0 x1 x2 x3 x4 xo6 xo7).1.1, y ∈ pc.1.set :=
  View.cover_of_tiledL (runLater c i arg2 harg2 arg3 harg3 arg4 harg4 arg5 harg5 arg6 harg6 arg7 harg7 arg8 harg8 arg9 harg9 hc x0 x1 x2 x3 x4 xo6 xo7).1.1 S1x8x256x256.size (by sl_kernel_rfl) y
theorem coverLater6 (hc : ¬firstTile i) (xo6 xo7 : Vec F S1x8x128 .f32) (y : S1x8x128.Idx) : ∃ pc ∈ (runLater c i arg2 harg2 arg3 harg3 arg4 harg4 arg5 harg5 arg6 harg6 arg7 harg7 arg8 harg8 arg9 harg9 hc x0 x1 x2 x3 x4 xo6 xo7).1.2.1, y ∈ pc.1.set :=
  View.cover_of_tiledL (runLater c i arg2 harg2 arg3 harg3 arg4 harg4 arg5 harg5 arg6 harg6 arg7 harg7 arg8 harg8 arg9 harg9 hc x0 x1 x2 x3 x4 xo6 xo7).1.2.1 S1x8x128.size (by sl_kernel_rfl) y
theorem coverLater7 (hc : ¬firstTile i) (xo6 xo7 : Vec F S1x8x128 .f32) (y : S1x8x128.Idx) : ∃ pc ∈ (runLater c i arg2 harg2 arg3 harg3 arg4 harg4 arg5 harg5 arg6 harg6 arg7 harg7 arg8 harg8 arg9 harg9 hc x0 x1 x2 x3 x4 xo6 xo7).1.2.2, y ∈ pc.1.set :=
  View.cover_of_tiledL (runLater c i arg2 harg2 arg3 harg3 arg4 harg4 arg5 harg5 arg6 harg6 arg7 harg7 arg8 harg8 arg9 harg9 hc x0 x1 x2 x3 x4 xo6 xo7).1.2.2 S1x8x128.size (by sl_kernel_rfl) y

/-- What a first tile leaves in the three result buffers: its pieces read back. -/
def leftFirst (hc : firstTile i) : Vec F S1x8x256x256 .f32 × Vec F S1x8x128 .f32 × Vec F S1x8x128 .f32 :=
  (viewOut.read (Elt F) (viewOut.writes (Elt F) viewOut.junk (runFirst c i arg2 harg2 arg3 harg3 arg4 harg4 arg5 harg5 arg6 harg6 arg7 harg7 arg8 harg8 arg9 harg9 hc x0 x1 x2 x3 x4).1.1),
   viewSum.read (Elt F) (viewSum.writes (Elt F) viewSum.junk (runFirst c i arg2 harg2 arg3 harg3 arg4 harg4 arg5 harg5 arg6 harg6 arg7 harg7 arg8 harg8 arg9 harg9 hc x0 x1 x2 x3 x4).1.2.1),
   viewMax.read (Elt F) (viewMax.writes (Elt F) viewMax.junk (runFirst c i arg2 harg2 arg3 harg3 arg4 harg4 arg5 harg5 arg6 harg6 arg7 harg7 arg8 harg8 arg9 harg9 hc x0 x1 x2 x3 x4).1.2.2))

/-- What a later tile leaves in them, from what the tile before left in the two running totals' buffers. -/
def leftLater (hc : ¬firstTile i) (xo6 xo7 : Vec F S1x8x128 .f32) : Vec F S1x8x256x256 .f32 × Vec F S1x8x128 .f32 × Vec F S1x8x128 .f32 :=
  (viewOut.read (Elt F) (viewOut.writes (Elt F) viewOut.junk (runLater c i arg2 harg2 arg3 harg3 arg4 harg4 arg5 harg5 arg6 harg6 arg7 harg7 arg8 harg8 arg9 harg9 hc x0 x1 x2 x3 x4 xo6 xo7).1.1),
   viewSum.read (Elt F) (viewSum.writes (Elt F) viewSum.junk (runLater c i arg2 harg2 arg3 harg3 arg4 harg4 arg5 harg5 arg6 harg6 arg7 harg7 arg8 harg8 arg9 harg9 hc x0 x1 x2 x3 x4 xo6 xo7).1.2.1),
   viewMax.read (Elt F) (viewMax.writes (Elt F) viewMax.junk (runLater c i arg2 harg2 arg3 harg3 arg4 harg4 arg5 harg5 arg6 harg6 arg7 harg7 arg8 harg8 arg9 harg9 hc x0 x1 x2 x3 x4 xo6 xo7).1.2.2))
end Covers

/-! ## Point by point -/

/-- What the three result buffers hold after the body at position `n` of the grid: the first-tile case at the positions
    divisible by 32, else the later-tile case over what position `n - 1` left in the running totals' buffers. -/
def leftAt (c : Dev nD) : (n : ℕ) → n < cfg0.N → Vec F S1x8x256x256 .f32 × Vec F S1x8x128 .f32 × Vec F S1x8x128 .f32
  | 0, hn => leftFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) (ms7 ⟨0, hn⟩) (hs7 ⟨0, hn⟩) (iblk m c 0 ⟨0, hn⟩) (iblk m c 1 ⟨0, hn⟩) (iblk m c 2 ⟨0, hn⟩) (iblk m c 3 ⟨0, hn⟩) (iblk m c 4 ⟨0, hn⟩) ((firstTile_iff ⟨0, hn⟩).mpr (Nat.zero_mod _))
  | n + 1, hn =>
    if h0 : (n + 1) % 32 = 0 then
      leftFirst c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (iblk m c 0 ⟨n + 1, hn⟩) (iblk m c 1 ⟨n + 1, hn⟩) (iblk m c 2 ⟨n + 1, hn⟩) (iblk m c 3 ⟨n + 1, hn⟩) (iblk m c 4 ⟨n + 1, hn⟩) ((firstTile_iff ⟨n + 1, hn⟩).mpr h0)
    else
      leftLater c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (iblk m c 0 ⟨n + 1, hn⟩) (iblk m c 1 ⟨n + 1, hn⟩) (iblk m c 2 ⟨n + 1, hn⟩) (iblk m c 3 ⟨n + 1, hn⟩) (iblk m c 4 ⟨n + 1, hn⟩) (fun h => h0 ((firstTile_iff ⟨n + 1, hn⟩).mp h))
        (leftAt c n (Nat.lt_of_succ_lt hn)).2.1 (leftAt c n (Nat.lt_of_succ_lt hn)).2.2

theorem leftAt_first (c : Dev nD) (t : Fin cfg0.N) (h0 : t.val % 32 = 0) :
    leftAt m c t.val t.isLt = leftFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) (iblk m c 0 t) (iblk m c 1 t) (iblk m c 2 t) (iblk m c 3 t) (iblk m c 4 t) ((firstTile_iff t).mpr h0) := by
  obtain ⟨n, hn⟩ := t
  cases n with
  | zero => exact rfl
  | succ n => exact (dif_pos h0).trans rfl

theorem leftAt_later (c : Dev nD) (t : Fin cfg0.N) (h0 : ¬t.val % 32 = 0) :
    leftAt m c t.val t.isLt = leftLater c (grid0.coords t) (ms0 t) (hs0 t) (ms1 t) (hs1 t) (ms2 t) (hs2 t) (ms3 t) (hs3 t) (ms4 t) (hs4 t) (ms5 t) (hs5 t) (ms6 t) (hs6 t) (ms7 t) (hs7 t) (iblk m c 0 t) (iblk m c 1 t) (iblk m c 2 t) (iblk m c 3 t) (iblk m c 4 t) (fun h => h0 ((firstTile_iff t).mp h))
      (leftAt m c (t.val - 1) (Nat.lt_of_le_of_lt (Nat.sub_le _ _) t.isLt)).2.1 (leftAt m c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans rfl

/-! ## The proof data -/

/-- The pipeline's proof data on core `c`, for any way `q` of dealing the argument arrays' shares among the input
    windows: the arrays as the region finds them; after the body at point `t` each input's buffer at its block and the
    three results' buffers at `leftAt`; between points nothing but the buffers no window stages; nothing owed. -/
def dats (q : Fin cfg0.W → PosShare TreeShare) (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (leftAt m c t.val t.isLt).1
    | ⟨6, _⟩ => (leftAt m c t.val t.isLt).2.1
    | ⟨7, _⟩ => (leftAt m c t.val t.isLt).2.2
  Φ _ := Pipeline.scopedRest spec0 c
  q := q
  owed _ := 0

variable (q : Fin cfg0.W → PosShare TreeShare)

theorem A_eq (c : Dev nD) (w : Fin cfg0.W) : (dats m q 0 c).A w = V m c (Pipeline.arrRef spec0 w) := by dsimp only [dats]

theorem after0 (c : Dev nD) (t : Fin cfg0.N) : (dats m q 0 c).after 0 t = iblk m c 0 t := by dsimp only [dats]
theorem after1 (c : Dev nD) (t : Fin cfg0.N) : (dats m q 0 c).after 1 t = iblk m c 1 t := by dsimp only [dats]
theorem after2 (c : Dev nD) (t : Fin cfg0.N) : (dats m q 0 c).after 2 t = iblk m c 2 t := by dsimp only [dats]
theorem after3 (c : Dev nD) (t : Fin cfg0.N) : (dats m q 0 c).after 3 t = iblk m c 3 t := by dsimp only [dats]
theorem after4 (c : Dev nD) (t : Fin cfg0.N) : (dats m q 0 c).after 4 t = iblk m c 4 t := by dsimp only [dats]
theorem after5 (c : Dev nD) (t : Fin cfg0.N) : (dats m q 0 c).after 5 t = (leftAt m c t.val t.isLt).1 := by dsimp only [dats]
theorem after6 (c : Dev nD) (t : Fin cfg0.N) : (dats m q 0 c).after 6 t = (leftAt m c t.val t.isLt).2.1 := by dsimp only [dats]
theorem after7 (c : Dev nD) (t : Fin cfg0.N) : (dats m q 0 c).after 7 t = (leftAt m c t.val t.isLt).2.2 := by dsimp only [dats]

/-- Each input window is fetched at every point, so its current buffer holds its block of the argument array. -/
theorem before0 (c : Dev nD) (t : Fin cfg0.N) (d) : (dats m q 0 c).before 0 t d = iblk m c 0 t := by
  rw [Dat.before_fetched _ 0 t (fetch0_0 t)]; unfold Dat.fetched Dat.blockOf iblk; dsimp only [dats]; rfl
theorem before1 (c : Dev nD) (t : Fin cfg0.N) (d) : (dats m q 0 c).before 1 t d = iblk m c 1 t := by
  rw [Dat.before_fetched _ 1 t (fetch0_1 t)]; unfold Dat.fetched Dat.blockOf iblk; dsimp only [dats]; rfl
theorem before2 (c : Dev nD) (t : Fin cfg0.N) (d) : (dats m q 0 c).before 2 t d = iblk m c 2 t := by
  rw [Dat.before_fetched _ 2 t (fetch0_2 t)]; unfold Dat.fetched Dat.blockOf iblk; dsimp only [dats]; rfl
theorem before3 (c : Dev nD) (t : Fin cfg0.N) (d) : (dats m q 0 c).before 3 t d = iblk m c 3 t := by
  rw [Dat.before_fetched _ 3 t (fetch0_3 t)]; unfold Dat.fetched Dat.blockOf iblk; dsimp only [dats]; rfl
theorem before4 (c : Dev nD) (t : Fin cfg0.N) (d) : (dats m q 0 c).before 4 t d = iblk m c 4 t := by
  rw [Dat.before_fetched _ 4 t (fetch0_4 t)]; unfold Dat.fetched Dat.blockOf iblk; dsimp only [dats]; rfl

/-- At a later tile each running total's buffer holds what the body left at the tile before: the point is not the
    first, and the buffer is written back only after a batch entry's last tile, which the tile before is not. -/
theorem before6_later (c : Dev nD) (t : Fin cfg0.N) (h0 : ¬t.val % 32 = 0) (d) :
    (dats m q 0 c).before 6 t d = (leftAt m c (t.val - 1) (Nat.lt_of_le_of_lt (Nat.sub_le _ _) t.isLt)).2.1 := by
  have hN : t.val < 64 := lt_of_lt_of_eq t.isLt (show cfg0.N = 64 from N_0)
  rw [Dat.before_out_kept _ 6 rfl t (by omega) (Bool.eq_false_iff.mpr fun h => by have := (flush0_6 _).mp h; dsimp only at this; omega)
    (fun _ => rfl) (fun _ _ => rfl)]
  dsimp only [dats]
theorem before7_later (c : Dev nD) (t : Fin cfg0.N) (h0 : ¬t.val % 32 = 0) (d) :
    (dats m q 0 c).before 7 t d = (leftAt m c (t.val - 1) (Nat.lt_of_le_of_lt (Nat.sub_le _ _) t.isLt)).2.2 := by
  have hN : t.val < 64 := lt_of_lt_of_eq t.isLt (show cfg0.N = 64 from N_0)
  rw [Dat.before_out_kept _ 7 rfl t (by omega) (Bool.eq_false_iff.mpr fun h => by have := (flush0_7 _).mp h; dsimp only at this; omega)
    (fun _ => rfl) (fun _ _ => rfl)]
  dsimp only [dats]

end Cert.Kernel.Body

end
-- ==== Proof.BitsBodyObligation.lean ====
/-
  The body obligation of the pipeline's proof data.

  At every grid point the body, called on the eight windows' current staging buffers holding what the proof data says
  they hold before it, runs to its end and leaves them holding what the proof data says they hold after it: the inputs'
  buffers hold their blocks before and after; at a first tile the three results' buffers may hold anything before, at a
  later tile the two running totals' hold what the tile before left; after, each result's buffer holds its stored
  pieces read back, which is all of its block because the pieces cover it.
-/
import proofs.«175465_j3083786518603_2_alg».proof.Proof.BitsBodyData

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (q : Fin cfg0.W → PosShare TreeShare)

/-- What the body is called with at point `t`, the windows one by one, -/
def bodyPre (c : Dev nD) (t : Fin cfg0.N) : sProp 𝕄 :=
  iprop((dats m q 0 c).Φ t.castSucc ∗ (dats m q 0 c).owesAt () t.castSucc
    ∗ (∃ d, owns (c : Thread nD τ) (ms0 t) fullShare ((dats m q 0 c).before 0 t d))
    ∗ (∃ d, owns (c : Thread nD τ) (ms1 t) fullShare ((dats m q 0 c).before 1 t d))
    ∗ (∃ d, owns (c : Thread nD τ) (ms2 t) fullShare ((dats m q 0 c).before 2 t d))
    ∗ (∃ d, owns (c : Thread nD τ) (ms3 t) fullShare ((dats m q 0 c).before 3 t d))
    ∗ (∃ d, owns (c : Thread nD τ) (ms4 t) fullShare ((dats m q 0 c).before 4 t d))
    ∗ (∃ d, owns (c : Thread nD τ) (ms5 t) fullShare ((dats m q 0 c).before 5 t d))
    ∗ (∃ d, owns (c : Thread nD τ) (ms6 t) fullShare ((dats m q 0 c).before 6 t d))
    ∗ (∃ d, owns (c : Thread nD τ) (ms7 t) fullShare ((dats m q 0 c).before 7 t d)))

/-- and what it returns. -/
def bodyPost (c : Dev nD) (t : Fin cfg0.N) : sProp 𝕄 :=
  iprop((dats m q 0 c).Φ t.succ ∗ (dats m q 0 c).owesAt () t.succ
    ∗ owns (c : Thread nD τ) (ms0 t) fullShare ((dats m q 0 c).after 0 t)
    ∗ owns (c : Thread nD τ) (ms1 t) fullShare ((dats m q 0 c).after 1 t)
    ∗ owns (c : Thread nD τ) (ms2 t) fullShare ((dats m q 0 c).after 2 t)
    ∗ owns (c : Thread nD τ) (ms3 t) fullShare ((dats m q 0 c).after 3 t)
    ∗ owns (c : Thread nD τ) (ms4 t) fullShare ((dats m q 0 c).after 4 t)
    ∗ owns (c : Thread nD τ) (ms5 t) fullShare ((dats m q 0 c).after 5 t)
    ∗ owns (c : Thread nD τ) (ms6 t) fullShare ((dats m q 0 c).after 6 t)
    ∗ owns (c : Thread nD τ) (ms7 t) fullShare ((dats m q 0 c).after 7 t))

set_option maxHeartbeats 4000000 in
theorem sound_body (c : Dev nD) (t : Fin cfg0.N) :
    bodyPre m q c t ⊢ wp frame (wpE (defs₀ (F := F)) Variants.none c none) Set.univ (bodyAt0 t) (fun _ => bodyPost m q c t) := by
  unfold bodyPre bodyPost bodyAt0
  simp only [before0, before1, before2, before3, before4]
  rw [show (dats m q 0 c).Φ t.succ = (dats m q 0 c).Φ t.castSucc from rfl,
    show (dats m q 0 c).owesAt () t.succ = (dats m q 0 c).owesAt () t.castSucc from rfl,
    after0, after1, after2, after3, after4, after5, after6, after7]
  have hN : t.val < 64 := lt_of_lt_of_eq t.isLt (show cfg0.N = 64 from N_0)
  by_cases h0 : t.val % 32 = 0
  · rw [leftAt_first m c t h0]
    unfold leftFirst
    dsimp only
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runFirst c (grid0.coords t) _ _ _ _ _ _ _ _ _ _ _ _ _ _ _ _ ((firstTile_iff t).mpr h0) (iblk m c 0 t) (iblk m c 1 t) (iblk m c 2 t) (iblk m c 3 t) (iblk m c 4 t)).2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    iintro ⟨H0, H1, H2, H3, H4, ⟨%e5, H5⟩, ⟨%e6, H6⟩, ⟨%e7, H7⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (coverFirst5 c _ _ _ _ _ _ _ _ _ _ _ _ _ _ _ _ _ _ _ _ _ _ _)
    isplitl [H6]
    · unfold owns; iexists _; isplitr
      swap; · iexact H6
      ipureintro; exact View.read_writes_of_cover _ _ _ _ _ (coverFirst6 c _ _ _ _ _ _ _ _ _ _ _ _ _ _ _ _ _ _ _ _ _ _ _)
    unfold owns; iexists _; isplitr
    swap; · iexact H7
    ipureintro; exact View.read_writes_of_cover _ _ _ _ _ (coverFirst7 c _ _ _ _ _ _ _ _ _ _ _ _ _ _ _ _ _ _ _ _ _ _ _)
  · rw [leftAt_later m c t h0]
    simp only [before6_later m q c t h0, before7_later m q c t h0]
    unfold leftLater
    dsimp only
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runLater c (grid0.coords t) _ _ _ _ _ _ _ _ _ _ _ _ _ _ _ _ (fun h => h0 ((firstTile_iff t).mp h)) (iblk m c 0 t) (iblk m c 1 t) (iblk m c 2 t) (iblk m c 3 t) (iblk m c 4 t) _ _).2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [H7]; · iexact H7
    iintro ⟨H0, H1, H2, H3, H4, ⟨%e5, H5⟩, ⟨%e6, H6⟩, ⟨%e7, H7⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (coverLater5 c _ _ _ _ _ _ _ _ _ _ _ _ _ _ _ _ _ _ _ _ _ _ _ _ _)
    isplitl [H6]
    · unfold owns; iexists _; isplitr
      swap; · iexact H6
      ipureintro; exact View.read_writes_of_cover _ _ _ _ _ (coverLater6 c _ _ _ _ _ _ _ _ _ _ _ _ _ _ _ _ _ _ _ _ _ _ _ _ _)
    unfold owns; iexists _; isplitr
    swap; · iexact H7
    ipureintro; exact View.read_writes_of_cover _ _ _ _ _ (coverLater7 c _ _ _ _ _ _ _ _ _ _ _ _ _ _ _ _ _ _ _ _ _ _ _ _ _)

/-- The library's body obligation, at every point. -/
theorem body_obligation (c : Dev nD) : BodyObligation (dats (F := F) m q 0 c) (defs₀ (F := F)) Variants.none () Set.univ := fun t => by
  rw [bigSep_W0, bigSep_W0]
  exact sound_body m q c t

end Cert.Kernel.Body

end
-- ==== Proof.LaunchBitsSplit.lean ====
/-
  The launch of a pipeline whose windows share an array, part 1: how the buffers behind the arrays, each held
  whole at the full share, make the pipeline's arrays. Three windows read the first argument; its full share is
  dealt among them as the left half and the two halves of the right half. Every other window holds its array whole.
-/
import proofs.«175465_j3083786518603_2_alg».proof.Proof.Gen.Kernel.Launch
import Idealize.ShloMosaic.Lib.Pipeline.Launch
import Idealize.ShloMosaic.Rules.PointsTo

noncomputable section

namespace Cert.Kernel.Shared

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (dats : (p : Fin 1) → (c : Dev nD) → Pipeline.Dat τ (Elt F) Unit ℕ (UR sig nD τ) ℕ (cfgs p) c)

/-- The six distinct buffers behind the eight windows' arrays. -/
theorem image_arrRef :
    Finset.univ.image (Pipeline.arrRef spec0) = {main_arg0, main_arg1, main_arg2, main_v0_0, main_v0_1, main_v0_2} := by
  decide

/-- An input window holds its array at the share the proof data names. -/
theorem share_in (c : Dev nD) (w : Fin 8) (h : (win0 w).isOut = false) : (dats 0 c).share w = (dats 0 c).q w := by
  unfold Pipeline.Dat.share
  exact if_neg (by rw [h]; exact Bool.false_ne_true)

/-- An output window holds its array at the full share. -/
theorem share_out (c : Dev nD) (w : Fin 8) (h : (win0 w).isOut = true) : (dats 0 c).share w = fullShare := by
  unfold Pipeline.Dat.share
  exact if_pos h

/-- One window's array at contents `f`, its share and element set spelt out. -/
theorem arr_pt (c : Dev nD) (w : Fin 8) (q : PosShare TreeShare) (hs : (dats 0 c).share w = q)
    (f : Buf (Elt F) ((win0 w).arr.view.loc (c.tc : Thread nD τ))) :
    ((win0 w).arr.view.loc (c.tc : Thread nD τ) ↦[(win0 w).arr.view.set]{(dats 0 c).share w} f : sProp 𝕄)
      = (((c.tc : Thread nD τ).loc (Pipeline.arrRef spec0 w)) ↦{q} f) := by
  rw [(arr_whole0 w).set_eq_univ, hs]

/-- The shares of the eight windows: the first array's full share dealt in three among the windows that read it
    (its left half, and the two halves of its right half), every other window's the full share. -/
structure Shares (c : Dev nD) : Prop where
  q0 : (dats 0 c).q 0 = fullShare.left
  q1 : (dats 0 c).q 1 = fullShare.right.left
  q2 : (dats 0 c).q 2 = fullShare.right.right
  q3 : (dats 0 c).q 3 = fullShare
  q4 : (dats 0 c).q 4 = fullShare

/-- The pipeline's arrays at contents `G`, window by window. -/
theorem arrays_chain (c : Dev nD) (hq : Shares dats c)
    (G : (w : Fin 8) → Buf (Elt F) ((win0 w).arr.view.loc (c.tc : Thread nD τ))) :
    ((dats 0 c).arrays G : sProp 𝕄)
      = iprop((((c.tc : Thread nD τ).loc main_arg0) ↦{fullShare.left} G 0)
          ∗ (((c.tc : Thread nD τ).loc main_arg0) ↦{fullShare.right.left} G 1)
          ∗ (((c.tc : Thread nD τ).loc main_arg0) ↦{fullShare.right.right} G 2)
          ∗ (((c.tc : Thread nD τ).loc main_arg1) ↦{fullShare} G 3)
          ∗ (((c.tc : Thread nD τ).loc main_arg2) ↦{fullShare} G 4)
          ∗ (((c.tc : Thread nD τ).loc main_v0_0) ↦{fullShare} G 5)
          ∗ (((c.tc : Thread nD τ).loc main_v0_1) ↦{fullShare} G 6)
          ∗ (((c.tc : Thread nD τ).loc main_v0_2) ↦{fullShare} G 7)) := by
  unfold Pipeline.Dat.arrays
  rw [bigSep_W0,
    arr_pt dats c 0 fullShare.left ((share_in dats c 0 rfl).trans hq.q0),
    arr_pt dats c 1 fullShare.right.left ((share_in dats c 1 rfl).trans hq.q1),
    arr_pt dats c 2 fullShare.right.right ((share_in dats c 2 rfl).trans hq.q2),
    arr_pt dats c 3 fullShare ((share_in dats c 3 rfl).trans hq.q3),
    arr_pt dats c 4 fullShare ((share_in dats c 4 rfl).trans hq.q4),
    arr_pt dats c 5 fullShare (share_out dats c 5 rfl),
    arr_pt dats c 6 fullShare (share_out dats c 6 rfl),
    arr_pt dats c 7 fullShare (share_out dats c 7 rfl)]

/-- The buffers behind the arrays, one by one. -/
theorem arrBufs_chain (c : Dev nD) (V : (b : Ref sig .tc) → Buf (Elt F) ((c.tc : Thread nD τ).loc b)) :
    (Pipeline.arrBufs spec0 c V : sProp 𝕄)
      = iprop((((c.tc : Thread nD τ).loc main_arg0) ↦{fullShare} V main_arg0)
          ∗ (((c.tc : Thread nD τ).loc main_arg1) ↦{fullShare} V main_arg1)
          ∗ (((c.tc : Thread nD τ).loc main_arg2) ↦{fullShare} V main_arg2)
          ∗ (((c.tc : Thread nD τ).loc main_v0_0) ↦{fullShare} V main_v0_0)
          ∗ (((c.tc : Thread nD τ).loc main_v0_1) ↦{fullShare} V main_v0_1)
          ∗ (((c.tc : Thread nD τ).loc main_v0_2) ↦{fullShare} V main_v0_2)) := by
  unfold Pipeline.arrBufs
  rw [image_arrRef, bigSep_insert (by decide), bigSep_insert (by decide), bigSep_insert (by decide), bigSep_insert (by decide),
    bigSep_insert (by decide), bigSep_singleton]
  rfl

/-- The buffers behind the arrays, each whole at the full share, make the pipeline's arrays at the same contents:
    the first array's full share is dealt among the three windows that read it. -/
theorem arrays_split_shared (c : Dev nD) (hq : Shares dats c)
    (V : (b : Ref sig .tc) → Buf (Elt F) ((c.tc : Thread nD τ).loc b))
    (G : (w : Fin 8) → Buf (Elt F) ((win0 w).arr.view.loc (c.tc : Thread nD τ)))
    (hG : ∀ w, G w = V (Pipeline.arrRef spec0 w)) :
    (Pipeline.arrBufs spec0 c V : sProp 𝕄) ⊢ (dats 0 c).arrays G := by
  rw [arrays_chain dats c hq G, hG 0, hG 1, hG 2, hG 3, hG 4, hG 5, hG 6, hG 7, arrBufs_chain c V]
  iintro ⟨H0, H1, H2, H3, H4, H5⟩
  ihave ⟨Ha, Hbc⟩ := (pointsTo_share (PosShare.mem_left_op_right fullShare)).1 $$ H0
  ihave ⟨Hb, Hc⟩ := (pointsTo_share (PosShare.mem_left_op_right fullShare.right)).1 $$ Hbc
  isplitl [Ha]; · iexact Ha
  isplitl [Hb]; · iexact Hb
  isplitl [Hc]; · iexact Hc
  isplitl [H1]; · iexact H1
  isplitl [H2]; · iexact H2
  isplitl [H3]; · iexact H3
  isplitl [H4]; · iexact H4
  iexact H5

end Cert.Kernel.Shared

end
-- ==== Proof.LaunchBitsTail.lean ====
/-
  The launch of a pipeline whose windows share an array, part 2: the host operations that follow the region. They
  read two of the region's result arrays and write ten buffers that bypass the region. From the region's exit they
  run holding exactly those twelve buffers whole; the arrays they do not write come back unchanged, the ten
  buffers at the operations' results computed from the exit contents.
-/
import proofs.«175465_j3083786518603_2_alg».proof.Proof.LaunchBitsSplit
import Idealize.ShloMosaic.Lib.Pipeline.FrameSuffix

noncomputable section

namespace Cert.Kernel.Shared

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The ten buffers that bypass the region: what the host operations after it write. -/
def bypass : List (Ref sig .tc) := [main_v1, main_v2, main_cst, main_v3, main_cst_0, main_v4, main_v5, main_v6, main_cst_1, main_v7]

/-- The unscoped buffers that are no window's array. -/
abbrev restSet : Finset (Ref sig .tc) :=
  (Finset.univ.filter fun b : Ref sig .tc => ¬ b.isScoped) \ Finset.univ.image (Pipeline.arrRef spec0)

/-- What the host operations after the region may touch: the two result arrays they read, and the bypassing buffers. -/
def tailSet : Finset (Ref sig .tc) := {main_v0_1, main_v0_2} ∪ restSet

/-- The same as device buffers. -/
def tailRefs : Finset (DevRef τ sig) := tailSet.map ⟨Proc.devRef (sig := sig) .tc, Proc.devRef_injective _⟩

theorem mem_restSet (r : Ref sig .tc) (h₁ : r.isScoped = false)
    (h₂ : r ∉ ({main_arg0, main_arg1, main_arg2, main_v0_0, main_v0_1, main_v0_2} : Finset (Ref sig .tc))) : r ∈ restSet :=
  Finset.mem_sdiff.mpr ⟨Finset.mem_filter.mpr ⟨Finset.mem_univ _, by simp [h₁]⟩, by rw [image_arrRef]; exact h₂⟩

theorem bypass_sub_restSet : ∀ r ∈ bypass, r ∈ restSet := by
  intro r hr
  refine mem_restSet r ?_ ?_ <;> revert r <;> decide

theorem results_not_mem_restSet : ∀ r ∈ ({main_v0_1, main_v0_2} : Finset (Ref sig .tc)), r ∉ restSet := by
  intro r hr h
  exact (Finset.mem_sdiff.mp h).2 (by rw [image_arrRef]; revert r; decide)

theorem devRef_mem_tailRefs (r : Ref sig .tc) (h : r ∈ tailSet) : Proc.devRef (τ := τ) .tc r ∈ tailRefs :=
  Finset.mem_map_of_mem _ h

theorem mem_tailSet_of_bypass (r : Ref sig .tc) (h : r ∈ bypass) : r ∈ tailSet :=
  Finset.mem_union_right _ (bypass_sub_restSet r h)

/-- The set held at contents `W`: the two result arrays, and the bypassing buffers. -/
theorem held_tailRefs (c : Dev nD) (W : Valuation τ sig (Elt F)) :
    (StableHlo.held (c.tc : Thread nD τ) tailRefs W : sProp 𝕄)
      = iprop(((((c.tc : Thread nD τ).loc main_v0_1) ↦{fullShare} W (Proc.devRef .tc main_v0_1))
            ∗ (((c.tc : Thread nD τ).loc main_v0_2) ↦{fullShare} W (Proc.devRef .tc main_v0_2)))
          ∗ Pipeline.unscopedRest spec0 c (fun b => W (Proc.devRef .tc b))) := by
  have hdisj : Disjoint ({main_v0_1, main_v0_2} : Finset (Ref sig .tc)) restSet :=
    Finset.disjoint_left.mpr fun b hb hr => results_not_mem_restSet b hb hr
  unfold StableHlo.held tailRefs tailSet Pipeline.unscopedRest
  rw [bigSep_map, bigSep_union hdisj, bigSep_insert (by decide), bigSep_singleton]
  rfl

/-- Every host operation after the region touches only the two result arrays and the bypassing buffers; -/
theorem hostOps1_tail : (hostOps1 : List (HloOp τ sig (Elt F))).Forall fun op => op.bufs ⊆ tailRefs := by
  have hb : ∀ r ∈ bypass, Proc.devRef (τ := τ) .tc r ∈ tailRefs := fun r h => devRef_mem_tailRefs r (mem_tailSet_of_bypass r h)
  have h6 : Proc.devRef (τ := τ) .tc main_v0_1 ∈ tailRefs := devRef_mem_tailRefs _ (Finset.mem_union_left _ (by decide))
  have h7 : Proc.devRef (τ := τ) .tc main_v0_2 ∈ tailRefs := devRef_mem_tailRefs _ (Finset.mem_union_left _ (by decide))
  have s1 : ∀ y ∈ bypass, ({Proc.devRef .tc y} : Finset (DevRef τ sig)) ⊆ tailRefs := fun y hy => Finset.singleton_subset_iff.mpr (hb y hy)
  exact ⟨Finset.insert_subset h6 (s1 main_v1 (by decide)),
    Finset.insert_subset (hb main_v1 (by decide)) (s1 main_v2 (by decide)),
    s1 main_cst (by decide),
    Finset.insert_subset (hb main_v2 (by decide)) (Finset.insert_subset (hb main_cst (by decide)) (s1 main_v3 (by decide))),
    s1 main_cst_0 (by decide),
    Finset.insert_subset (hb main_v3 (by decide)) (Finset.insert_subset (hb main_cst_0 (by decide)) (s1 main_v4 (by decide))),
    Finset.insert_subset h7 (s1 main_v5 (by decide)),
    Finset.insert_subset (hb main_v5 (by decide)) (s1 main_v6 (by decide)),
    s1 main_cst_1 (by decide),
    Finset.insert_subset (hb main_v6 (by decide)) (Finset.insert_subset (hb main_cst_1 (by decide)) (s1 main_v7 (by decide)))⟩

/-- determines all it writes; -/
theorem hostOps1_fresh : (hostOps1 : List (HloOp τ sig (Elt F))).Forall fun op => op.fresh = ∅ :=
  ⟨rfl, rfl, rfl, rfl, rfl, rfl, rfl, rfl, rfl, rfl⟩

/-- and writes a bypassing buffer. -/
theorem hostOps1_writes : (hostOps1 : List (HloOp τ sig (Elt F))).Forall fun op =>
    op.writes ⊆ (bypass.map (Proc.devRef (τ := τ) .tc)).toFinset := by
  have s1 : ∀ y ∈ bypass, ({Proc.devRef .tc y} : Finset (DevRef τ sig)) ⊆ (bypass.map (Proc.devRef (τ := τ) .tc)).toFinset :=
    fun y hy => Finset.singleton_subset_iff.mpr (List.mem_toFinset.mpr (List.mem_map.mpr ⟨y, hy, rfl⟩))
  exact ⟨s1 main_v1 (by decide), s1 main_v2 (by decide), s1 main_cst (by decide), s1 main_v3 (by decide), s1 main_cst_0 (by decide),
    s1 main_v4 (by decide), s1 main_v5 (by decide), s1 main_v6 (by decide), s1 main_cst_1 (by decide), s1 main_v7 (by decide)⟩

/-- The core's buffer contents at the region's exit: the launch memory, the two result arrays the host operations read at
    what the region leaves in them. -/
def exitV (m : (ℓ : Loc nD τ sig) → Buf (Elt F) ℓ) (c : Dev nD)
    (A6 : Buf (Elt F) ((c.tc : Thread nD τ).loc main_v0_1)) (A7 : Buf (Elt F) ((c.tc : Thread nD τ).loc main_v0_2)) : Valuation τ sig (Elt F) :=
  Function.update (Function.update (fun b => m (c, b)) (Proc.devRef .tc main_v0_1) A6) (Proc.devRef .tc main_v0_2) A7

theorem exitV_v0_1 (m : (ℓ : Loc nD τ sig) → Buf (Elt F) ℓ) (c : Dev nD) (A6 A7) :
    exitV m c A6 A7 (Proc.devRef .tc main_v0_1) = A6 := by
  unfold exitV
  rw [Function.update_of_ne (StableHlo.devRef_ne_of_ne (by decide)), Function.update_self]

theorem exitV_v0_2 (m : (ℓ : Loc nD τ sig) → Buf (Elt F) ℓ) (c : Dev nD) (A6 A7) :
    exitV m c A6 A7 (Proc.devRef .tc main_v0_2) = A7 := by
  unfold exitV
  rw [Function.update_self]

theorem exitV_rest (m : (ℓ : Loc nD τ sig) → Buf (Elt F) ℓ) (c : Dev nD) (A6 A7) (b : Ref sig .tc) (hb : b ∈ restSet) :
    exitV m c A6 A7 (Proc.devRef .tc b) = m ((c.tc : Thread nD τ).loc b) := by
  unfold exitV
  rw [Function.update_of_ne (StableHlo.devRef_ne_of_ne fun e => results_not_mem_restSet _ (by decide) (e ▸ hb)),
    Function.update_of_ne (StableHlo.devRef_ne_of_ne fun e => results_not_mem_restSet _ (by decide) (e ▸ hb))]

/-- The host operations write neither result array. -/
theorem after_v0_1 (W : Valuation τ sig (Elt F)) :
    StableHlo.after hostOps1 W (Proc.devRef .tc main_v0_1) = W (Proc.devRef .tc main_v0_1) :=
  StableHlo.after_of_writes_sub hostOps1 W hostOps1_writes (by decide)

theorem after_v0_2 (W : Valuation τ sig (Elt F)) :
    StableHlo.after hostOps1 W (Proc.devRef .tc main_v0_2) = W (Proc.devRef .tc main_v0_2) :=
  StableHlo.after_of_writes_sub hostOps1 W hostOps1_writes (by decide)

theorem unscopedRest_exitV (m : (ℓ : Loc nD τ sig) → Buf (Elt F) ℓ) (c : Dev nD) (A6 A7) :
    (Pipeline.unscopedRest spec0 c (fun b => exitV m c A6 A7 (Proc.devRef .tc b)) : sProp 𝕄)
      = Pipeline.unscopedRest spec0 c (fun b => m ((c.tc : Thread nD τ).loc b)) := by
  unfold Pipeline.unscopedRest
  exact bigSep_congr fun b hb => by beta_reduce; rw [exitV_rest m c _ _ b hb]

variable (dats : (p : Fin 1) → (c : Dev nD) → Pipeline.Dat τ (Elt F) Unit ℕ (UR sig nD τ) ℕ (cfgs p) c)

local notation "𝔻" => Pipeline.defs (pcfgs (F := F)) (defs₀ (F := F))
local notation "𝕍" => Variants.lift Variants.none

/-- The contents of the bypassing buffers after the host operations, run from the region's exit. -/
abbrev afterV (m : (ℓ : Loc nD τ sig) → Buf (Elt F) ℓ) (c : Dev nD) : Valuation τ sig (Elt F) :=
  StableHlo.after hostOps1 (exitV m c ((dats 0 c).arrAt 6 cfg0.N) ((dats 0 c).arrAt 7 cfg0.N))

-- a rule stated for any thread is applied at the TensorCore thread
set_option backward.isDefEq.respectTransparency.types false in
/-- THE HOST OPERATIONS AFTER THE REGION: from the region's exit (the boundary, the arrays at what the region leaves, the
    bypassing buffers at the launch contents) they run within the two result arrays they read and the bypassing buffers,
    and hand back the arrays unchanged and the bypassing buffers at the operations' results. -/
theorem tail_shared (m : (ℓ : Loc nD τ sig) → Buf (Elt F) ℓ) (c : Dev nD) (hq : Shares dats c) (Q' : PUnit → sProp 𝕄) :
    iprop((iprop((dats 0 c).arrays ((dats 0 c).arrAt · cfg0.N)
              ∗ Pipeline.unscopedRest spec0 c (fun b => afterV dats m c (Proc.devRef .tc b))) -∗ Q' ⟨⟩)
        ∗ boundary (c.tc : Thread nD τ) ∗ (dats 0 c).arrays ((dats 0 c).arrAt · cfg0.N)
        ∗ Pipeline.unscopedRest spec0 c (fun b => m ((c.tc : Thread nD τ).loc b)))
      ⊢ wp frame (wpE 𝔻 𝕍 (c.tc : Thread nD τ) none) Set.univ (Pipeline.chain [StableHlo.seq hostOps1]) Q' := by
  have hW : (StableHlo.held (c.tc : Thread nD τ) tailRefs (exitV m c ((dats 0 c).arrAt 6 cfg0.N) ((dats 0 c).arrAt 7 cfg0.N)) : sProp 𝕄)
      = iprop(((((c.tc : Thread nD τ).loc main_v0_1) ↦{fullShare} (dats 0 c).arrAt 6 cfg0.N)
            ∗ (((c.tc : Thread nD τ).loc main_v0_2) ↦{fullShare} (dats 0 c).arrAt 7 cfg0.N))
          ∗ Pipeline.unscopedRest spec0 c (fun b => m ((c.tc : Thread nD τ).loc b))) := by
    rw [held_tailRefs, exitV_v0_1, exitV_v0_2, unscopedRest_exitV]
  have hW' : (StableHlo.held (c.tc : Thread nD τ) tailRefs (afterV dats m c) : sProp 𝕄)
      = iprop(((((c.tc : Thread nD τ).loc main_v0_1) ↦{fullShare} (dats 0 c).arrAt 6 cfg0.N)
            ∗ (((c.tc : Thread nD τ).loc main_v0_2) ↦{fullShare} (dats 0 c).arrAt 7 cfg0.N))
          ∗ Pipeline.unscopedRest spec0 c (fun b => afterV dats m c (Proc.devRef .tc b))) := by
    rw [held_tailRefs]
    unfold afterV
    rw [after_v0_1, after_v0_2, exitV_v0_1, exitV_v0_2]
  rw [arrays_chain dats c hq, Pipeline.chain_cons]
  iintro ⟨Hk, Hb, ⟨H0, H1, H2, H3, H4, H5, H6, H7⟩, HZ⟩
  iapply (StableHlo.wp_seq 𝕍 none Set.univ c tailRefs _ hostOps1 (List.forall_iff_forall_mem.mp hostOps1_tail)
    (List.forall_iff_forall_mem.mp hostOps1_fresh) (exitV m c ((dats 0 c).arrAt 6 cfg0.N) ((dats 0 c).arrAt 7 cfg0.N))) $$ [Hb H6 H7 HZ]
  · rw [hW]
    isplitl [Hb]; · iexact Hb
    isplitr [HZ]
    · isplitl [H6]; · iexact H6
      iexact H7
    · iexact HZ
  iintro H
  rw [Pipeline.chain_nil, wp_pure, hW']
  imodintro
  icases H with ⟨-, ⟨H6, H7⟩, HZ⟩
  iapply Hk
  isplitr [HZ]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · iexact HZ

end Cert.Kernel.Shared

end
-- ==== Proof.LaunchBitsRun.lean ====
/-
  The launch of a pipeline whose windows share an array, part 3: the run of @main. The region's launch theorem for
  windows that need not have distinct arrays is instantiated with the deal of the first argument's share among
  its three windows (part 1) and the host operations after the region (part 2); the region's invariant is the scoped
  rest, nothing is owed, and the final memory is read off the arrays and the bypassing buffers.
-/
import proofs.«175465_j3083786518603_2_alg».proof.Proof.LaunchBitsTail
import Idealize.ShloMosaic.Lib.Pipeline.Kit

noncomputable section

namespace Cert.Kernel.Shared

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- THE RUN of @main: the region, whose windows 0, 1, 2 share the first argument, then the ten host operations. From
    any memory whose semaphore counters are zero every weakly fair execution terminates, and in every final state each
    window's array holds what the write-backs of all the grid's points leave in it, and each buffer the host operations
    write holds the operations' result computed from the contents at the region's exit. -/
theorem run_shared (m : (ℓ : Loc nD τ sig) → Buf (Elt F) ℓ) (ρ : Dev nD → PrngReg)
    (dats : (p : Fin 1) → (c : Dev nD) → Pipeline.Dat τ (Elt F) Unit ℕ (UR sig nD τ) ℕ (cfgs p) c)
    (hA : ∀ c w, (dats 0 c).A w = m ((c.tc : Thread nD τ).loc (Pipeline.arrRef spec0 w)))
    (hΦ : ∀ c t, (dats 0 c).Φ t = Pipeline.scopedRest spec0 c)
    (hq : ∀ c, (dats 0 c).q 0 = fullShare.left ∧ (dats 0 c).q 1 = fullShare.right.left ∧ (dats 0 c).q 2 = fullShare.right.right
      ∧ (dats 0 c).q 3 = fullShare ∧ (dats 0 c).q 4 = fullShare)
    (howed : ∀ c t, (dats 0 c).owed t = 0)
    (hbody : ∀ c, Pipeline.BodyObligation (dats 0 c) (defs₀ (F := F)) Variants.none () Set.univ) :
    θ_run defs (onTc (τ := τ) (main (F := F))) ⟨m, fun _ => 0, ρ⟩ (fun r => ∀ c : Dev nD,
      (∀ w, r.2.mem ((spec0 w).arr.view.loc (c.tc : Thread nD τ)) = (dats 0 c).arrAt w cfg0.N)
      ∧ (∀ b ∈ bypass, r.2.mem ((c.tc : Thread nD τ).loc b)
          = StableHlo.after hostOps1 (exitV m c ((dats 0 c).arrAt 6 cfg0.N) ((dats 0 c).arrAt 7 cfg0.N)) (Proc.devRef .tc b))) := by
  have hS : ∀ c, Shares dats c := fun c => ⟨(hq c).1, (hq c).2.1, (hq c).2.2.1, (hq c).2.2.2.1, (hq c).2.2.2.2⟩
  unfold defs
  exact Pipeline.θ_run_region_noSem_pf_tail (pcfgs (F := F)) (fun p => (cfgs p).toPCfg_adm) dats () cellOf_inj 0 winFacts₀0 (Pipeline.PreFacts.none _)
    emb₁ defs₀ Variants.none m ρ main (fun _ => Pipeline.chain [StableHlo.seq hostOps1])
    (fun c => (hbody c).loose) block_pos0 arr_whole0 stage_whole0 howed
    (u₀ := initOf (Pipeline.cells cfgs cellOf_inj) (Pipeline.launchToks cfgs cellOf_inj)) (hu₀ := .rfl)
    (V := fun c b => m ((c.tc : Thread nD τ).loc b))
    (hmain := Pipeline.hmain_around cfgs 0 defs₀ Variants.none m main [] [hostOps1] trivial trivial main_chain)
    (hsplit := fun c => arrays_split_shared dats c (hS c) _ _ fun w => hA c w)
    (hpf := fun _ k => k.elim0)
    (X := fun _ => iprop(emp)) (Y := fun _ => iprop(emp))
    (Z := fun c => Pipeline.unscopedRest spec0 c (fun b => m ((c.tc : Thread nD τ).loc b)))
    (Z' := fun c => Pipeline.unscopedRest spec0 c (fun b => afterV dats m c (Proc.devRef .tc b)))
    (hX := fun c => by
      rw [Pipeline.unscopedRestP_none]
      iintro H; isplitr; · iempintro
      iexact H)
    (hin := fun c => by
      rw [hΦ]
      iintro ⟨-, -, HR⟩; iexact HR)
    (hout := fun c => by
      rw [hΦ]
      iintro HR; isplitr; · iempintro
      iexact HR)
    (htail := fun c Q' => tail_shared dats m c (hS c) Q')
    (QY := fun c s => ∀ b ∈ restSet, s.mem ((c.tc : Thread nD τ).loc b) = afterV dats m c (Proc.devRef .tc b))
    (hY := fun c s' => by
      iintro ⟨-, HU, HSI⟩
      unfold Pipeline.unscopedRest
      imodintro
      iapply (pointsTo_read_all restSet (fun b => (c.tc : Thread nD τ).loc b) (fun b => afterV dats m c (Proc.devRef .tc b)) s')
      isplitl [HU] <;> iassumption)
    (hQ := fun s h c => ⟨(h c).1, fun b hb => (h c).2.2 b (bypass_sub_restSet b hb)⟩)

end Cert.Kernel.Shared

end
-- ==== Proof.FramesBits.lean ====
/-
  The kernel program's run and its frame.

  The pipeline's proof data deals the first argument array, which three of the kernel's windows read (the eight-row
  tile and the one row before and after it), among those three windows in three disjoint shares that make up the whole;
  the other two argument arrays go whole to their one window each. With the body's obligation at every grid point, the
  launch of the region and the host operations after it run to the end without a fault; in the final state every
  window's array holds what the proof data computes for it, and an input window's array is computed to hold what it
  held at the start. The three argument arrays are input windows' arrays, so they end unchanged.
-/
import proofs.«175465_j3083786518603_2_alg».proof.Proof.BitsBodyObligation
import proofs.«175465_j3083786518603_2_alg».proof.Proof.LaunchBitsRun

noncomputable section

namespace Cert.Kernel.Frames

open Cert.Kernel Cert.Kernel.Gen
open Idealize.ShloMosaic Idealize.ShloMosaic.TcCoe
open Idealize.SL Idealize.SL.RA Idealize.SL.Sem
open Idealize.ShloMosaic.Rounds

variable {F : FTy → Type} [FloatOps F]

/-- How the argument arrays' shares are dealt among the five input windows: the first array in three disjoint pieces
    of the whole, the other two whole. (The result windows hold their arrays whole whatever is said here.) -/
def qShared : Fin cfg0.W → PosShare TreeShare
  | ⟨0, _⟩ => fullShare.left
  | ⟨1, _⟩ => fullShare.right.left
  | ⟨2, _⟩ => fullShare.right.right
  | _ => fullShare

variable (m : (ℓ : Loc nD τ sig) → Buf (Elt F) ℓ) (ρ : Dev nD → PrngReg)

/-- The proof data of the run. -/
abbrev dats (p : Fin 1) (c : Dev nD) := Body.dats (F := F) m qShared p c

/-- The program runs to the end without a fault; every window's array ends at what the proof data computes, and every
    buffer the host operations after the region write ends at those operations' result from the region's exit. -/
theorem run : θ_run defs (onTc (τ := τ) (main (F := F))) ⟨m, fun _ => 0, ρ⟩ (fun r => ∀ c : Dev nD,
      (∀ w, r.2.mem ((spec0 w).arr.view.loc (c.tc : Thread nD τ)) = (dats m 0 c).arrAt w cfg0.N)
      ∧ (∀ b ∈ Shared.bypass, r.2.mem ((c.tc : Thread nD τ).loc b)
          = StableHlo.after hostOps1 (Shared.exitV m c ((dats m 0 c).arrAt 6 cfg0.N) ((dats m 0 c).arrAt 7 cfg0.N)) (Proc.devRef .tc b))) :=
  Shared.run_shared m ρ (dats m) (fun _ _ => rfl) (fun _ _ => rfl) (fun _ => ⟨rfl, rfl, rfl, rfl, rfl⟩) (fun _ _ => rfl)
    (fun c => Body.body_obligation m qShared c)

/-- The frame: the three argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).1 0).trans ((dats m 0 c).arrAt_in 0 rfl _),
     ((h c).1 3).trans ((dats m 0 c).arrAt_in 3 rfl _),
     ((h c).1 4).trans ((dats m 0 c).arrAt_in 4 rfl _)⟩) (run m ρ)

end Cert.Kernel.Frames

end
-- ==== Proof.Spec.lean ====
/-
  The mathematics both programs compute, stated once over the extended reals and over literal extents.

  The arrays are indexed by a batch coordinate b < 2 and three space coordinates h, w, z < 256; the coefficient
  array carries seven numbers per (b, h, w). A neighbour of the point (b, h, w, z) along one axis is the array's
  entry one step back or one step forward along that axis, and ZERO when the step would leave the array. The stencil's
  value at a point is the centre entry times coefficient 6 plus the six neighbours (one step back and one step forward
  along w, then h, then z) times coefficients 0 to 5, added in that order. The error is the stencil's value minus the
  target's entry; the loss is the sum of the squared errors over every point, divided by the number the pattern
  0x4C000000 denotes (the count of points); the largest error is the maximum over every point of the error's
  absolute value, taken from the value the pattern 0xFF800000 denotes (the bottom of the order).
-/
import Idealize.ShloMosaic.PureOps.Ideal
import Idealize.ShloMosaic.PureOps.Ideal.Laws
import Idealize.ShloMosaic.Lib.ValueIdx

noncomputable section

open scoped BigOperators

namespace Cert.StencilSpec

open Idealize.ShloMosaic Idealize.ShloMosaic.ValueIdx

/-- The shape of the field, of the target and of the result: 2 × 256 × 256 × 256. -/
abbrev SX : Shape := ⟨4, ![2, 256, 256, 256]⟩
/-- The shape of the coefficients: seven per point of the first three axes. -/
abbrev SC : Shape := ⟨4, ![2, 256, 256, 7]⟩

/-- One step back along an axis of extent 256, when there is one. -/
def back (a : Fin 256) (h : a.val ≠ 0) : Fin 256 := ⟨a.val - 1, by have := a.isLt; omega⟩
/-- One step forward along an axis of extent 256, when there is one. -/
def fwd (a : Fin 256) (h : a.val ≠ 255) : Fin 256 := ⟨a.val + 1, by have := a.isLt; omega⟩

variable (x : SX.Idx → EReal) (cf : SC.Idx → EReal) (r : SX.Idx → EReal)

/-- The entry one step back along w, zero at the first column. -/
def west (b : Fin 2) (h w z : Fin 256) : EReal := if hw : w.val = 0 then 0 else x (ix4 b h (back w hw) z)
/-- The entry one step forward along w, zero at the last column. -/
def east (b : Fin 2) (h w z : Fin 256) : EReal := if hw : w.val = 255 then 0 else x (ix4 b h (fwd w hw) z)
/-- The entry one step back along h, zero at the first row. -/
def south (b : Fin 2) (h w z : Fin 256) : EReal := if hh : h.val = 0 then 0 else x (ix4 b (back h hh) w z)
/-- The entry one step forward along h, zero at the last row. -/
def north (b : Fin 2) (h w z : Fin 256) : EReal := if hh : h.val = 255 then 0 else x (ix4 b (fwd h hh) w z)
/-- The entry one step back along z, zero at the first layer. -/
def bottom (b : Fin 2) (h w z : Fin 256) : EReal := if hz : z.val = 0 then 0 else x (ix4 b h w (back z hz))
/-- The entry one step forward along z, zero at the last layer. -/
def top (b : Fin 2) (h w z : Fin 256) : EReal := if hz : z.val = 255 then 0 else x (ix4 b h w (fwd z hz))

/-- Coefficient k at the point (b, h, w): the same for every z. -/
def coef (b : Fin 2) (h w : Fin 256) (k : Fin 7) : EReal := cf (ix4 b h w k)

/-- The stencil's value at a point: the centre term first, then west, east, south, north, bottom, top. -/
def stencilAt (b : Fin 2) (h w z : Fin 256) : EReal :=
  x (ix4 b h w z) * coef cf b h w 6 + west x b h w z * coef cf b h w 0 + east x b h w z * coef cf b h w 1
    + south x b h w z * coef cf b h w 2 + north x b h w z * coef cf b h w 3
    + bottom x b h w z * coef cf b h w 4 + top x b h w z * coef cf b h w 5

/-- The stencil's value as an array. -/
def stencil : SX.Idx → EReal := fun i => stencilAt x cf (i 0) (i 1) (i 2) (i 3)

/-- The error: the stencil's value minus the target's entry. -/
def err : SX.Idx → EReal := fun i => stencil x cf i - r i

/-- The loss: the sum of the squared errors over every point, divided by the count of points as its pattern denotes it. -/
def loss : EReal := Ideal.div (∑ i : SX.Idx, err x cf r i * err x cf r i) (Ideal.ofBits .f32 0x4C000000#32)

/-- The largest error: the maximum of the errors' absolute values over every point, from the bottom of the order as
    its pattern denotes it. -/
def maxAbs : EReal :=
  (Finset.univ : Finset SX.Idx).fold max (Ideal.ofBits .f32 0xFF800000#32) (fun i => max (err x cf r i) (-(err x cf r i)))

end Cert.StencilSpec

end
-- ==== Proof.RefShift.lean ====
/-
  The six shifted copies of the field that the reference program builds, each read at one point.

  The program pads the field with one slab of zeros on one side of one axis and keeps 256 consecutive entries of the
  257 along that axis. Padding in front and keeping the first 256 moves every entry one step forward, so the point
  (b, h, w, z) reads the entry one step BACK along the axis, and the zero slab where there is none; padding behind and
  keeping the last 256 reads the entry one step FORWARD, and the zero slab at the far edge. These are the six
  zero-filled neighbours of the shared specification.
-/
import proofs.«175465_j3083786518603_2_alg».proof.Proof.Gen.ReferenceIdeal.Read
import proofs.«175465_j3083786518603_2_alg».proof.Proof.Spec
import Idealize.ShloMosaic.Lib.KernelVsHost
import Idealize.ShloMosaic.Lib.ValueIdx

noncomputable section

namespace Cert.ReferenceIdeal.RefSpec

open Cert.ReferenceIdeal Cert.ReferenceIdeal.Gen Cert.ReferenceIdeal.Read Idealize.ShloMosaic Idealize.ShloMosaic.ValueIdx
open Cert.StencilSpec

/-- The padding value of this shift is the integer 0 converted, the extended real 0. -/
theorem padval_west (j : S_.Idx) : val_main_call0_v0 (F := Ideal) j = 0 := by
  show (((0#32 : BitVec 32).toInt : ℝ) : EReal) = 0
  simp

/-- The west shift: one zero slab put in front of axis 2 and the first 256 entries kept: entry w reads entry w - 1, and the zero at w = 0. -/
theorem west_eq (x : FVec Ideal S2x256x256x256 .f32) (b : Fin 2) (h w z : Fin 256) :
    val_main_v1 (F := Ideal) x (ix4 b h w z) = west x b h w z := by
  rw [val_main_v1_apply]
  unfold val_main_v0 west
  by_cases hc : w.val = 0
  · rw [dif_pos hc]
    refine (pad_apply_of_not_inside _ _ _ x _ _ _ _ (2 : Fin 4) ?_).trans (padval_west _)
    intro hin
    have e : 1 ≤ w.val := hin.1
    omega
  · rw [dif_neg hc]
    refine pad_apply_of_inside _ _ _ x _ _ _ _ (ix4 b h (back w hc) z) ?_
    intro a
    match a with
    | ⟨0, _⟩ => show b.val = 0 + b.val * (0 + 1); omega
    | ⟨1, _⟩ => show h.val = 0 + h.val * (0 + 1); omega
    | ⟨2, _⟩ => show w.val = 1 + (w.val - 1) * (0 + 1); omega
    | ⟨3, _⟩ => show z.val = 0 + z.val * (0 + 1); omega

/-- The padding value of this shift is the integer 0 converted, the extended real 0. -/
theorem padval_east (j : S_.Idx) : val_main_call1_v0 (F := Ideal) j = 0 := by
  show (((0#32 : BitVec 32).toInt : ℝ) : EReal) = 0
  simp

/-- The east shift: one zero slab put behind axis 2 and the last 256 entries kept: entry w reads entry w + 1, and the zero at w = 255. -/
theorem east_eq (x : FVec Ideal S2x256x256x256 .f32) (b : Fin 2) (h w z : Fin 256) :
    val_main_v3 (F := Ideal) x (ix4 b h w z) = east x b h w z := by
  rw [val_main_v3_apply]
  unfold val_main_v2 east
  by_cases hc : w.val = 255
  · rw [dif_pos hc]
    refine (pad_apply_of_not_inside _ _ _ x _ _ _ _ (2 : Fin 4) ?_).trans (padval_east _)
    intro hin
    have e : (1 + w.val - 0) / (0 + 1) < 256 := hin.2.2
    omega
  · rw [dif_neg hc]
    refine pad_apply_of_inside _ _ _ x _ _ _ _ (ix4 b h (fwd w hc) z) ?_
    intro a
    match a with
    | ⟨0, _⟩ => show b.val = 0 + b.val * (0 + 1); omega
    | ⟨1, _⟩ => show h.val = 0 + h.val * (0 + 1); omega
    | ⟨2, _⟩ => show 1 + w.val = 0 + (w.val + 1) * (0 + 1); omega
    | ⟨3, _⟩ => show z.val = 0 + z.val * (0 + 1); omega

/-- The padding value of this shift is the integer 0 converted, the extended real 0. -/
theorem padval_south (j : S_.Idx) : val_main_call2_v0 (F := Ideal) j = 0 := by
  show (((0#32 : BitVec 32).toInt : ℝ) : EReal) = 0
  simp

/-- The south shift: one zero slab put in front of axis 1 and the first 256 entries kept: entry h reads entry h - 1, and the zero at h = 0. -/
theorem south_eq (x : FVec Ideal S2x256x256x256 .f32) (b : Fin 2) (h w z : Fin 256) :
    val_main_v5 (F := Ideal) x (ix4 b h w z) = south x b h w z := by
  rw [val_main_v5_apply]
  unfold val_main_v4 south
  by_cases hc : h.val = 0
  · rw [dif_pos hc]
    refine (pad_apply_of_not_inside _ _ _ x _ _ _ _ (1 : Fin 4) ?_).trans (padval_south _)
    intro hin
    have e : 1 ≤ h.val := hin.1
    omega
  · rw [dif_neg hc]
    refine pad_apply_of_inside _ _ _ x _ _ _ _ (ix4 b (back h hc) w z) ?_
    intro a
    match a with
    | ⟨0, _⟩ => show b.val = 0 + b.val * (0 + 1); omega
    | ⟨1, _⟩ => show h.val = 1 + (h.val - 1) * (0 + 1); omega
    | ⟨2, _⟩ => show w.val = 0 + w.val * (0 + 1); omega
    | ⟨3, _⟩ => show z.val = 0 + z.val * (0 + 1); omega

/-- The padding value of this shift is the integer 0 converted, the extended real 0. -/
theorem padval_north (j : S_.Idx) : val_main_call3_v0 (F := Ideal) j = 0 := by
  show (((0#32 : BitVec 32).toInt : ℝ) : EReal) = 0
  simp

/-- The north shift: one zero slab put behind axis 1 and the last 256 entries kept: entry h reads entry h + 1, and the zero at h = 255. -/
theorem north_eq (x : FVec Ideal S2x256x256x256 .f32) (b : Fin 2) (h w z : Fin 256) :
    val_main_v7 (F := Ideal) x (ix4 b h w z) = north x b h w z := by
  rw [val_main_v7_apply]
  unfold val_main_v6 north
  by_cases hc : h.val = 255
  · rw [dif_pos hc]
    refine (pad_apply_of_not_inside _ _ _ x _ _ _ _ (1 : Fin 4) ?_).trans (padval_north _)
    intro hin
    have e : (1 + h.val - 0) / (0 + 1) < 256 := hin.2.2
    omega
  · rw [dif_neg hc]
    refine pad_apply_of_inside _ _ _ x _ _ _ _ (ix4 b (fwd h hc) w z) ?_
    intro a
    match a with
    | ⟨0, _⟩ => show b.val = 0 + b.val * (0 + 1); omega
    | ⟨1, _⟩ => show 1 + h.val = 0 + (h.val + 1) * (0 + 1); omega
    | ⟨2, _⟩ => show w.val = 0 + w.val * (0 + 1); omega
    | ⟨3, _⟩ => show z.val = 0 + z.val * (0 + 1); omega

/-- The padding value of this shift is the integer 0 converted, the extended real 0. -/
theorem padval_bottom (j : S_.Idx) : val_main_call4_v0 (F := Ideal) j = 0 := by
  show (((0#32 : BitVec 32).toInt : ℝ) : EReal) = 0
  simp

/-- The bottom shift: one zero slab put in front of axis 3 and the first 256 entries kept: entry z reads entry z - 1, and the zero at z = 0. -/
theorem bottom_eq (x : FVec Ideal S2x256x256x256 .f32) (b : Fin 2) (h w z : Fin 256) :
    val_main_v9 (F := Ideal) x (ix4 b h w z) = bottom x b h w z := by
  rw [val_main_v9_apply]
  unfold val_main_v8 bottom
  by_cases hc : z.val = 0
  · rw [dif_pos hc]
    refine (pad_apply_of_not_inside _ _ _ x _ _ _ _ (3 : Fin 4) ?_).trans (padval_bottom _)
    intro hin
    have e : 1 ≤ z.val := hin.1
    omega
  · rw [dif_neg hc]
    refine pad_apply_of_inside _ _ _ x _ _ _ _ (ix4 b h w (back z hc)) ?_
    intro a
    match a with
    | ⟨0, _⟩ => show b.val = 0 + b.val * (0 + 1); omega
    | ⟨1, _⟩ => show h.val = 0 + h.val * (0 + 1); omega
    | ⟨2, _⟩ => show w.val = 0 + w.val * (0 + 1); omega
    | ⟨3, _⟩ => show z.val = 1 + (z.val - 1) * (0 + 1); omega

/-- The padding value of this shift is the integer 0 converted, the extended real 0. -/
theorem padval_top (j : S_.Idx) : val_main_call5_v0 (F := Ideal) j = 0 := by
  show (((0#32 : BitVec 32).toInt : ℝ) : EReal) = 0
  simp

/-- The top shift: one zero slab put behind axis 3 and the last 256 entries kept: entry z reads entry z + 1, and the zero at z = 255. -/
theorem top_eq (x : FVec Ideal S2x256x256x256 .f32) (b : Fin 2) (h w z : Fin 256) :
    val_main_v11 (F := Ideal) x (ix4 b h w z) = top x b h w z := by
  rw [val_main_v11_apply]
  unfold val_main_v10 top
  by_cases hc : z.val = 255
  · rw [dif_pos hc]
    refine (pad_apply_of_not_inside _ _ _ x _ _ _ _ (3 : Fin 4) ?_).trans (padval_top _)
    intro hin
    have e : (1 + z.val - 0) / (0 + 1) < 256 := hin.2.2
    omega
  · rw [dif_neg hc]
    refine pad_apply_of_inside _ _ _ x _ _ _ _ (ix4 b h w (fwd z hc)) ?_
    intro a
    match a with
    | ⟨0, _⟩ => show b.val = 0 + b.val * (0 + 1); omega
    | ⟨1, _⟩ => show h.val = 0 + h.val * (0 + 1); omega
    | ⟨2, _⟩ => show w.val = 0 + w.val * (0 + 1); omega
    | ⟨3, _⟩ => show 1 + z.val = 0 + (z.val + 1) * (0 + 1); omega

end Cert.ReferenceIdeal.RefSpec

end
-- ==== Proof.RefCoef.lean ====
/-
  The seven coefficient arrays of the reference program, each read at one point.

  The program gives the coefficient array a unit axis before its last one, cuts out the slab of one coefficient k,
  drops the unit axis again and repeats the slab 256 times along the last axis. Read at the point (b, h, w, z) the
  result is the coefficient array's entry (b, h, w, k), whatever z is: the reshape keeps the row-major position, and
  with a unit last axis that position determines (b, h, w).
-/
import proofs.«175465_j3083786518603_2_alg».proof.Proof.Gen.ReferenceIdeal.Read
import proofs.«175465_j3083786518603_2_alg».proof.Proof.Spec
import Idealize.ShloMosaic.Lib.KernelVsHost
import Idealize.ShloMosaic.Lib.ValueIdx

noncomputable section

namespace Cert.ReferenceIdeal.RefSpec

open Cert.ReferenceIdeal Cert.ReferenceIdeal.Gen Cert.ReferenceIdeal.Read Idealize.ShloMosaic Idealize.ShloMosaic.ValueIdx
open Cert.StencilSpec

/-- Coefficient 0, cut out of the coefficient array and spread over the last axis, read at a point. -/
theorem coef0_eq (cf : FVec Ideal S2x256x256x7 .f32) (b : Fin 2) (h w z : Fin 256) :
    val_main_v15 (F := Ideal) cf (ix4 b h w z) = coef cf b h w 0 := by
  rw [val_main_v15_apply, val_main_v14_apply, val_main_v13_apply, val_main_v12_apply]
  unfold coef
  refine congrArg cf (funext fun a => Fin.ext ?_)
  have hb : b.val < 2 := b.isLt
  have hh : h.val < 256 := h.isLt
  have hw : w.val < 256 := w.isLt
  match a with
  | ⟨0, _⟩ => show (((b.val * 256 + h.val) * 256 + w.val) * 1 + 0) / 65536 = b.val; omega
  | ⟨1, _⟩ => show (((b.val * 256 + h.val) * 256 + w.val) * 1 + 0) / 256 % 256 = h.val; omega
  | ⟨2, _⟩ => show (((b.val * 256 + h.val) * 256 + w.val) * 1 + 0) / 1 % 256 = w.val; omega
  | ⟨3, _⟩ => show 0 = 0; rfl

/-- Coefficient 1, cut out of the coefficient array and spread over the last axis, read at a point. -/
theorem coef1_eq (cf : FVec Ideal S2x256x256x7 .f32) (b : Fin 2) (h w z : Fin 256) :
    val_main_v19 (F := Ideal) cf (ix4 b h w z) = coef cf b h w 1 := by
  rw [val_main_v19_apply, val_main_v18_apply, val_main_v17_apply, val_main_v12_apply]
  unfold coef
  refine congrArg cf (funext fun a => Fin.ext ?_)
  have hb : b.val < 2 := b.isLt
  have hh : h.val < 256 := h.isLt
  have hw : w.val < 256 := w.isLt
  match a with
  | ⟨0, _⟩ => show (((b.val * 256 + h.val) * 256 + w.val) * 1 + 0) / 65536 = b.val; omega
  | ⟨1, _⟩ => show (((b.val * 256 + h.val) * 256 + w.val) * 1 + 0) / 256 % 256 = h.val; omega
  | ⟨2, _⟩ => show (((b.val * 256 + h.val) * 256 + w.val) * 1 + 0) / 1 % 256 = w.val; omega
  | ⟨3, _⟩ => show 1 + 0 = 1; rfl

/-- Coefficient 2, cut out of the coefficient array and spread over the last axis, read at a point. -/
theorem coef2_eq (cf : FVec Ideal S2x256x256x7 .f32) (b : Fin 2) (h w z : Fin 256) :
    val_main_v24 (F := Ideal) cf (ix4 b h w z) = coef cf b h w 2 := by
  rw [val_main_v24_apply, val_main_v23_apply, val_main_v22_apply, val_main_v12_apply]
  unfold coef
  refine congrArg cf (funext fun a => Fin.ext ?_)
  have hb : b.val < 2 := b.isLt
  have hh : h.val < 256 := h.isLt
  have hw : w.val < 256 := w.isLt
  match a with
  | ⟨0, _⟩ => show (((b.val * 256 + h.val) * 256 + w.val) * 1 + 0) / 65536 = b.val; omega
  | ⟨1, _⟩ => show (((b.val * 256 + h.val) * 256 + w.val) * 1 + 0) / 256 % 256 = h.val; omega
  | ⟨2, _⟩ => show (((b.val * 256 + h.val) * 256 + w.val) * 1 + 0) / 1 % 256 = w.val; omega
  | ⟨3, _⟩ => show 2 + 0 = 2; rfl

/-- Coefficient 3, cut out of the coefficient array and spread over the last axis, read at a point. -/
theorem coef3_eq (cf : FVec Ideal S2x256x256x7 .f32) (b : Fin 2) (h w z : Fin 256) :
    val_main_v29 (F := Ideal) cf (ix4 b h w z) = coef cf b h w 3 := by
  rw [val_main_v29_apply, val_main_v28_apply, val_main_v27_apply, val_main_v12_apply]
  unfold coef
  refine congrArg cf (funext fun a => Fin.ext ?_)
  have hb : b.val < 2 := b.isLt
  have hh : h.val < 256 := h.isLt
  have hw : w.val < 256 := w.isLt
  match a with
  | ⟨0, _⟩ => show (((b.val * 256 + h.val) * 256 + w.val) * 1 + 0) / 65536 = b.val; omega
  | ⟨1, _⟩ => show (((b.val * 256 + h.val) * 256 + w.val) * 1 + 0) / 256 % 256 = h.val; omega
  | ⟨2, _⟩ => show (((b.val * 256 + h.val) * 256 + w.val) * 1 + 0) / 1 % 256 = w.val; omega
  | ⟨3, _⟩ => show 3 + 0 = 3; rfl

/-- Coefficient 4, cut out of the coefficient array and spread over the last axis, read at a point. -/
theorem coef4_eq (cf : FVec Ideal S2x256x256x7 .f32) (b : Fin 2) (h w z : Fin 256) :
    val_main_v34 (F := Ideal) cf (ix4 b h w z) = coef cf b h w 4 := by
  rw [val_main_v34_apply, val_main_v33_apply, val_main_v32_apply, val_main_v12_apply]
  unfold coef
  refine congrArg cf (funext fun a => Fin.ext ?_)
  have hb : b.val < 2 := b.isLt
  have hh : h.val < 256 := h.isLt
  have hw : w.val < 256 := w.isLt
  match a with
  | ⟨0, _⟩ => show (((b.val * 256 + h.val) * 256 + w.val) * 1 + 0) / 65536 = b.val; omega
  | ⟨1, _⟩ => show (((b.val * 256 + h.val) * 256 + w.val) * 1 + 0) / 256 % 256 = h.val; omega
  | ⟨2, _⟩ => show (((b.val * 256 + h.val) * 256 + w.val) * 1 + 0) / 1 % 256 = w.val; omega
  | ⟨3, _⟩ => show 4 + 0 = 4; rfl

/-- Coefficient 5, cut out of the coefficient array and spread over the last axis, read at a point. -/
theorem coef5_eq (cf : FVec Ideal S2x256x256x7 .f32) (b : Fin 2) (h w z : Fin 256) :
    val_main_v39 (F := Ideal) cf (ix4 b h w z) = coef cf b h w 5 := by
  rw [val_main_v39_apply, val_main_v38_apply, val_main_v37_apply, val_main_v12_apply]
  unfold coef
  refine congrArg cf (funext fun a => Fin.ext ?_)
  have hb : b.val < 2 := b.isLt
  have hh : h.val < 256 := h.isLt
  have hw : w.val < 256 := w.isLt
  match a with
  | ⟨0, _⟩ => show (((b.val * 256 + h.val) * 256 + w.val) * 1 + 0) / 65536 = b.val; omega
  | ⟨1, _⟩ => show (((b.val * 256 + h.val) * 256 + w.val) * 1 + 0) / 256 % 256 = h.val; omega
  | ⟨2, _⟩ => show (((b.val * 256 + h.val) * 256 + w.val) * 1 + 0) / 1 % 256 = w.val; omega
  | ⟨3, _⟩ => show 5 + 0 = 5; rfl

/-- Coefficient 6, cut out of the coefficient array and spread over the last axis, read at a point. -/
theorem coef6_eq (cf : FVec Ideal S2x256x256x7 .f32) (b : Fin 2) (h w z : Fin 256) :
    val_main_v44 (F := Ideal) cf (ix4 b h w z) = coef cf b h w 6 := by
  rw [val_main_v44_apply, val_main_v43_apply, val_main_v42_apply, val_main_v12_apply]
  unfold coef
  refine congrArg cf (funext fun a => Fin.ext ?_)
  have hb : b.val < 2 := b.isLt
  have hh : h.val < 256 := h.isLt
  have hw : w.val < 256 := w.isLt
  match a with
  | ⟨0, _⟩ => show (((b.val * 256 + h.val) * 256 + w.val) * 1 + 0) / 65536 = b.val; omega
  | ⟨1, _⟩ => show (((b.val * 256 + h.val) * 256 + w.val) * 1 + 0) / 256 % 256 = h.val; omega
  | ⟨2, _⟩ => show (((b.val * 256 + h.val) * 256 + w.val) * 1 + 0) / 1 % 256 = w.val; omega
  | ⟨3, _⟩ => show 6 + 0 = 6; rfl

end Cert.ReferenceIdeal.RefSpec

end
-- ==== Proof.RefStencil.lean ====
/-
  The reference program's stencil array is the specification's stencil.

  At a point the program's value is c0 * west + c1 * east + c2 * south + c3 * north + c4 * bottom + c5 * top + c6 * centre,
  each coefficient first and the sum taken from the left; the specification's is centre * c6 + west * c0 + ... + top * c5,
  the entry first and the centre term in front. The six shifted copies and the seven spread coefficients are read at
  the point by the lemmas of the two modules before this one; what is left is that multiplication and addition of
  extended reals are commutative and addition associative. No term is distributed or cancelled.
-/
import proofs.«175465_j3083786518603_2_alg».proof.Proof.Gen.ReferenceIdeal.Read
import proofs.«175465_j3083786518603_2_alg».proof.Proof.Spec
import proofs.«175465_j3083786518603_2_alg».proof.Proof.RefShift
import proofs.«175465_j3083786518603_2_alg».proof.Proof.RefCoef
import Idealize.ShloMosaic.Lib.KernelVsHost
import Idealize.ShloMosaic.Lib.ValueIdx

noncomputable section

namespace Cert.ReferenceIdeal.RefSpec

open Cert.ReferenceIdeal Cert.ReferenceIdeal.Gen Cert.ReferenceIdeal.Read Idealize.ShloMosaic Idealize.ShloMosaic.ValueIdx
open Cert.StencilSpec

/-- The stencil array of the reference program, as a function of the field and the coefficients, is the
    specification's stencil. -/
theorem stencil_eq (x : FVec Ideal S2x256x256x256 .f32) (cf : FVec Ideal S2x256x256x7 .f32) :
    val_main_v46 (F := Ideal) x cf = stencil x cf := by
  funext i
  obtain ⟨b, h, w, z, rfl⟩ : ∃ (b : Fin 2) (h w z : Fin 256), i = ix4 b h w z := ⟨i 0, i 1, i 2, i 3, eq_ix4 i⟩
  rw [val_main_v46_apply, val_main_v41_apply, val_main_v36_apply, val_main_v31_apply, val_main_v26_apply,
    val_main_v21_apply, val_main_v16_apply, val_main_v20_apply, val_main_v25_apply, val_main_v30_apply,
    val_main_v35_apply, val_main_v40_apply, val_main_v45_apply,
    coef0_eq, coef1_eq, coef2_eq, coef3_eq, coef4_eq, coef5_eq, coef6_eq,
    west_eq, east_eq, south_eq, north_eq, bottom_eq, top_eq]
  show _ = stencilAt x cf b h w z
  unfold stencilAt
  simp only [Ideal.addf_def, Ideal.mulf_def]
  ac_rfl

/-- The error array of the reference program is the specification's: the stencil minus the target, point by point. -/
theorem err_eq (x : FVec Ideal S2x256x256x256 .f32) (cf : FVec Ideal S2x256x256x7 .f32) (r : FVec Ideal S2x256x256x256 .f32) :
    val_main_v47 (F := Ideal) x cf r = err x cf r := by
  funext i
  rw [val_main_v47_apply, stencil_eq]
  rfl

end Cert.ReferenceIdeal.RefSpec

end
-- ==== Proof.RefLoss.lean ====
/-
  The reference program's loss is the specification's loss.

  The program sums the squared errors over every point, starting from the value the all-zero pattern denotes, which is
  the extended real 0, and divides the sum by the value the pattern 0x4C000000 denotes. Zero plus a sum is the sum;
  the divisor is kept as its pattern on both sides and never evaluated.
-/
import proofs.«175465_j3083786518603_2_alg».proof.Proof.Gen.ReferenceIdeal.Read
import proofs.«175465_j3083786518603_2_alg».proof.Proof.Spec
import proofs.«175465_j3083786518603_2_alg».proof.Proof.RefStencil
import Idealize.ShloMosaic.Lib.IdealHost
import Idealize.ShloMosaic.Lib.KernelVsHost
import Idealize.ShloMosaic.Lib.ValueIdx

noncomputable section

namespace Cert.ReferenceIdeal.RefSpec

open Cert.ReferenceIdeal Cert.ReferenceIdeal.Gen Cert.ReferenceIdeal.Read Idealize.ShloMosaic Idealize.ShloMosaic.ValueIdx
open Cert.StencilSpec

/-- The loss of the reference program (a rank-0 array, so a function of the one empty index) is the specification's. -/
theorem loss_eq (x : FVec Ideal S2x256x256x256 .f32) (cf : FVec Ideal S2x256x256x7 .f32) (r : FVec Ideal S2x256x256x256 .f32) :
    val_main_v50 (F := Ideal) x cf r = fun _ => loss x cf r := by
  funext j
  rw [val_main_v50_apply, val_main_v49_apply, val_main_cst_apply, val_main_cst_5_apply]
  simp only [Ideal.hostDivf_def, Ideal.ofBits_def, Ideal.ofBits_zero_f32, zero_add]
  unfold loss
  refine congrArg (fun s => Ideal.div s _) (Finset.sum_congr rfl fun i _ => ?_)
  simp only [val_main_v48_apply, err_eq, Ideal.mulf_def]

end Cert.ReferenceIdeal.RefSpec

end
-- ==== Proof.RefMax.lean ====
/-
  The reference program's largest error is the specification's.

  The program takes the absolute value of the error at every point, which over the extended reals is the larger of the
  error and its negation, and folds the maximum over all four axes from the value the pattern 0xFF800000 denotes.
  The maximum is commutative and associative, so the fold in row-major order is the fold over the set of all points;
  reducing every axis away leaves one result, which every point contributes to. The initial value is kept as its
  pattern on both sides and never evaluated.
-/
import proofs.«175465_j3083786518603_2_alg».proof.Proof.Gen.ReferenceIdeal.Read
import proofs.«175465_j3083786518603_2_alg».proof.Proof.Spec
import proofs.«175465_j3083786518603_2_alg».proof.Proof.RefStencil
import Idealize.ShloMosaic.PureOps.Reduce
import Idealize.ShloMosaic.PureOps.Ideal.Laws
import Idealize.ShloMosaic.Lib.KernelVsHost
import Idealize.ShloMosaic.Lib.ValueIdx

noncomputable section

namespace Cert.ReferenceIdeal.RefSpec

open Cert.ReferenceIdeal Cert.ReferenceIdeal.Gen Cert.ReferenceIdeal.Read Idealize.ShloMosaic Idealize.ShloMosaic.ValueIdx
open Cert.StencilSpec

/-- The absolute error of the reference program at a point: the larger of the error and its negation. -/
theorem absErr_eq (x : FVec Ideal S2x256x256x256 .f32) (cf : FVec Ideal S2x256x256x7 .f32) (r : FVec Ideal S2x256x256x256 .f32) :
    val_main_v51 (F := Ideal) x cf r = fun i => max (err x cf r i) (-(err x cf r i)) := by
  funext i
  rw [val_main_v51_apply, err_eq]
  rfl

/-- The largest error of the reference program (a rank-0 array, so a function of the one empty index) is the
    specification's. -/
theorem maxAbs_eq (x : FVec Ideal S2x256x256x256 .f32) (cf : FVec Ideal S2x256x256x7 .f32) (r : FVec Ideal S2x256x256x256 .f32) :
    val_main_v52 (F := Ideal) x cf r = fun _ => maxAbs x cf r := by
  funext j
  unfold val_main_v52
  rw [Host.reduce_eq_fold, absErr_eq, val_main_cst_6_apply,
    Finset.filter_true_of_mem fun i _ => funext fun b => b.elim0]
  rfl

end Cert.ReferenceIdeal.RefSpec

end
-- ==== Proof.RefRun.lean ====
/-
  The three results of the reference program's run, as the run states them, are the specification's three values.

  The run ends with each result buffer holding a named term of the memory the program started from. Each named term
  is the corresponding stage applied to the three argument buffers, and the three stages are the specification's
  stencil, loss and largest error of those buffers.
-/
import proofs.«175465_j3083786518603_2_alg».proof.Proof.Gen.ReferenceIdeal.Read
import proofs.«175465_j3083786518603_2_alg».proof.Proof.Spec
import proofs.«175465_j3083786518603_2_alg».proof.Proof.RefStencil
import proofs.«175465_j3083786518603_2_alg».proof.Proof.RefLoss
import proofs.«175465_j3083786518603_2_alg».proof.Proof.RefMax
import Idealize.ShloMosaic.Lib.KernelVsHost
import Idealize.ShloMosaic.Lib.ValueIdx

noncomputable section

namespace Cert.ReferenceIdeal.RefSpec

open Cert.ReferenceIdeal Cert.ReferenceIdeal.Gen Cert.ReferenceIdeal.Read Idealize.ShloMosaic Idealize.ShloMosaic.ValueIdx
open Cert.StencilSpec

open Idealize.ShloMosaic.TcCoe Idealize.SL.Sem Idealize.ShloMosaic.StableHlo

/-- The run's term for the stencil array is the specification's stencil of the first two argument buffers. -/
theorem res_stencil_eq (m : (ℓ : Loc nD τ sig) → Buf (Elt Ideal) ℓ) (c : Dev nD) :
    Cert.ReferenceIdeal.Value.res_main_v46 (F := Ideal) m c
      = stencil (m ((c.tc : Thread nD τ).loc main_arg0)) (m ((c.tc : Thread nD τ).loc main_arg1)) :=
  (val_main_v46_eq m c).trans (stencil_eq _ _)

/-- The run's term for the loss is the specification's loss of the three argument buffers, at its one index. -/
theorem res_loss_eq (m : (ℓ : Loc nD τ sig) → Buf (Elt Ideal) ℓ) (c : Dev nD) :
    Cert.ReferenceIdeal.Value.res_main_v50 (F := Ideal) m c
      = fun _ => loss (m ((c.tc : Thread nD τ).loc main_arg0)) (m ((c.tc : Thread nD τ).loc main_arg1))
          (m ((c.tc : Thread nD τ).loc main_arg2)) :=
  (val_main_v50_eq m c).trans (loss_eq _ _ _)

/-- The run's term for the largest error is the specification's of the three argument buffers, at its one index. -/
theorem res_maxAbs_eq (m : (ℓ : Loc nD τ sig) → Buf (Elt Ideal) ℓ) (c : Dev nD) :
    Cert.ReferenceIdeal.Value.res_main_v52 (F := Ideal) m c
      = fun _ => maxAbs (m ((c.tc : Thread nD τ).loc main_arg0)) (m ((c.tc : Thread nD τ).loc main_arg1))
          (m ((c.tc : Thread nD τ).loc main_arg2)) :=
  (val_main_v52_eq m c).trans (maxAbs_eq _ _ _)

end Cert.ReferenceIdeal.RefSpec

end
-- ==== Proof.Regroup.lean ====
/-
  Regrouping the points of the array by tiles of eight rows.

  The second axis, of extent 256, is cut into 32 tiles of 8 consecutive rows: row s of tile i is row 8 i + s. Every
  point (b, h, w, z) is reached exactly once as (b, row i s, w, z), with i the quotient and s the remainder of h by 8.
  So a sum taken batch by batch, then row of the tile by row, then tile by tile, then over the last two axes, is the
  sum over every point: a sum in a commutative monoid does not depend on how its index set is enumerated. Nothing
  is distributed or cancelled, and no term needs to be finite.
-/
import proofs.«175465_j3083786518603_2_alg».proof.Proof.Spec
import Mathlib.Data.Finset.Fold
import Mathlib.Data.Fintype.BigOperators
import Mathlib.Algebra.BigOperators.Group.Finset.Basic
import Mathlib.Data.EReal.Operations

noncomputable section

open scoped BigOperators

namespace Cert.StencilSpec

open Idealize.ShloMosaic Idealize.ShloMosaic.ValueIdx

/-- Row s of tile i: the row 8 i + s of the second axis. -/
def row (i : Fin 32) (s : Fin 8) : Fin 256 := ⟨8 * i.val + s.val, by have := i.isLt; have := s.isLt; omega⟩

/-- The tile of a row: the quotient by 8. -/
def tileOf (h : Fin 256) : Fin 32 := ⟨h.val / 8, by have := h.isLt; omega⟩
/-- The place of a row inside its tile: the remainder by 8. -/
def inTile (h : Fin 256) : Fin 8 := ⟨h.val % 8, by omega⟩

/-- A row is the row of its place in its tile. -/
theorem row_tileOf_inTile (h : Fin 256) : row (tileOf h) (inTile h) = h :=
  Fin.ext (by show 8 * (h.val / 8) + h.val % 8 = h.val; omega)
/-- The tile of row s of tile i is i. -/
theorem tileOf_row (i : Fin 32) (s : Fin 8) : tileOf (row i s) = i :=
  Fin.ext (by have := s.isLt; show (8 * i.val + s.val) / 8 = i.val; omega)
/-- The place of row s of tile i inside its tile is s. -/
theorem inTile_row (i : Fin 32) (s : Fin 8) : inTile (row i s) = s :=
  Fin.ext (by have := s.isLt; show (8 * i.val + s.val) % 8 = s.val; omega)

/-- The points of the array are the quintuples (batch, row of the tile, tile, third coordinate, fourth coordinate). -/
def tileEquiv : Fin 2 × Fin 8 × Fin 32 × Fin 256 × Fin 256 ≃ SX.Idx where
  toFun p := ix4 p.1 (row p.2.2.1 p.2.1) p.2.2.2.1 p.2.2.2.2
  invFun j := (j 0, inTile (j 1), tileOf (j 1), j 2, j 3)
  left_inv p := by
    obtain ⟨b, s, i, w, z⟩ := p
    show (b, inTile (row i s), tileOf (row i s), w, z) = (b, s, i, w, z)
    rw [inTile_row, tileOf_row]
  right_inv j := by
    funext a
    match a with
    | ⟨0, _⟩ => rfl
    | ⟨1, _⟩ => exact row_tileOf_inTile (j 1)
    | ⟨2, _⟩ => rfl
    | ⟨3, _⟩ => rfl

/-- Every point is (b, row i s, w, z) for some batch, tile, row of the tile and last two coordinates. -/
theorem exists_tile (j : SX.Idx) :
    ∃ (b : Fin 2) (s : Fin 8) (i : Fin 32) (w z : Fin 256), j = ix4 b (row i s) w z :=
  ⟨j 0, inTile (j 1), tileOf (j 1), j 2, j 3, (tileEquiv.right_inv j).symm⟩

/-- (S) The sum taken by batch, row of the tile, tile and the last two coordinates is the sum over every point, in
    any commutative monoid. -/
theorem sum_tiles {M : Type*} [AddCommMonoid M] (e : SX.Idx → M) :
    ∑ b : Fin 2, ∑ s : Fin 8, ∑ i : Fin 32, ∑ w : Fin 256, ∑ z : Fin 256, e (ix4 b (row i s) w z) = ∑ j : SX.Idx, e j := by
  rw [← Equiv.sum_comp tileEquiv e]
  simp only [Fintype.sum_prod_type]
  rfl

/-- (S) at the extended reals. -/
theorem sum_tiles_ereal (e : SX.Idx → EReal) :
    ∑ b : Fin 2, ∑ s : Fin 8, ∑ i : Fin 32, ∑ w : Fin 256, ∑ z : Fin 256, e (ix4 b (row i s) w z) = ∑ j : SX.Idx, e j :=
  sum_tiles e

end Cert.StencilSpec

end
-- ==== Proof.BlocksFacts.lean ====
/-
  The grid and the windows' index maps. The grid is two batch entries by thirty-two tiles, row-major: point t is batch
  entry t / 32 and tile t % 32. Each window's block index is decided once over the sixty-four points: the tile windows
  sit at block (batch entry, tile, 0, 0); the two one-row windows at the row before the tile (8 i - 1, clamped to 0) and
  the row after it (8 i + 8, clamped to 255).
-/
import proofs.«175465_j3083786518603_2_alg».proof.Proof.BodyData
import proofs.«175465_j3083786518603_2_alg».proof.Proof.Regroup
import Idealize.ShloMosaic.Lib.ValueIdx

noncomputable section

namespace Cert.KernelIdeal.Body

open Cert.KernelIdeal Cert.KernelIdeal.Gen Cert.StencilSpec
open Idealize.ShloMosaic Idealize.ShloMosaic.TcCoe Idealize.ShloMosaic.ValueIdx
open Idealize.SL.Sem

variable {F : FTy → Type} [FloatOps F]

/-! ## The grid: batch entry by batch entry, tile by tile -/

theorem blkN (t : Fin cfg0.N) : t.val < 64 := lt_of_lt_of_eq t.isLt (show cfg0.N = 64 from N_0)

/-- The batch entry of a grid point. -/
def bOf (t : Fin cfg0.N) : Fin 2 := ⟨t.val / 32, by have := blkN t; omega⟩
/-- The tile of a grid point. -/
def iOf (t : Fin cfg0.N) : Fin 32 := ⟨t.val % 32, by omega⟩

/-- (G) The grid is row-major: its first coordinate is the batch entry, its second the tile. -/
theorem blkCoords : ∀ t : Fin cfg0.N, (grid0.coords t 1).val = t.val % 32 ∧ (grid0.coords t 0).val = t.val / 32 :=
  (by decide +kernel : ∀ t : Fin grid0.N, (grid0.coords t 1).val = t.val % 32 ∧ (grid0.coords t 0).val = t.val / 32)

theorem blkCoords1 (t : Fin cfg0.N) : (grid0.coords t 1).val = (iOf t).val := (blkCoords t).1
theorem blkCoords0 (t : Fin cfg0.N) : (grid0.coords t 0).val = (bOf t).val := (blkCoords t).2

/-! ## The printed index maps, decided over the grid -/

/-- A window whose block is the tile: block (batch entry, tile, 0, 0). -/
theorem blkIdx0 : ∀ t : Fin cfg0.N, win0_0.index t (0 : Fin 4) = t.val / 32 ∧ win0_0.index t (1 : Fin 4) = t.val % 32
    ∧ win0_0.index t (2 : Fin 4) = 0 ∧ win0_0.index t (3 : Fin 4) = 0 :=
  (by decide +kernel : ∀ t : Fin grid0.N, _)
theorem blkIdx3 : ∀ t : Fin cfg0.N, win0_3.index t (0 : Fin 4) = t.val / 32 ∧ win0_3.index t (1 : Fin 4) = t.val % 32
    ∧ win0_3.index t (2 : Fin 4) = 0 ∧ win0_3.index t (3 : Fin 4) = 0 :=
  (by decide +kernel : ∀ t : Fin grid0.N, _)
theorem blkIdx4 : ∀ t : Fin cfg0.N, win0_4.index t (0 : Fin 4) = t.val / 32 ∧ win0_4.index t (1 : Fin 4) = t.val % 32
    ∧ win0_4.index t (2 : Fin 4) = 0 ∧ win0_4.index t (3 : Fin 4) = 0 :=
  (by decide +kernel : ∀ t : Fin grid0.N, _)
theorem blkIdx5 : ∀ t : Fin cfg0.N, win0_5.index t (0 : Fin 4) = t.val / 32 ∧ win0_5.index t (1 : Fin 4) = t.val % 32
    ∧ win0_5.index t (2 : Fin 4) = 0 ∧ win0_5.index t (3 : Fin 4) = 0 :=
  (by decide +kernel : ∀ t : Fin grid0.N, _)
/-- The window of the one row before the tile: row 8 i - 1, clamped to row 0 at the first tile. -/
theorem blkIdx1 : ∀ t : Fin cfg0.N, win0_1.index t (0 : Fin 4) = t.val / 32
    ∧ win0_1.index t (1 : Fin 4) = (if t.val % 32 = 0 then 0 else 8 * (t.val % 32) - 1)
    ∧ win0_1.index t (2 : Fin 4) = 0 ∧ win0_1.index t (3 : Fin 4) = 0 :=
  (by decide +kernel : ∀ t : Fin grid0.N, _)
/-- The window of the one row after the tile: row 8 i + 8, clamped to row 255 at the last tile. -/
theorem blkIdx2 : ∀ t : Fin cfg0.N, win0_2.index t (0 : Fin 4) = t.val / 32
    ∧ win0_2.index t (1 : Fin 4) = (if t.val % 32 = 31 then 255 else 8 * (t.val % 32) + 8)
    ∧ win0_2.index t (2 : Fin 4) = 0 ∧ win0_2.index t (3 : Fin 4) = 0 :=
  (by decide +kernel : ∀ t : Fin grid0.N, _)

end Cert.KernelIdeal.Body

end
-- ==== Proof.Blocks.lean ====
/-
  The windows' blocks at array coordinates. A block's coordinate on an axis is the block index times the block's extent
  plus the coordinate inside the block; with the index maps decided over the grid, a position (0, r, w, z) of a tile
  window's block at point t is the array's position (batch entry, row r of the tile, w, z), and the one-row windows'
  blocks are the row before and the row after the tile. The output window's blocks tile the result array, each written
  back at its own point.
-/
import proofs.«175465_j3083786518603_2_alg».proof.Proof.BlocksFacts

noncomputable section

namespace Cert.KernelIdeal.Body

open Cert.KernelIdeal Cert.KernelIdeal.Gen Cert.StencilSpec
open Idealize.ShloMosaic Idealize.ShloMosaic.TcCoe Idealize.ShloMosaic.ValueIdx
open Idealize.SL.Sem

variable {F : FTy → Type} [FloatOps F]

variable (m : (ℓ : Loc nD τ sig) → Buf (Elt F) ℓ)

/-! ## The input windows' blocks, read at array coordinates -/

/-- (B0) The first window's block at a point is the tile of the first argument. -/
theorem blk0_at (c : Dev nD) (t : Fin cfg0.N) (r : Fin 8) (w z : Fin 256) :
    iblk m c 0 t (ix4 (0 : Fin 1) r w z) = V m c main_arg0 (ix4 (bOf t) (row (iOf t) r) w z) := by
  obtain ⟨e0, e1, e2, e3⟩ := blkIdx0 t
  show V m c main_arg0 (((cfg0.win 0).blk t).view.emb (ix4 (0 : Fin 1) r w z)) = V m c main_arg0 (ix4 (bOf t) (row (iOf t) r) w z)
  refine congrArg _ ?_
  funext a; apply Fin.ext
  match a with
  | ⟨0, _⟩ => show win0_0.index t (0 : Fin 4) * 1 + 1 * 0 = t.val / 32; omega
  | ⟨1, _⟩ => show win0_0.index t (1 : Fin 4) * 8 + 1 * r.val = 8 * (t.val % 32) + r.val; omega
  | ⟨2, _⟩ => show win0_0.index t (2 : Fin 4) * 256 + 1 * w.val = w.val; omega
  | ⟨3, _⟩ => show win0_0.index t (3 : Fin 4) * 256 + 1 * z.val = z.val; omega

/-- (B1) The second window's block is the one row before the tile, when there is one. -/
theorem blk1_at (c : Dev nD) (t : Fin cfg0.N) (h : (iOf t).val ≠ 0) (w z : Fin 256) :
    iblk m c 1 t (ix4 (0 : Fin 1) (0 : Fin 1) w z)
      = V m c main_arg0 (ix4 (bOf t) (⟨8 * (iOf t).val - 1, by have := (iOf t).isLt; omega⟩ : Fin 256) w z) := by
  obtain ⟨e0, e1, e2, e3⟩ := blkIdx1 t
  have h' : t.val % 32 ≠ 0 := h
  rw [if_neg h'] at e1
  show V m c main_arg0 (((cfg0.win 1).blk t).view.emb (ix4 (0 : Fin 1) (0 : Fin 1) w z)) = _
  refine congrArg _ ?_
  funext a; apply Fin.ext
  match a with
  | ⟨0, _⟩ => show win0_1.index t (0 : Fin 4) * 1 + 1 * 0 = t.val / 32; omega
  | ⟨1, _⟩ => show win0_1.index t (1 : Fin 4) * 1 + 1 * 0 = 8 * (t.val % 32) - 1; omega
  | ⟨2, _⟩ => show win0_1.index t (2 : Fin 4) * 256 + 1 * w.val = w.val; omega
  | ⟨3, _⟩ => show win0_1.index t (3 : Fin 4) * 256 + 1 * z.val = z.val; omega

/-- (B2) The third window's block is the one row after the tile, when there is one. -/
theorem blk2_at (c : Dev nD) (t : Fin cfg0.N) (h : (iOf t).val ≠ 31) (w z : Fin 256) :
    iblk m c 2 t (ix4 (0 : Fin 1) (0 : Fin 1) w z)
      = V m c main_arg0 (ix4 (bOf t) (⟨8 * (iOf t).val + 8, by have := (iOf t).isLt; omega⟩ : Fin 256) w z) := by
  obtain ⟨e0, e1, e2, e3⟩ := blkIdx2 t
  have h' : t.val % 32 ≠ 31 := h
  rw [if_neg h'] at e1
  show V m c main_arg0 (((cfg0.win 2).blk t).view.emb (ix4 (0 : Fin 1) (0 : Fin 1) w z)) = _
  refine congrArg _ ?_
  funext a; apply Fin.ext
  match a with
  | ⟨0, _⟩ => show win0_2.index t (0 : Fin 4) * 1 + 1 * 0 = t.val / 32; omega
  | ⟨1, _⟩ => show win0_2.index t (1 : Fin 4) * 1 + 1 * 0 = 8 * (t.val % 32) + 8; omega
  | ⟨2, _⟩ => show win0_2.index t (2 : Fin 4) * 256 + 1 * w.val = w.val; omega
  | ⟨3, _⟩ => show win0_2.index t (3 : Fin 4) * 256 + 1 * z.val = z.val; omega

/-- (B3) The coefficients' block at a point is the tile of the second argument. -/
theorem blk3_at (c : Dev nD) (t : Fin cfg0.N) (r : Fin 8) (w : Fin 256) (k : Fin 7) :
    iblk m c 3 t (ix4 (0 : Fin 1) r w k) = V m c main_arg1 (ix4 (bOf t) (row (iOf t) r) w k) := by
  obtain ⟨e0, e1, e2, e3⟩ := blkIdx3 t
  show V m c main_arg1 (((cfg0.win 3).blk t).view.emb (ix4 (0 : Fin 1) r w k)) = V m c main_arg1 (ix4 (bOf t) (row (iOf t) r) w k)
  refine congrArg _ ?_
  funext a; apply Fin.ext
  match a with
  | ⟨0, _⟩ => show win0_3.index t (0 : Fin 4) * 1 + 1 * 0 = t.val / 32; omega
  | ⟨1, _⟩ => show win0_3.index t (1 : Fin 4) * 8 + 1 * r.val = 8 * (t.val % 32) + r.val; omega
  | ⟨2, _⟩ => show win0_3.index t (2 : Fin 4) * 256 + 1 * w.val = w.val; omega
  | ⟨3, _⟩ => show win0_3.index t (3 : Fin 4) * 7 + 1 * k.val = k.val; omega

/-- (B4) The target's block at a point is the tile of the third argument. -/
theorem blk4_at (c : Dev nD) (t : Fin cfg0.N) (r : Fin 8) (w z : Fin 256) :
    iblk m c 4 t (ix4 (0 : Fin 1) r w z) = V m c main_arg2 (ix4 (bOf t) (row (iOf t) r) w z) := by
  obtain ⟨e0, e1, e2, e3⟩ := blkIdx4 t
  show V m c main_arg2 (((cfg0.win 4).blk t).view.emb (ix4 (0 : Fin 1) r w z)) = V m c main_arg2 (ix4 (bOf t) (row (iOf t) r) w z)
  refine congrArg _ ?_
  funext a; apply Fin.ext
  match a with
  | ⟨0, _⟩ => show win0_4.index t (0 : Fin 4) * 1 + 1 * 0 = t.val / 32; omega
  | ⟨1, _⟩ => show win0_4.index t (1 : Fin 4) * 8 + 1 * r.val = 8 * (t.val % 32) + r.val; omega
  | ⟨2, _⟩ => show win0_4.index t (2 : Fin 4) * 256 + 1 * w.val = w.val; omega
  | ⟨3, _⟩ => show win0_4.index t (3 : Fin 4) * 256 + 1 * z.val = z.val; omega

/-! ## The output window's blocks -/

/-- (E5) A position of the output block at a point is that position of the tile in the result array. -/
theorem emb5 (t : Fin cfg0.N) (r : Fin 8) (w z : Fin 256) :
    ((cfg0.win 5).blk t).view.emb (ix4 (0 : Fin 1) r w z) = ix4 (bOf t) (row (iOf t) r) w z := by
  obtain ⟨e0, e1, e2, e3⟩ := blkIdx5 t
  funext a; apply Fin.ext
  match a with
  | ⟨0, _⟩ => show win0_5.index t (0 : Fin 4) * 1 + 1 * 0 = t.val / 32; omega
  | ⟨1, _⟩ => show win0_5.index t (1 : Fin 4) * 8 + 1 * r.val = 8 * (t.val % 32) + r.val; omega
  | ⟨2, _⟩ => show win0_5.index t (2 : Fin 4) * 256 + 1 * w.val = w.val; omega
  | ⟨3, _⟩ => show win0_5.index t (3 : Fin 4) * 256 + 1 * z.val = z.val; omega

/-- (M5) An index of the result array is in the output block of a point iff each coordinate is in the block's range. -/
theorem mem_blk5 (t : Fin cfg0.N) (j : S2x256x256x256.Idx) :
    j ∈ ((cfg0.win 5).blk t).view.set ↔ ∀ a : Fin 4, win0_5.index t a * S1x8x256x256.size a ≤ (j a).val
      ∧ (j a).val < win0_5.index t a * S1x8x256x256.size a + S1x8x256x256.size a := by
  show j ∈ ((View.whole main_v0_0).slice (win0_5.rect t)).set ↔ _
  rw [View.set_slice_whole, Rect.mem_set_unit]
  exact Iff.rfl

/-- (C5) Every index of the result array is in the output block of some point, which writes it back: the point of its
    batch entry and of the tile of its row. -/
theorem cover5 (j : S2x256x256x256.Idx) :
    ∃ t : Fin cfg0.N, (cfg0.win 5).flush t = true ∧ j ∈ ((cfg0.win 5).blk t).view.set := by
  have h0 : (j 0).val < 2 := (j 0).isLt
  have h1 : (j 1).val < 256 := (j 1).isLt
  have h2 : (j 2).val < 256 := (j 2).isLt
  have h3 : (j 3).val < 256 := (j 3).isLt
  have hlt : 32 * (j 0).val + (j 1).val / 8 < 64 := by omega
  let t : Fin cfg0.N := ⟨32 * (j 0).val + (j 1).val / 8, lt_of_lt_of_eq hlt (N_0).symm⟩
  have ht : t.val = 32 * (j 0).val + (j 1).val / 8 := rfl
  obtain ⟨e0, e1, e2, e3⟩ := blkIdx5 t
  refine ⟨t, flush0_5 t, ?_⟩
  rw [mem_blk5]
  intro a
  match a with
  | ⟨0, _⟩ => show win0_5.index t (0 : Fin 4) * 1 ≤ (j 0).val ∧ (j 0).val < win0_5.index t (0 : Fin 4) * 1 + 1; omega
  | ⟨1, _⟩ => show win0_5.index t (1 : Fin 4) * 8 ≤ (j 1).val ∧ (j 1).val < win0_5.index t (1 : Fin 4) * 8 + 8; omega
  | ⟨2, _⟩ => show win0_5.index t (2 : Fin 4) * 256 ≤ (j 2).val ∧ (j 2).val < win0_5.index t (2 : Fin 4) * 256 + 256; omega
  | ⟨3, _⟩ => show win0_5.index t (3 : Fin 4) * 256 ≤ (j 3).val ∧ (j 3).val < win0_5.index t (3 : Fin 4) * 256 + 256; omega

end Cert.KernelIdeal.Body

end
-- ==== Proof.BlocksOut.lean ====
/-
  The grid's points by batch entry and tile, and the two running totals' windows. Each of these windows has one block per
  batch entry, eight rows of one hundred and twenty-eight lanes, and is written back only after the batch entry's last
  tile: every index of its array is in the block of that point.
-/
import proofs.«175465_j3083786518603_2_alg».proof.Proof.Blocks

noncomputable section

namespace Cert.KernelIdeal.Body

open Cert.KernelIdeal Cert.KernelIdeal.Gen Cert.StencilSpec
open Idealize.ShloMosaic Idealize.ShloMosaic.TcCoe Idealize.ShloMosaic.ValueIdx
open Idealize.SL.Sem

variable {F : FTy → Type} [FloatOps F]

/-! ## Points of the grid by batch entry and tile -/

/-- The point of tile `i` of batch entry `b`. -/
def pointOf (b : Fin 2) (i : Fin 32) : Fin cfg0.N :=
  ⟨32 * b.val + i.val, lt_of_lt_of_eq (by have := b.isLt; have := i.isLt; omega : 32 * b.val + i.val < 64) (N_0).symm⟩
/-- The point of the last tile of batch entry `b`. -/
def lastOf (b : Fin 2) : Fin cfg0.N := pointOf b ⟨31, by omega⟩

theorem pointOf_val (b : Fin 2) (i : Fin 32) : (pointOf b i).val = 32 * b.val + i.val := rfl
theorem lastOf_val (b : Fin 2) : (lastOf b).val = 32 * b.val + 31 := rfl
theorem bOf_pointOf (b : Fin 2) (i : Fin 32) : bOf (pointOf b i) = b :=
  Fin.ext (by have := i.isLt; show (32 * b.val + i.val) / 32 = b.val; omega)
theorem iOf_pointOf (b : Fin 2) (i : Fin 32) : iOf (pointOf b i) = i :=
  Fin.ext (by have := i.isLt; show (32 * b.val + i.val) % 32 = i.val; omega)
theorem pointOf_val_mod (b : Fin 2) (i : Fin 32) : (pointOf b i).val % 32 = i.val := by
  have := i.isLt; show (32 * b.val + i.val) % 32 = i.val; omega
theorem pointOf_bOf_iOf (t : Fin cfg0.N) : pointOf (bOf t) (iOf t) = t :=
  Fin.ext (by show 32 * (t.val / 32) + t.val % 32 = t.val; omega)
theorem bOf_lastOf (b : Fin 2) : bOf (lastOf b) = b := bOf_pointOf b _
theorem iOf_lastOf (b : Fin 2) : iOf (lastOf b) = (⟨31, by omega⟩ : Fin 32) := iOf_pointOf b _
theorem lastOf_val_mod (b : Fin 2) : (lastOf b).val % 32 = 31 := pointOf_val_mod b _
/-- The point before a later tile's is the tile before's. -/
theorem pointOf_pred (b : Fin 2) (i : Fin 32) (h : i.val ≠ 0) :
    (pointOf b i).val - 1 = (pointOf b ⟨i.val - 1, by have := i.isLt; omega⟩).val := by
  show 32 * b.val + i.val - 1 = 32 * b.val + (i.val - 1); omega

/-! ## The two running totals' windows -/

/-- Window 6's block index: (batch entry, 0, 0). -/
theorem blkIdx6 : ∀ t : Fin cfg0.N, win0_6.index t (0 : Fin 3) = t.val / 32 ∧ win0_6.index t (1 : Fin 3) = 0
    ∧ win0_6.index t (2 : Fin 3) = 0 :=
  (by decide +kernel : ∀ t : Fin grid0.N, _)

/-- (E6) A position of window 6's block at a point is that position of the point's batch entry in the array. -/
theorem emb6 (t : Fin cfg0.N) (s : Fin 8) (l : Fin 128) :
    ((cfg0.win 6).blk t).view.emb (ix3 (0 : Fin 1) s l) = ix3 (bOf t) s l := by
  obtain ⟨e0, e1, e2⟩ := blkIdx6 t
  funext a; apply Fin.ext
  match a with
  | ⟨0, _⟩ => show win0_6.index t (0 : Fin 3) * 1 + 1 * 0 = t.val / 32; omega
  | ⟨1, _⟩ => show win0_6.index t (1 : Fin 3) * 8 + 1 * s.val = s.val; omega
  | ⟨2, _⟩ => show win0_6.index t (2 : Fin 3) * 128 + 1 * l.val = l.val; omega

/-- (M6) An index of the array is in window 6's block of a point iff each coordinate is in the block's range. -/
theorem mem_blk6 (t : Fin cfg0.N) (j : S2x8x128.Idx) :
    j ∈ ((cfg0.win 6).blk t).view.set ↔ ∀ a : Fin 3, win0_6.index t a * S1x8x128.size a ≤ (j a).val
      ∧ (j a).val < win0_6.index t a * S1x8x128.size a + S1x8x128.size a := by
  show j ∈ ((View.whole main_v0_1).slice (win0_6.rect t)).set ↔ _
  rw [View.set_slice_whole, Rect.mem_set_unit]
  exact Iff.rfl

/-- (C6) Every index of the array is in window 6's block of the last tile's point of its batch entry, which writes it back. -/
theorem cover6 (j : S2x8x128.Idx) :
    ∃ t : Fin cfg0.N, (cfg0.win 6).flush t = true ∧ j ∈ ((cfg0.win 6).blk t).view.set := by
  have h0 : (j 0).val < 2 := (j 0).isLt
  have h1 : (j 1).val < 8 := (j 1).isLt
  have h2 : (j 2).val < 128 := (j 2).isLt
  have ht : (lastOf (j 0)).val = 32 * (j 0).val + 31 := rfl
  obtain ⟨e0, e1, e2⟩ := blkIdx6 (lastOf (j 0))
  refine ⟨lastOf (j 0), (flush0_6 _).mpr (by omega), ?_⟩
  rw [mem_blk6]
  intro a
  match a with
  | ⟨0, _⟩ => show win0_6.index (lastOf (j 0)) (0 : Fin 3) * 1 ≤ (j 0).val ∧ (j 0).val < win0_6.index (lastOf (j 0)) (0 : Fin 3) * 1 + 1; omega
  | ⟨1, _⟩ => show win0_6.index (lastOf (j 0)) (1 : Fin 3) * 8 ≤ (j 1).val ∧ (j 1).val < win0_6.index (lastOf (j 0)) (1 : Fin 3) * 8 + 8; omega
  | ⟨2, _⟩ => show win0_6.index (lastOf (j 0)) (2 : Fin 3) * 128 ≤ (j 2).val ∧ (j 2).val < win0_6.index (lastOf (j 0)) (2 : Fin 3) * 128 + 128; omega

/-- Window 7's block index: (batch entry, 0, 0). -/
theorem blkIdx7 : ∀ t : Fin cfg0.N, win0_7.index t (0 : Fin 3) = t.val / 32 ∧ win0_7.index t (1 : Fin 3) = 0
    ∧ win0_7.index t (2 : Fin 3) = 0 :=
  (by decide +kernel : ∀ t : Fin grid0.N, _)

/-- (E7) A position of window 7's block at a point is that position of the point's batch entry in the array. -/
theorem emb7 (t : Fin cfg0.N) (s : Fin 8) (l : Fin 128) :
    ((cfg0.win 7).blk t).view.emb (ix3 (0 : Fin 1) s l) = ix3 (bOf t) s l := by
  obtain ⟨e0, e1, e2⟩ := blkIdx7 t
  funext a; apply Fin.ext
  match a with
  | ⟨0, _⟩ => show win0_7.index t (0 : Fin 3) * 1 + 1 * 0 = t.val / 32; omega
  | ⟨1, _⟩ => show win0_7.index t (1 : Fin 3) * 8 + 1 * s.val = s.val; omega
  | ⟨2, _⟩ => show win0_7.index t (2 : Fin 3) * 128 + 1 * l.val = l.val; omega

/-- (M7) An index of the array is in window 7's block of a point iff each coordinate is in the block's range. -/
theorem mem_blk7 (t : Fin cfg0.N) (j : S2x8x128.Idx) :
    j ∈ ((cfg0.win 7).blk t).view.set ↔ ∀ a : Fin 3, win0_7.index t a * S1x8x128.size a ≤ (j a).val
      ∧ (j a).val < win0_7.index t a * S1x8x128.size a + S1x8x128.size a := by
  show j ∈ ((View.whole main_v0_2).slice (win0_7.rect t)).set ↔ _
  rw [View.set_slice_whole, Rect.mem_set_unit]
  exact Iff.rfl

/-- (C7) Every index of the array is in window 7's block of the last tile's point of its batch entry, which writes it back. -/
theorem cover7 (j : S2x8x128.Idx) :
    ∃ t : Fin cfg0.N, (cfg0.win 7).flush t = true ∧ j ∈ ((cfg0.win 7).blk t).view.set := by
  have h0 : (j 0).val < 2 := (j 0).isLt
  have h1 : (j 1).val < 8 := (j 1).isLt
  have h2 : (j 2).val < 128 := (j 2).isLt
  have ht : (lastOf (j 0)).val = 32 * (j 0).val + 31 := rfl
  obtain ⟨e0, e1, e2⟩ := blkIdx7 (lastOf (j 0))
  refine ⟨lastOf (j 0), (flush0_7 _).mpr (by omega), ?_⟩
  rw [mem_blk7]
  intro a
  match a with
  | ⟨0, _⟩ => show win0_7.index (lastOf (j 0)) (0 : Fin 3) * 1 ≤ (j 0).val ∧ (j 0).val < win0_7.index (lastOf (j 0)) (0 : Fin 3) * 1 + 1; omega
  | ⟨1, _⟩ => show win0_7.index (lastOf (j 0)) (1 : Fin 3) * 8 ≤ (j 1).val ∧ (j 1).val < win0_7.index (lastOf (j 0)) (1 : Fin 3) * 8 + 8; omega
  | ⟨2, _⟩ => show win0_7.index (lastOf (j 0)) (2 : Fin 3) * 128 ≤ (j 2).val ∧ (j 2).val < win0_7.index (lastOf (j 0)) (2 : Fin 3) * 128 + 128; omega

end Cert.KernelIdeal.Body

end
-- ==== Proof.FinalArrays.lean ====
/-
  The three result arrays after the run, from what their buffers hold point by point. An output window's array ends
  holding a function G of the array's indices when every point that writes the window back writes its block of G and the
  blocks so written cover the array. The result's blocks tile its array and each is written back at its own point; the
  two running totals' windows have one block per batch entry, written back after the batch entry's last tile.
-/
import proofs.«175465_j3083786518603_2_alg».proof.Proof.BlocksOut
import Idealize.ShloMosaic.Lib.Pipeline.Value

noncomputable section

namespace Cert.KernelIdeal.Body

open Cert.KernelIdeal Cert.KernelIdeal.Gen Cert.StencilSpec
open Idealize.ShloMosaic Idealize.ShloMosaic.TcCoe Idealize.ShloMosaic.ValueIdx
open Idealize.SL Idealize.SL.RA Idealize.SL.Sem
open Idealize.ShloMosaic.Pipeline (Dat)

variable {F : FTy → Type} [FloatOps F]
variable (m : (ℓ : Loc nD τ sig) → Buf (Elt F) ℓ) (q : Fin cfg0.W → PosShare TreeShare) (c : Dev nD)

/-! ## The result array -/

/-- What a point writes back of the result is its block of `G5`, when the buffer holds `G5` on the point's tile. -/
theorem flushed5_eq (G5 : S2x256x256x256.Idx → Elt F .f32)
    (hpt : ∀ (t : Fin cfg0.N) (r : Fin 8) (w z : Fin 256),
      (leftAt m c t.val t.isLt).1 (ix4 (0 : Fin 1) r w z) = G5 (ix4 (bOf t) (row (iOf t) r) w z))
    (t : Fin cfg0.N) :
    (dats m q 0 c).flushed 5 t = ((cfg0.win 5).blk t).view.read (Elt F) G5 := by
  show (cfg0.win 5).cut (grid0.coords t) ((dats m q 0 c).after 5 t) = _
  rw [after5]
  funext j
  obtain ⟨a, r, w, z, rfl⟩ : ∃ (a : Fin 1) (r : Fin 8) (w z : Fin 256), j = ix4 a r w z := ⟨j 0, j 1, j 2, j 3, eq_ix4 j⟩
  obtain rfl : a = 0 := Subsingleton.elim _ _
  show (leftAt m c t.val t.isLt).1 (ix4 (0 : Fin 1) r w z) = G5 (((cfg0.win 5).blk t).view.emb (ix4 (0 : Fin 1) r w z))
  rw [emb5, hpt]

/-- THE RESULT ARRAY after the run is `G5`, when after each point the output buffer holds `G5` on the point's tile. -/
theorem final5 (G5 : S2x256x256x256.Idx → Elt F .f32)
    (hpt : ∀ (t : Fin cfg0.N) (r : Fin 8) (w z : Fin 256),
      (leftAt m c t.val t.isLt).1 (ix4 (0 : Fin 1) r w z) = G5 (ix4 (bOf t) (row (iOf t) r) w z)) :
    (dats m q 0 c).arrAt 5 cfg0.N = G5 :=
  (dats m q 0 c).arrAt_eq_of_cover 5 G5 (fun t _ => flushed5_eq m q c G5 hpt t) cover5

/-! ## The two running totals' arrays -/

/-- What the last tile's point of a batch entry writes back of the running sums is its block of `G6`, when the buffer
    then holds `G6` on the batch entry. -/
theorem flushed6_eq (G6 : S2x8x128.Idx → Elt F .f32)
    (hlast : ∀ (b : Fin 2) (s : Fin 8) (l : Fin 128),
      (leftAt m c (lastOf b).val (lastOf b).isLt).2.1 (ix3 (0 : Fin 1) s l) = G6 (ix3 b s l))
    (t : Fin cfg0.N) (hf : (cfg0.win 6).flush t = true) :
    (dats m q 0 c).flushed 6 t = ((cfg0.win 6).blk t).view.read (Elt F) G6 := by
  have h31 : t.val % 32 = 31 := (flush0_6 t).mp hf
  have ht : lastOf (bOf t) = t := Fin.ext (by show 32 * (t.val / 32) + 31 = t.val; omega)
  show (cfg0.win 6).cut (grid0.coords t) ((dats m q 0 c).after 6 t) = _
  rw [after6]
  funext j
  obtain ⟨a, s, l, rfl⟩ : ∃ (a : Fin 1) (s : Fin 8) (l : Fin 128), j = ix3 a s l := ⟨j 0, j 1, j 2, eq_ix3 j⟩
  obtain rfl : a = 0 := Subsingleton.elim _ _
  show (leftAt m c t.val t.isLt).2.1 (ix3 (0 : Fin 1) s l) = G6 (((cfg0.win 6).blk t).view.emb (ix3 (0 : Fin 1) s l))
  rw [emb6]
  have h := hlast (bOf t) s l
  rw [ht] at h
  exact h

/-- THE RUNNING SUMS' ARRAY after the run is `G6`, when after the last tile of each batch entry the buffer holds
    `G6` on that batch entry. -/
theorem final6 (G6 : S2x8x128.Idx → Elt F .f32)
    (hlast : ∀ (b : Fin 2) (s : Fin 8) (l : Fin 128),
      (leftAt m c (lastOf b).val (lastOf b).isLt).2.1 (ix3 (0 : Fin 1) s l) = G6 (ix3 b s l)) :
    (dats m q 0 c).arrAt 6 cfg0.N = G6 :=
  (dats m q 0 c).arrAt_eq_of_cover 6 G6 (fun t hf => flushed6_eq m q c G6 hlast t hf) cover6

/-- What the last tile's point of a batch entry writes back of the running maxima is its block of `G7`, when the buffer
    then holds `G7` on the batch entry. -/
theorem flushed7_eq (G7 : S2x8x128.Idx → Elt F .f32)
    (hlast : ∀ (b : Fin 2) (s : Fin 8) (l : Fin 128),
      (leftAt m c (lastOf b).val (lastOf b).isLt).2.2 (ix3 (0 : Fin 1) s l) = G7 (ix3 b s l))
    (t : Fin cfg0.N) (hf : (cfg0.win 7).flush t = true) :
    (dats m q 0 c).flushed 7 t = ((cfg0.win 7).blk t).view.read (Elt F) G7 := by
  have h31 : t.val % 32 = 31 := (flush0_7 t).mp hf
  have ht : lastOf (bOf t) = t := Fin.ext (by show 32 * (t.val / 32) + 31 = t.val; omega)
  show (cfg0.win 7).cut (grid0.coords t) ((dats m q 0 c).after 7 t) = _
  rw [after7]
  funext j
  obtain ⟨a, s, l, rfl⟩ : ∃ (a : Fin 1) (s : Fin 8) (l : Fin 128), j = ix3 a s l := ⟨j 0, j 1, j 2, eq_ix3 j⟩
  obtain rfl : a = 0 := Subsingleton.elim _ _
  show (leftAt m c t.val t.isLt).2.2 (ix3 (0 : Fin 1) s l) = G7 (((cfg0.win 7).blk t).view.emb (ix3 (0 : Fin 1) s l))
  rw [emb7]
  have h := hlast (bOf t) s l
  rw [ht] at h
  exact h

/-- THE RUNNING MAXIMA' ARRAY after the run is `G7`, when after the last tile of each batch entry the buffer holds
    `G7` on that batch entry. -/
theorem final7 (G7 : S2x8x128.Idx → Elt F .f32)
    (hlast : ∀ (b : Fin 2) (s : Fin 8) (l : Fin 128),
      (leftAt m c (lastOf b).val (lastOf b).isLt).2.2 (ix3 (0 : Fin 1) s l) = G7 (ix3 b s l)) :
    (dats m q 0 c).arrAt 7 cfg0.N = G7 :=
  (dats m q 0 c).arrAt_eq_of_cover 7 G7 (fun t hf => flushed7_eq m q c G7 hlast t hf) cover7

end Cert.KernelIdeal.Body

end
-- ==== Proof.TileNeighbours.lean ====
/-
  The four in-tile neighbours of the kernel's tile, read at a position.

  A tile is eight rows of one batch entry, indexed (r, w, z) with r < 8 and w, z < 256: it holds the whole w and z
  axes. The kernel gets the neighbour one step back or forward along w or z by rotating the tile along that axis — by
  one position for a step back, by 255 for a step forward, which on an axis of 256 positions is one step the other way
  round — and putting zero where the rotation wrapped round: at position 0 for a step back, at 255 for a step forward,
  found by comparing the position's number with 0 or 255.
-/
import proofs.«175465_j3083786518603_2_alg».proof.Proof.Gen.KernelIdeal.Skeleton
import Idealize.ShloMosaic.Lib.ValueIdx
import Idealize.ShloMosaic.Lib.Pipeline.Value
import Idealize.ShloMosaic.Lib.KernelVsHost
import Idealize.ShloMosaic.Lib.Affine
import Idealize.ShloMosaic.PureOps.Ideal.Laws

set_option maxRecDepth 16384

noncomputable section

namespace Cert.KernelIdeal.Tile

open Cert.KernelIdeal Cert.KernelIdeal.Gen
open Idealize.ShloMosaic Idealize.ShloMosaic.ValueIdx

/-- A position below 256, as a 32-bit word, is the zero word only if it is zero. -/
theorem word_eq_zero_iff (w : Fin 256) : BitVec.ofNat 32 w.val = 0#32 ↔ w.val = 0 := by
  constructor
  · intro h
    have := congrArg BitVec.toNat h
    simp only [BitVec.toNat_ofNat, BitVec.toNat_zero] at this
    have := w.isLt; omega
  · intro h; rw [h]

/-- A position below 256, as a 32-bit word, is the word 255 only if it is 255. -/
theorem word_eq_last_iff (w : Fin 256) : BitVec.ofNat 32 w.val = 255#32 ↔ w.val = 255 := by
  constructor
  · intro h
    have := congrArg BitVec.toNat h
    simp only [BitVec.toNat_ofNat] at this
    have := w.isLt; omega
  · intro h; rw [h]

/-- One step back along axis 1 of the tile, zero at the first position: the rotation by one reads position p - 1 (and wraps at 0, where the mask puts zero). -/
theorem maskBackW (v4 : FVec Ideal S8x256x256 .f32) (r : Fin 8) (w z : Fin 256) :
    select (cmpi .eq (iota .tc S8x256x256 32 [1] iota_S8x256x256_d1_w32) (broadcast S8x256x256 0#32))
        (broadcast S8x256x256 (Scalar.ofBits (F := Ideal) .f32 0x00000000#32)) (dynamicRotate 1 1#32 none v4 rotates_S8x256x256_d1) (ix3 r w z)
      = if hw : w.val = 0 then 0 else v4 (ix3 r ⟨w.val - 1, by have := w.isLt; omega⟩ z) := by
  rw [select_apply]
  have hbit : (cmpi CmpIPredicate.eq (iota Kind.tc S8x256x256 32 [1] iota_S8x256x256_d1_w32) (broadcast S8x256x256 0#32) (ix3 r w z))
      = IntOp.cmpi .eq (BitVec.ofNat 32 w.val) 0#32 := by
    show IntOp.cmpi .eq (iota Kind.tc S8x256x256 32 [1] iota_S8x256x256_d1_w32 (ix3 r w z)) (broadcast S8x256x256 0#32 (ix3 r w z)) = _
    rw [iota_single_apply, broadcast_apply]
  rw [hbit]
  by_cases hw : w.val = 0
  · rw [dif_pos hw, (IntOp.cmpi_eq).mpr ((word_eq_zero_iff w).mpr hw), select_one, broadcast_apply]
    exact Ideal.ofBits_zero_f32
  · rw [dif_neg hw, eq_zero_of_ne_one (fun h => hw ((word_eq_zero_iff w).mp ((IntOp.cmpi_eq).mp h))), select_zero]
    refine dynamicRotate_apply 1 1#32 _ _ (ix3 r w z) (ix3 r ⟨w.val - 1, by have := w.isLt; omega⟩ z) ?_
    intro b
    match b with
    | ⟨0, _⟩ => rfl
    | ⟨1, _⟩ =>
      show w.val - 1 = (w.val + 256 - 1 % 256) % 256
      have := w.isLt; omega
    | ⟨2, _⟩ => rfl

/-- One step forward along axis 1 of the tile, zero at the last position: the rotation by 255 reads position p + 1 (and wraps at 255, where the mask puts zero). -/
theorem maskFwdW (v4 : FVec Ideal S8x256x256 .f32) (r : Fin 8) (w z : Fin 256) :
    select (cmpi .eq (iota .tc S8x256x256 32 [1] iota_S8x256x256_d1_w32) (broadcast S8x256x256 255#32))
        (broadcast S8x256x256 (Scalar.ofBits (F := Ideal) .f32 0x00000000#32)) (dynamicRotate 1 255#32 none v4 rotates_S8x256x256_d1) (ix3 r w z)
      = if hw : w.val = 255 then 0 else v4 (ix3 r ⟨w.val + 1, by have := w.isLt; omega⟩ z) := by
  rw [select_apply]
  have hbit : (cmpi CmpIPredicate.eq (iota Kind.tc S8x256x256 32 [1] iota_S8x256x256_d1_w32) (broadcast S8x256x256 255#32) (ix3 r w z))
      = IntOp.cmpi .eq (BitVec.ofNat 32 w.val) 255#32 := by
    show IntOp.cmpi .eq (iota Kind.tc S8x256x256 32 [1] iota_S8x256x256_d1_w32 (ix3 r w z)) (broadcast S8x256x256 255#32 (ix3 r w z)) = _
    rw [iota_single_apply, broadcast_apply]
  rw [hbit]
  by_cases hw : w.val = 255
  · rw [dif_pos hw, (IntOp.cmpi_eq).mpr ((word_eq_last_iff w).mpr hw), select_one, broadcast_apply]
    exact Ideal.ofBits_zero_f32
  · rw [dif_neg hw, eq_zero_of_ne_one (fun h => hw ((word_eq_last_iff w).mp ((IntOp.cmpi_eq).mp h))), select_zero]
    refine dynamicRotate_apply 1 255#32 _ _ (ix3 r w z) (ix3 r ⟨w.val + 1, by have := w.isLt; omega⟩ z) ?_
    intro b
    match b with
    | ⟨0, _⟩ => rfl
    | ⟨1, _⟩ =>
      show w.val + 1 = (w.val + 256 - 255 % 256) % 256
      have := w.isLt; omega
    | ⟨2, _⟩ => rfl

/-- One step back along axis 2 of the tile, zero at the first position: the rotation by one reads position p - 1 (and wraps at 0, where the mask puts zero). -/
theorem maskBackZ (v4 : FVec Ideal S8x256x256 .f32) (r : Fin 8) (w z : Fin 256) :
    select (cmpi .eq (iota .tc S8x256x256 32 [2] iota_S8x256x256_d2_w32) (broadcast S8x256x256 0#32))
        (broadcast S8x256x256 (Scalar.ofBits (F := Ideal) .f32 0x00000000#32)) (dynamicRotate 2 1#32 none v4 rotates_S8x256x256_d2) (ix3 r w z)
      = if hz : z.val = 0 then 0 else v4 (ix3 r w ⟨z.val - 1, by have := z.isLt; omega⟩) := by
  rw [select_apply]
  have hbit : (cmpi CmpIPredicate.eq (iota Kind.tc S8x256x256 32 [2] iota_S8x256x256_d2_w32) (broadcast S8x256x256 0#32) (ix3 r w z))
      = IntOp.cmpi .eq (BitVec.ofNat 32 z.val) 0#32 := by
    show IntOp.cmpi .eq (iota Kind.tc S8x256x256 32 [2] iota_S8x256x256_d2_w32 (ix3 r w z)) (broadcast S8x256x256 0#32 (ix3 r w z)) = _
    rw [iota_single_apply, broadcast_apply]
  rw [hbit]
  by_cases hz : z.val = 0
  · rw [dif_pos hz, (IntOp.cmpi_eq).mpr ((word_eq_zero_iff z).mpr hz), select_one, broadcast_apply]
    exact Ideal.ofBits_zero_f32
  · rw [dif_neg hz, eq_zero_of_ne_one (fun h => hz ((word_eq_zero_iff z).mp ((IntOp.cmpi_eq).mp h))), select_zero]
    refine dynamicRotate_apply 2 1#32 _ _ (ix3 r w z) (ix3 r w ⟨z.val - 1, by have := z.isLt; omega⟩) ?_
    intro b
    match b with
    | ⟨0, _⟩ => rfl
    | ⟨1, _⟩ => rfl
    | ⟨2, _⟩ =>
      show z.val - 1 = (z.val + 256 - 1 % 256) % 256
      have := z.isLt; omega

/-- One step forward along axis 2 of the tile, zero at the last position: the rotation by 255 reads position p + 1 (and wraps at 255, where the mask puts zero). -/
theorem maskFwdZ (v4 : FVec Ideal S8x256x256 .f32) (r : Fin 8) (w z : Fin 256) :
    select (cmpi .eq (iota .tc S8x256x256 32 [2] iota_S8x256x256_d2_w32) (broadcast S8x256x256 255#32))
        (broadcast S8x256x256 (Scalar.ofBits (F := Ideal) .f32 0x00000000#32)) (dynamicRotate 2 255#32 none v4 rotates_S8x256x256_d2) (ix3 r w z)
      = if hz : z.val = 255 then 0 else v4 (ix3 r w ⟨z.val + 1, by have := z.isLt; omega⟩) := by
  rw [select_apply]
  have hbit : (cmpi CmpIPredicate.eq (iota Kind.tc S8x256x256 32 [2] iota_S8x256x256_d2_w32) (broadcast S8x256x256 255#32) (ix3 r w z))
      = IntOp.cmpi .eq (BitVec.ofNat 32 z.val) 255#32 := by
    show IntOp.cmpi .eq (iota Kind.tc S8x256x256 32 [2] iota_S8x256x256_d2_w32 (ix3 r w z)) (broadcast S8x256x256 255#32 (ix3 r w z)) = _
    rw [iota_single_apply, broadcast_apply]
  rw [hbit]
  by_cases hz : z.val = 255
  · rw [dif_pos hz, (IntOp.cmpi_eq).mpr ((word_eq_last_iff z).mpr hz), select_one, broadcast_apply]
    exact Ideal.ofBits_zero_f32
  · rw [dif_neg hz, eq_zero_of_ne_one (fun h => hz ((word_eq_last_iff z).mp ((IntOp.cmpi_eq).mp h))), select_zero]
    refine dynamicRotate_apply 2 255#32 _ _ (ix3 r w z) (ix3 r w ⟨z.val + 1, by have := z.isLt; omega⟩) ?_
    intro b
    match b with
    | ⟨0, _⟩ => rfl
    | ⟨1, _⟩ => rfl
    | ⟨2, _⟩ =>
      show z.val + 1 = (z.val + 256 - 255 % 256) % 256
      have := z.isLt; omega

end Cert.KernelIdeal.Tile

end
-- ==== Proof.TileHalo.lean ====
/-
  The two across-tile neighbours of the kernel's tile, read at a position.

  A tile is rows 8i … 8i+7 of one batch entry. The neighbour one row back (south) of the tile's row r is the tile's own
  row r - 1, except for the tile's first row, whose neighbour lies in the tile before: the kernel is handed that one
  row as a window of its own (its row number clamped into the array), and uses zero instead when the tile is the first
  of its batch entry (tile coordinate 0), where no row lies before. The neighbour one row forward (north) is the tile's
  own row r + 1, except for the tile's last row, which takes the one-row window after the tile, or zero when the tile is
  the last of its batch entry (tile coordinate 31). The kernel builds each as the tile shifted by one row with the one
  extra row joined on at the front (south) or at the back (north).
-/
import proofs.«175465_j3083786518603_2_alg».proof.Proof.TileNeighbours

set_option maxRecDepth 16384

noncomputable section

namespace Cert.KernelIdeal.Tile

open Cert.KernelIdeal Cert.KernelIdeal.Gen
open Idealize.ShloMosaic Idealize.ShloMosaic.ValueIdx

/-- Two numbers below 2^32 are the same 32-bit word only if they are equal. -/
theorem word_inj (n k : ℕ) (hn : n < 2 ^ 32) (hk : k < 2 ^ 32) : BitVec.ofNat 32 n = BitVec.ofNat 32 k ↔ n = k := by
  constructor
  · intro h
    have := congrArg BitVec.toNat h
    simp only [BitVec.toNat_ofNat] at this
    rwa [Nat.mod_eq_of_lt hn, Nat.mod_eq_of_lt hk] at this
  · intro h; rw [h]

/-- The tile coordinate of a grid point is below 32. -/
theorem tileCoord_lt (i : grid0.Coords) : (i 1).val < 32 := (i 1).isLt

/-- "The tile coordinate is k", as the body asks it (k below 2^32): the comparison's bit is one exactly then. -/
theorem tileCoord_bit (i : grid0.Coords) (k : ℕ) (hk : k < 2 ^ 32) :
    Scalar.cmpi .eq (BitVec.ofNat 32 (i 1).val) (BitVec.ofNat 32 k) = if (i 1).val = k then 1#1 else 0#1 := by
  have hlt := tileCoord_lt i
  by_cases h : (i 1).val = k
  · rw [if_pos h, Scalar.cmpi]; exact IntOp.cmpi_eq.mpr (by rw [h])
  · rw [if_neg h]
    refine eq_zero_of_ne_one fun hb => h ?_
    rw [Scalar.cmpi] at hb
    exact (word_inj _ k (by omega) hk).mp (IntOp.cmpi_eq.mp hb)

/-- The centre block seen as a tile: row r of the tile is row r of the block. -/
theorem tile_eq (v3 : Vec Ideal S1x8x256x256 .f32) (r : Fin 8) (w z : Fin 256) :
    k0_pay5 (F := Ideal) v3 (ix3 r w z) = v3 (ix4 0 r w z) := by
  unfold k0_pay5
  refine (shapeCast_dropUnit_apply ![8, 256, 256] v3 _ (ix3 r w z)).trans (congrArg v3 ?_)
  funext a
  match a with
  | ⟨0, _⟩ => rfl
  | ⟨1, _⟩ => rfl
  | ⟨2, _⟩ => rfl
  | ⟨3, _⟩ => rfl

/-- A one-row window seen as a one-row tile. -/
theorem haloRow_eq (v5 : Vec Ideal S1x1x256x256 .f32) (w z : Fin 256) :
    shapeCast S1x256x256 v5 shapeCasts_S1x1x256x256_S1x256x256 (ix3 (0 : Fin 1) w z) = v5 (ix4 0 0 w z) := by
  refine (shapeCast_dropUnit_apply ![1, 256, 256] v5 _ (ix3 (0 : Fin 1) w z)).trans (congrArg v5 ?_)
  funext a
  match a with
  | ⟨0, _⟩ => rfl
  | ⟨1, _⟩ => rfl
  | ⟨2, _⟩ => rfl
  | ⟨3, _⟩ => rfl

/-- The one extra row the kernel joins on: zero when the tile coordinate is k, else the one-row window. -/
theorem extraRow_eq (i : grid0.Coords) (k : ℕ) (hk : k < 2 ^ 32) (v5 : Vec Ideal S1x1x256x256 .f32) (w z : Fin 256) :
    Scalar.select (Scalar.cmpi .eq (BitVec.ofNat 32 (i 1).val) (BitVec.ofNat 32 k)) (k0_pay8 (F := Ideal))
        (shapeCast S1x256x256 v5 shapeCasts_S1x1x256x256_S1x256x256) (ix3 (0 : Fin 1) w z)
      = if (i 1).val = k then 0 else v5 (ix4 0 0 w z) := by
  rw [tileCoord_bit i k hk]
  by_cases h : (i 1).val = k
  · rw [if_pos h, if_pos h, select_one]
    unfold k0_pay8
    rw [broadcast_apply]
    exact Ideal.ofBits_zero_f32
  · rw [if_neg h, if_neg h, select_zero]
    exact haloRow_eq v5 w z

/-- The south neighbour on a tile: the row before within the tile, and for the tile's first row the one-row window
    before the tile, or zero when the tile is the first of its batch entry. -/
theorem south_eq (i : grid0.Coords) (v3 : Vec Ideal S1x8x256x256 .f32) (v5 : Vec Ideal S1x1x256x256 .f32) (r : Fin 8) (w z : Fin 256) :
    k0_pay9 (F := Ideal) i v3 v5 (ix3 r w z)
      = if hr : r.val = 0 then (if (i 1).val = 0 then 0 else v5 (ix4 0 0 w z)) else v3 (ix4 0 ⟨r.val - 1, by have := r.isLt; omega⟩ w z) := by
  unfold k0_pay9
  by_cases hr : r.val = 0
  · rw [dif_pos hr]
    refine (concatenate_pair_apply_left 0 _ _ concatenates_S1x256x256_S7x256x256_S8x256x256_d0 (ix3 r w z) rfl (ix3 (0 : Fin 1) w z) ?_).trans ?_
    · intro b
      match b with
      | ⟨0, _⟩ => exact hr.symm
      | ⟨1, _⟩ => rfl
      | ⟨2, _⟩ => rfl
    · exact extraRow_eq i 0 (by norm_num) v5 w z
  · rw [dif_neg hr]
    refine (concatenate_pair_apply_right 0 _ _ concatenates_S1x256x256_S7x256x256_S8x256x256_d0 (ix3 r w z) rfl rfl
      (ix3 (⟨r.val - 1, by have := r.isLt; omega⟩ : Fin 7) w z) ?_ ?_).trans ?_
    · intro b hb
      match b with
      | ⟨0, _⟩ => exact absurd rfl hb
      | ⟨1, _⟩ => rfl
      | ⟨2, _⟩ => rfl
    · show r.val - 1 + 1 = r.val
      omega
    · refine (extractStridedSlice_apply ![0, 0, 0] (k0_pay5 (F := Ideal) v3) _ (ix3 (⟨r.val - 1, by have := r.isLt; omega⟩ : Fin 7) w z)
        (ix3 (⟨r.val - 1, by have := r.isLt; omega⟩ : Fin 8) w z) ?_).trans (tile_eq v3 _ w z)
      intro a
      match a with
      | ⟨0, _⟩ => exact (Nat.zero_add _).symm
      | ⟨1, _⟩ => exact (Nat.zero_add _).symm
      | ⟨2, _⟩ => exact (Nat.zero_add _).symm

/-- The north neighbour on a tile: the row after within the tile, and for the tile's last row the one-row window
    after the tile, or zero when the tile is the last of its batch entry. -/
theorem north_eq (i : grid0.Coords) (v3 : Vec Ideal S1x8x256x256 .f32) (v7 : Vec Ideal S1x1x256x256 .f32) (r : Fin 8) (w z : Fin 256) :
    k0_pay10 (F := Ideal) i v3 v7 (ix3 r w z)
      = if hr : r.val = 7 then (if (i 1).val = 31 then 0 else v7 (ix4 0 0 w z)) else v3 (ix4 0 ⟨r.val + 1, by have := r.isLt; omega⟩ w z) := by
  unfold k0_pay10
  by_cases hr : r.val = 7
  · rw [dif_pos hr]
    refine (concatenate_pair_apply_right 0 _ _ concatenates_S7x256x256_S1x256x256_S8x256x256_d0 (ix3 r w z) rfl rfl
      (ix3 (0 : Fin 1) w z) ?_ ?_).trans ?_
    · intro b hb
      match b with
      | ⟨0, _⟩ => exact absurd rfl hb
      | ⟨1, _⟩ => rfl
      | ⟨2, _⟩ => rfl
    · show 0 + 7 = r.val
      omega
    · exact extraRow_eq i 31 (by norm_num) v7 w z
  · rw [dif_neg hr]
    refine (concatenate_pair_apply_left 0 _ _ concatenates_S7x256x256_S1x256x256_S8x256x256_d0 (ix3 r w z) rfl
      (ix3 (⟨r.val, by have := r.isLt; omega⟩ : Fin 7) w z) ?_).trans ?_
    · intro b
      match b with
      | ⟨0, _⟩ => rfl
      | ⟨1, _⟩ => rfl
      | ⟨2, _⟩ => rfl
    · refine (extractStridedSlice_apply ![1, 0, 0] (k0_pay5 (F := Ideal) v3) _ (ix3 (⟨r.val, by have := r.isLt; omega⟩ : Fin 7) w z)
        (ix3 (⟨r.val + 1, by have := r.isLt; omega⟩ : Fin 8) w z) ?_).trans (tile_eq v3 _ w z)
      intro a
      match a with
      | ⟨0, _⟩ => exact Nat.add_comm _ _
      | ⟨1, _⟩ => exact (Nat.zero_add _).symm
      | ⟨2, _⟩ => exact (Nat.zero_add _).symm

end Cert.KernelIdeal.Tile

end
-- ==== Proof.TileStencil.lean ====
/-
  The kernel's arithmetic on a tile, read at a position.

  At the position (r, w, z) of a tile the kernel forms the centre entry times coefficient 6 plus, in this order, the
  west, east, south, north, bottom and top neighbours times coefficients 0 to 5; the seven coefficients of a position
  (r, w) are the same for every z (one column of the coefficient tile, spread along z). The error is that value minus
  the target's entry, and the value is stored as a block with a leading axis of extent one.
-/
import proofs.«175465_j3083786518603_2_alg».proof.Proof.TileHalo

set_option maxRecDepth 16384

noncomputable section

namespace Cert.KernelIdeal.Tile

open Cert.KernelIdeal Cert.KernelIdeal.Gen
open Idealize.ShloMosaic Idealize.ShloMosaic.ValueIdx

/-- Coefficient k of the tile's position (r, w), spread along z: the same number at every z. -/
theorem coefAt (v10 : FVec Ideal S8x256x7 .f32) (k : ℕ) (hk : k < 7) (hs : S8x256x7.Slices ![0, 0, k] S8x256x1) (r : Fin 8) (w z : Fin 256) :
    broadcastTo S8x256x256 (extractStridedSlice S8x256x1 ![0, 0, k] v10 hs) broadcasts_S8x256x1_S8x256x256 (ix3 r w z)
      = v10 (ix3 r w (⟨k, hk⟩ : Fin 7)) := by
  refine (broadcastTo_apply _ _ (ix3 r w z) (ix3 r w (0 : Fin 1)) ?_).trans ?_
  · intro a
    match a with
    | ⟨0, _⟩ => rfl
    | ⟨1, _⟩ => rfl
    | ⟨2, _⟩ => rfl
  · refine extractStridedSlice_apply ![0, 0, k] v10 hs (ix3 r w (0 : Fin 1)) (ix3 r w (⟨k, hk⟩ : Fin 7)) ?_
    intro a
    match a with
    | ⟨0, _⟩ => exact (Nat.zero_add _).symm
    | ⟨1, _⟩ => exact (Nat.zero_add _).symm
    | ⟨2, _⟩ => rfl

/-- The stencil's value on a tile at a position, from the tile `v4`, its coefficients `v10`, and its south, north and
    west neighbours `v19`, `v21`, `v27` as already formed; the east, bottom and top neighbours are formed here. -/
theorem stencilTile_eq (v4 : FVec Ideal S8x256x256 .f32) (v10 : FVec Ideal S8x256x7 .f32) (v19 v21 v27 : FVec Ideal S8x256x256 .f32)
    (r : Fin 8) (w z : Fin 256) :
    k0_pay12 (F := Ideal) v4 v10 v19 v21 (iota .tc S8x256x256 32 [1] iota_S8x256x256_d1_w32) v27 255#32 (ix3 r w z)
      = v4 (ix3 r w z) * v10 (ix3 r w (6 : Fin 7)) + v27 (ix3 r w z) * v10 (ix3 r w (0 : Fin 7))
        + (if hw : w.val = 255 then 0 else v4 (ix3 r ⟨w.val + 1, by have := w.isLt; omega⟩ z)) * v10 (ix3 r w (1 : Fin 7))
        + v19 (ix3 r w z) * v10 (ix3 r w (2 : Fin 7)) + v21 (ix3 r w z) * v10 (ix3 r w (3 : Fin 7))
        + (if hz : z.val = 0 then 0 else v4 (ix3 r w ⟨z.val - 1, by have := z.isLt; omega⟩)) * v10 (ix3 r w (4 : Fin 7))
        + (if hz : z.val = 255 then 0 else v4 (ix3 r w ⟨z.val + 1, by have := z.isLt; omega⟩)) * v10 (ix3 r w (5 : Fin 7)) := by
  simp only [k0_pay12, addf_apply, mulf_apply]
  rw [coefAt v10 6 (by norm_num) slices_S8x256x7_o0_0_6_S8x256x1 r w z,
    coefAt v10 0 (by norm_num) slices_S8x256x7_o0_0_0_S8x256x1 r w z,
    coefAt v10 1 (by norm_num) slices_S8x256x7_o0_0_1_S8x256x1 r w z,
    coefAt v10 2 (by norm_num) slices_S8x256x7_o0_0_2_S8x256x1 r w z,
    coefAt v10 3 (by norm_num) slices_S8x256x7_o0_0_3_S8x256x1 r w z,
    coefAt v10 4 (by norm_num) slices_S8x256x7_o0_0_4_S8x256x1 r w z,
    coefAt v10 5 (by norm_num) slices_S8x256x7_o0_0_5_S8x256x1 r w z,
    maskFwdW v4 r w z, maskBackZ v4 r w z, maskFwdZ v4 r w z]
  rfl

/-- The error on a tile at a position: the stencil's value minus the target's entry. -/
theorem errTile_eq (v4 : FVec Ideal S8x256x256 .f32) (v10 : FVec Ideal S8x256x7 .f32) (v12 v19 v21 v27 : FVec Ideal S8x256x256 .f32)
    (r : Fin 8) (w z : Fin 256) :
    k0_pay14 (F := Ideal) v4 v10 v12 v19 v21 (iota .tc S8x256x256 32 [1] iota_S8x256x256_d1_w32) v27 255#32 (ix3 r w z)
      = k0_pay12 (F := Ideal) v4 v10 v19 v21 (iota .tc S8x256x256 32 [1] iota_S8x256x256_d1_w32) v27 255#32 (ix3 r w z) - v12 (ix3 r w z) := by
  unfold k0_pay14
  rfl

/-- The stored block at a position: the tile's value at the same row, column and layer. -/
theorem outBlock_eq (v4 : FVec Ideal S8x256x256 .f32) (v10 : FVec Ideal S8x256x7 .f32) (v19 v21 v27 : FVec Ideal S8x256x256 .f32)
    (r : Fin 8) (w z : Fin 256) :
    k0_pay13 (F := Ideal) v4 v10 v19 v21 (iota .tc S8x256x256 32 [1] iota_S8x256x256_d1_w32) v27 255#32 (ix4 (0 : Fin 1) r w z)
      = k0_pay12 (F := Ideal) v4 v10 v19 v21 (iota .tc S8x256x256 32 [1] iota_S8x256x256_d1_w32) v27 255#32 (ix3 r w z) := by
  unfold k0_pay13
  refine (shapeCast_addUnit_apply ![8, 256, 256] _ _ (ix4 (0 : Fin 1) r w z)).trans (congrArg _ ?_)
  funext a
  match a with
  | ⟨0, _⟩ => rfl
  | ⟨1, _⟩ => rfl
  | ⟨2, _⟩ => rfl

end Cert.KernelIdeal.Tile

end
-- ==== Proof.BodyPieces.lean ====
/-
  What the body's stored pieces amount to, at the extended reals.

  Every store of the body fills a whole block, so a buffer ends holding what the last store into it put there, whatever
  was stored before. The output block's buffer ends holding the stencil's values on the tile. At a first tile each
  running total's buffer ends holding the tile's contribution combined with the zeros the tile began with (the body
  stores zeros, reads them back and combines); at a later tile, combined with what the tile before left. The values the
  body loaded from the five input buffers are those buffers' contents.
-/
import proofs.«175465_j3083786518603_2_alg».proof.Proof.BodyData
import Idealize.ShloMosaic.Lib.Pipeline.Value
import Idealize.ShloMosaic.PureOps.Ideal
import Idealize.ShloMosaic.Lib.ValueIdx
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.Sem

theorem hz4 : (![0, 0, 0, 0] : Fin 4 → ℕ) = fun _ => 0 := funext fun a => by fin_cases a <;> rfl
theorem hz3 : (![0, 0, 0] : Fin 3 → ℕ) = fun _ => 0 := funext fun a => by fin_cases a <;> rfl

/-- The stencil's values on the tile, from the three blocks of the field and the coefficients' block. -/
abbrev outTile (i : grid0.Coords) (x0 : Vec Ideal S1x8x256x256 .f32) (x1 : Vec Ideal S1x1x256x256 .f32) (x2 : Vec Ideal S1x1x256x256 .f32) (x3 : Vec Ideal S1x8x256x7 .f32) : FVec Ideal S1x8x256x256 .f32 :=
  k0_pay13 (F := Ideal) (k0_pay5 x0) (k0_pay6 x3) (k0_pay9 i x0 x1) (k0_pay10 i x0 x2) (iota .tc S8x256x256 32 [1] iota_S8x256x256_d1_w32) (k0_pay11 x0) 255#32

/-- The error on the tile, from those and the target's block. -/
abbrev errTile (i : grid0.Coords) (x0 : Vec Ideal S1x8x256x256 .f32) (x1 : Vec Ideal S1x1x256x256 .f32) (x2 : Vec Ideal S1x1x256x256 .f32) (x3 : Vec Ideal S1x8x256x7 .f32) (x4 : Vec Ideal S1x8x256x256 .f32) : FVec Ideal S8x256x256 .f32 :=
  k0_pay14 (F := Ideal) (k0_pay5 x0) (k0_pay6 x3) (k0_pay7 x4) (k0_pay9 i x0 x1) (k0_pay10 i x0 x2) (iota .tc S8x256x256 32 [1] iota_S8x256x256_d1_w32) (k0_pay11 x0) 255#32

section First
variable (c : Dev nD) (i : grid0.Coords) (arg2 : Memref sig .tc .vmem S1x8x256x256 .f32) (harg2 : arg2.IsWhole) (arg3 : Memref sig .tc .vmem S1x1x256x256 .f32) (harg3 : arg3.IsWhole) (arg4 : Memref sig .tc .vmem S1x1x256x256 .f32) (harg4 : arg4.IsWhole) (arg5 : Memref sig .tc .vmem S1x8x256x7 .f32) (harg5 : arg5.IsWhole) (arg6 : Memref sig .tc .vmem S1x8x256x256 .f32) (harg6 : arg6.IsWhole) (arg7 : Memref sig .tc .vmem S1x8x256x256 .f32) (harg7 : arg7.IsWhole) (arg8 : Memref sig .tc .vmem S1x8x128 .f32) (harg8 : arg8.IsWhole) (arg9 : Memref sig .tc .vmem S1x8x128 .f32) (harg9 : arg9.IsWhole) (hc : firstTile i) (x0 : Vec Ideal S1x8x256x256 .f32) (x1 : Vec Ideal S1x1x256x256 .f32) (x2 : Vec Ideal S1x1x256x256 .f32) (x3 : Vec Ideal S1x8x256x7 .f32) (x4 : Vec Ideal S1x8x256x256 .f32)

/-- At a first tile the output block's buffer ends holding the stencil's values on the tile. -/
theorem leftFirst_out : (leftFirst (F := Ideal) c i arg2 harg2 arg3 harg3 arg4 harg4 arg5 harg5 arg6 harg6 arg7 harg7 arg8 harg8 arg9 harg9 x0 x1 x2 x3 x4 hc).1 = outTile i x0 x1 x2 x3 := by
  unfold leftFirst
  dsimp only
  rw [View.read_writes_eq_canon _ _ _ (coverFirst5 c i arg2 harg2 arg3 harg3 arg4 harg4 arg5 harg5 arg6 harg6 arg7 harg7 arg8 harg8 arg9 harg9 x0 x1 x2 x3 x4 hc)]
  unfold runFirst
  dsimp only
  rw [View.canon_unit_zero hz4]
  sl_unfold_run_names
  simp only [View.readAt_eq_ld, harg2.read_unread, harg3.read_unread, harg4.read_unread, harg5.read_unread, harg6.read_unread,
    harg8.read_unread, harg9.read_unread,
    View.ld_unit_zero (S := S1x8x256x256) hz4, View.ld_unit_zero (S := S1x8x256x7) hz4, View.ld_unit_zero (S := S1x1x256x256) hz4,
    View.ld_unit_zero (S := S1x8x128) hz3]

/-- At a first tile the sum's buffer ends holding the tile's squared errors added, row by row, to zeros. -/
theorem leftFirst_sum : (leftFirst (F := Ideal) c i arg2 harg2 arg3 harg3 arg4 harg4 arg5 harg5 arg6 harg6 arg7 harg7 arg8 harg8 arg9 harg9 x0 x1 x2 x3 x4 hc).2.1 = k0_pay1 (F := Ideal) (errTile i x0 x1 x2 x3 x4) (k0_pay3 (F := Ideal)) := by
  unfold leftFirst
  dsimp only
  rw [View.read_writes_eq_canon _ _ _ (coverFirst6 c i arg2 harg2 arg3 harg3 arg4 harg4 arg5 harg5 arg6 harg6 arg7 harg7 arg8 harg8 arg9 harg9 x0 x1 x2 x3 x4 hc)]
  unfold runFirst
  dsimp only
  rw [View.canon_cons_unit_zero hz3]
  sl_unfold_run_names
  rw [View.readCov_unit_zero _ hz3]
  simp only [View.readAt_eq_ld, harg2.read_unread, harg3.read_unread, harg4.read_unread, harg5.read_unread, harg6.read_unread,
    harg8.read_unread, harg9.read_unread,
    View.ld_unit_zero (S := S1x8x256x256) hz4, View.ld_unit_zero (S := S1x8x256x7) hz4, View.ld_unit_zero (S := S1x1x256x256) hz4,
    View.ld_unit_zero (S := S1x8x128) hz3]

/-- At a first tile the maximum's buffer ends holding, row by row, the larger of zero and the tile's largest absolute error. -/
theorem leftFirst_max : (leftFirst (F := Ideal) c i arg2 harg2 arg3 harg3 arg4 harg4 arg5 harg5 arg6 harg6 arg7 harg7 arg8 harg8 arg9 harg9 x0 x1 x2 x3 x4 hc).2.2 = k0_pay2 (F := Ideal) (errTile i x0 x1 x2 x3 x4) (k0_pay4 (F := Ideal)) := by
  unfold leftFirst
  dsimp only
  rw [View.read_writes_eq_canon _ _ _ (coverFirst7 c i arg2 harg2 arg3 harg3 arg4 harg4 arg5 harg5 arg6 harg6 arg7 harg7 arg8 harg8 arg9 harg9 x0 x1 x2 x3 x4 hc)]
  unfold runFirst
  dsimp only
  rw [View.canon_cons_unit_zero hz3]
  sl_unfold_run_names
  rw [View.readCov_unit_zero _ hz3]
  simp only [View.readAt_eq_ld, harg2.read_unread, harg3.read_unread, harg4.read_unread, harg5.read_unread, harg6.read_unread,
    harg8.read_unread, harg9.read_unread,
    View.ld_unit_zero (S := S1x8x256x256) hz4, View.ld_unit_zero (S := S1x8x256x7) hz4, View.ld_unit_zero (S := S1x1x256x256) hz4,
    View.ld_unit_zero (S := S1x8x128) hz3]
end First

section Later
variable (c : Dev nD) (i : grid0.Coords) (arg2 : Memref sig .tc .vmem S1x8x256x256 .f32) (harg2 : arg2.IsWhole) (arg3 : Memref sig .tc .vmem S1x1x256x256 .f32) (harg3 : arg3.IsWhole) (arg4 : Memref sig .tc .vmem S1x1x256x256 .f32) (harg4 : arg4.IsWhole) (arg5 : Memref sig .tc .vmem S1x8x256x7 .f32) (harg5 : arg5.IsWhole) (arg6 : Memref sig .tc .vmem S1x8x256x256 .f32) (harg6 : arg6.IsWhole) (arg7 : Memref sig .tc .vmem S1x8x256x256 .f32) (harg7 : arg7.IsWhole) (arg8 : Memref sig .tc .vmem S1x8x128 .f32) (harg8 : arg8.IsWhole) (arg9 : Memref sig .tc .vmem S1x8x128 .f32) (harg9 : arg9.IsWhole) (hc : ¬firstTile i) (x0 : Vec Ideal S1x8x256x256 .f32) (x1 : Vec Ideal S1x1x256x256 .f32) (x2 : Vec Ideal S1x1x256x256 .f32) (x3 : Vec Ideal S1x8x256x7 .f32) (x4 : Vec Ideal S1x8x256x256 .f32) (xo6 xo7 : Vec Ideal S1x8x128 .f32)

/-- At a later tile the output block's buffer ends holding the stencil's values on the tile. -/
theorem leftLater_out : (leftLater (F := Ideal) c i arg2 harg2 arg3 harg3 arg4 harg4 arg5 harg5 arg6 harg6 arg7 harg7 arg8 harg8 arg9 harg9 x0 x1 x2 x3 x4 hc xo6 xo7).1 = outTile i x0 x1 x2 x3 := by
  unfold leftLater
  dsimp only
  rw [View.read_writes_eq_canon _ _ _ (coverLater5 c i arg2 harg2 arg3 harg3 arg4 harg4 arg5 harg5 arg6 harg6 arg7 harg7 arg8 harg8 arg9 harg9 x0 x1 x2 x3 x4 hc xo6 xo7)]
  unfold runLater
  dsimp only
  rw [View.canon_unit_zero hz4]
  sl_unfold_run_names
  simp only [View.readAt_eq_ld, harg2.read_unread, harg3.read_unread, harg4.read_unread, harg5.read_unread, harg6.read_unread,
    harg8.read_unread, harg9.read_unread,
    View.ld_unit_zero (S := S1x8x256x256) hz4, View.ld_unit_zero (S := S1x8x256x7) hz4, View.ld_unit_zero (S := S1x1x256x256) hz4,
    View.ld_unit_zero (S := S1x8x128) hz3]

/-- At a later tile the sum's buffer ends holding the tile's squared errors added, row by row, to what the tile before left. -/
theorem leftLater_sum : (leftLater (F := Ideal) c i arg2 harg2 arg3 harg3 arg4 harg4 arg5 harg5 arg6 harg6 arg7 harg7 arg8 harg8 arg9 harg9 x0 x1 x2 x3 x4 hc xo6 xo7).2.1 = k0_pay1 (F := Ideal) (errTile i x0 x1 x2 x3 x4) xo6 := by
  unfold leftLater
  dsimp only
  rw [View.read_writes_eq_canon _ _ _ (coverLater6 c i arg2 harg2 arg3 harg3 arg4 harg4 arg5 harg5 arg6 harg6 arg7 harg7 arg8 harg8 arg9 harg9 x0 x1 x2 x3 x4 hc xo6 xo7)]
  unfold runLater
  dsimp only
  rw [View.canon_unit_zero hz3]
  sl_unfold_run_names
  simp only [View.readAt_eq_ld, harg2.read_unread, harg3.read_unread, harg4.read_unread, harg5.read_unread, harg6.read_unread,
    harg8.read_unread, harg9.read_unread,
    View.ld_unit_zero (S := S1x8x256x256) hz4, View.ld_unit_zero (S := S1x8x256x7) hz4, View.ld_unit_zero (S := S1x1x256x256) hz4,
    View.ld_unit_zero (S := S1x8x128) hz3]

/-- At a later tile the maximum's buffer ends holding, row by row, the larger of what the tile before left and the
    tile's largest absolute error. -/
theorem leftLater_max : (leftLater (F := Ideal) c i arg2 harg2 arg3 harg3 arg4 harg4 arg5 harg5 arg6 harg6 arg7 harg7 arg8 harg8 arg9 harg9 x0 x1 x2 x3 x4 hc xo6 xo7).2.2 = k0_pay2 (F := Ideal) (errTile i x0 x1 x2 x3 x4) xo7 := by
  unfold leftLater
  dsimp only
  rw [View.read_writes_eq_canon _ _ _ (coverLater7 c i arg2 harg2 arg3 harg3 arg4 harg4 arg5 harg5 arg6 harg6 arg7 harg7 arg8 harg8 arg9 harg9 x0 x1 x2 x3 x4 hc xo6 xo7)]
  unfold runLater
  dsimp only
  rw [View.canon_unit_zero hz3]
  sl_unfold_run_names
  simp only [View.readAt_eq_ld, harg2.read_unread, harg3.read_unread, harg4.read_unread, harg5.read_unread, harg6.read_unread,
    harg8.read_unread, harg9.read_unread,
    View.ld_unit_zero (S := S1x8x256x256) hz4, View.ld_unit_zero (S := S1x8x256x7) hz4, View.ld_unit_zero (S := S1x1x256x256) hz4,
    View.ld_unit_zero (S := S1x8x128) hz3]
end Later

end Cert.KernelIdeal.Body

end
-- ==== Proof.TileIsSpec.lean ====
/-
  A tile of the kernel is a tile of the specification.

  Fix a batch entry b and a tile i of its rows, and suppose the kernel's five input blocks hold the arrays' entries at
  the tile's places: the field's eight rows 8i … 8i+7, the one row 8i-1 before them (when the tile is not the first),
  the one row 8i+8 after them (when it is not the last), the coefficients and the target on the eight rows. Then at the
  place (r, w, z) of the tile each of the kernel's six neighbours is the specification's neighbour of the point
  (b, 8i + r, w, z): within the tile's full w and z axes directly; along the rows, the tile's first row meets row 8i,
  whose neighbour one row back is the extra row before the tile or zero exactly when 8i = 0, and the tile's last row
  meets row 8i + 7, whose neighbour one row forward is the extra row after the tile or zero exactly when 8i + 7 = 255.
  So the kernel's weighted sum at the place is the specification's stencil at the point, and its error the
  specification's error.
-/
import proofs.«175465_j3083786518603_2_alg».proof.Proof.TileStencil
import proofs.«175465_j3083786518603_2_alg».proof.Proof.Regroup
import proofs.«175465_j3083786518603_2_alg».proof.Proof.BodyPieces

set_option maxRecDepth 16384

noncomputable section

namespace Cert.KernelIdeal.Tile

open Cert.KernelIdeal Cert.KernelIdeal.Gen Cert.KernelIdeal.Body
open Idealize.ShloMosaic Idealize.ShloMosaic.ValueIdx
open Cert.StencilSpec

/-- The five input blocks hold the arrays' entries at the places of tile i of batch entry b, and the grid point's tile
    coordinate is i. -/
structure IsTile (x : SX.Idx → EReal) (cf : SC.Idx → EReal) (tg : SX.Idx → EReal) (b : Fin 2) (i : Fin 32) (gi : grid0.Coords)
    (x0 : Vec Ideal S1x8x256x256 .f32) (x1 x2 : Vec Ideal S1x1x256x256 .f32) (x3 : Vec Ideal S1x8x256x7 .f32) (x4 : Vec Ideal S1x8x256x256 .f32) : Prop where
  coord : (gi 1).val = i.val
  centre : ∀ (r : Fin 8) (w z : Fin 256), x0 (ix4 (0 : Fin 1) r w z) = x (ix4 b (row i r) w z)
  before : ∀ (hi : i.val ≠ 0) (w z : Fin 256), x1 (ix4 (0 : Fin 1) (0 : Fin 1) w z) = x (ix4 b ⟨8 * i.val - 1, by have := i.isLt; omega⟩ w z)
  after : ∀ (hi : i.val ≠ 31) (w z : Fin 256), x2 (ix4 (0 : Fin 1) (0 : Fin 1) w z) = x (ix4 b ⟨8 * i.val + 8, by have := i.isLt; omega⟩ w z)
  coefs : ∀ (r : Fin 8) (w : Fin 256) (k : Fin 7), x3 (ix4 (0 : Fin 1) r w k) = cf (ix4 b (row i r) w k)
  target : ∀ (r : Fin 8) (w z : Fin 256), x4 (ix4 (0 : Fin 1) r w z) = tg (ix4 b (row i r) w z)

/-- Two points that differ only in a row with the same number are one point. -/
theorem ix4_row_congr (b : Fin 2) {h h' : Fin 256} (e : h.val = h'.val) (w z : Fin 256) : (ix4 b h w z : SX.Idx) = ix4 b h' w z := by
  rw [Fin.ext e]

/-- The coefficients' block seen as a tile of coefficients. -/
theorem coefTile_eq (x3 : Vec Ideal S1x8x256x7 .f32) (r : Fin 8) (w : Fin 256) (k : Fin 7) :
    k0_pay6 (F := Ideal) x3 (ix3 r w k) = x3 (ix4 0 r w k) := by
  unfold k0_pay6
  refine (shapeCast_dropUnit_apply ![8, 256, 7] x3 _ (ix3 r w k)).trans (congrArg x3 ?_)
  funext a
  match a with
  | ⟨0, _⟩ => rfl
  | ⟨1, _⟩ => rfl
  | ⟨2, _⟩ => rfl
  | ⟨3, _⟩ => rfl

/-- The target's block seen as a tile. -/
theorem targetTile_eq (x4 : Vec Ideal S1x8x256x256 .f32) (r : Fin 8) (w z : Fin 256) :
    k0_pay7 (F := Ideal) x4 (ix3 r w z) = x4 (ix4 0 r w z) := by
  unfold k0_pay7
  refine (shapeCast_dropUnit_apply ![8, 256, 256] x4 _ (ix3 r w z)).trans (congrArg x4 ?_)
  funext a
  match a with
  | ⟨0, _⟩ => rfl
  | ⟨1, _⟩ => rfl
  | ⟨2, _⟩ => rfl
  | ⟨3, _⟩ => rfl

section
variable {x : SX.Idx → EReal} {cf : SC.Idx → EReal} {tg : SX.Idx → EReal} {b : Fin 2} {i : Fin 32} {gi : grid0.Coords}
  {x0 : Vec Ideal S1x8x256x256 .f32} {x1 x2 : Vec Ideal S1x1x256x256 .f32} {x3 : Vec Ideal S1x8x256x7 .f32} {x4 : Vec Ideal S1x8x256x256 .f32}
  (T : IsTile x cf tg b i gi x0 x1 x2 x3 x4)
include T

theorem centreArr (r : Fin 8) (w z : Fin 256) : k0_pay5 (F := Ideal) x0 (ix3 r w z) = x (ix4 b (row i r) w z) :=
  (tile_eq x0 r w z).trans (T.centre r w z)

theorem coefArr (r : Fin 8) (w : Fin 256) (k : Fin 7) : k0_pay6 (F := Ideal) x3 (ix3 r w k) = coef cf b (row i r) w k :=
  (coefTile_eq x3 r w k).trans (T.coefs r w k)

theorem westArr (r : Fin 8) (w z : Fin 256) : k0_pay11 (F := Ideal) x0 (ix3 r w z) = west x b (row i r) w z := by
  unfold k0_pay11
  refine (maskBackW (k0_pay5 (F := Ideal) x0) r w z).trans ?_
  unfold west
  by_cases hw : w.val = 0
  · rw [dif_pos hw, dif_pos hw]
  · rw [dif_neg hw, dif_neg hw]; exact centreArr T r _ z

theorem eastArr (r : Fin 8) (w z : Fin 256) :
    (if hw : w.val = 255 then (0 : EReal) else k0_pay5 (F := Ideal) x0 (ix3 r ⟨w.val + 1, by have := w.isLt; omega⟩ z)) = east x b (row i r) w z := by
  unfold east
  by_cases hw : w.val = 255
  · rw [dif_pos hw, dif_pos hw]
  · rw [dif_neg hw, dif_neg hw]; exact centreArr T r _ z

theorem bottomArr (r : Fin 8) (w z : Fin 256) :
    (if hz : z.val = 0 then (0 : EReal) else k0_pay5 (F := Ideal) x0 (ix3 r w ⟨z.val - 1, by have := z.isLt; omega⟩)) = bottom x b (row i r) w z := by
  unfold bottom
  by_cases hz : z.val = 0
  · rw [dif_pos hz, dif_pos hz]
  · rw [dif_neg hz, dif_neg hz]; exact centreArr T r w _

theorem topArr (r : Fin 8) (w z : Fin 256) :
    (if hz : z.val = 255 then (0 : EReal) else k0_pay5 (F := Ideal) x0 (ix3 r w ⟨z.val + 1, by have := z.isLt; omega⟩)) = top x b (row i r) w z := by
  unfold top
  by_cases hz : z.val = 255
  · rw [dif_pos hz, dif_pos hz]
  · rw [dif_neg hz, dif_neg hz]; exact centreArr T r w _

theorem southArr (r : Fin 8) (w z : Fin 256) : k0_pay9 (F := Ideal) gi x0 x1 (ix3 r w z) = south x b (row i r) w z := by
  rw [south_eq gi x0 x1 r w z]
  unfold south
  have hrow : (row i r).val = 8 * i.val + r.val := rfl
  have hi := i.isLt
  have hr := r.isLt
  by_cases hr0 : r.val = 0
  · rw [dif_pos hr0, T.coord]
    by_cases hi0 : i.val = 0
    · rw [if_pos hi0, dif_pos (by rw [hrow]; omega)]
    · rw [if_neg hi0, dif_neg (by rw [hrow]; omega), T.before hi0 w z]
      refine congrArg x (ix4_row_congr b ?_ w z)
      show 8 * i.val - 1 = (row i r).val - 1
      rw [hrow]; omega
  · rw [dif_neg hr0, dif_neg (by rw [hrow]; omega), T.centre]
    refine congrArg x (ix4_row_congr b ?_ w z)
    show 8 * i.val + (r.val - 1) = (row i r).val - 1
    rw [hrow]; omega

theorem northArr (r : Fin 8) (w z : Fin 256) : k0_pay10 (F := Ideal) gi x0 x2 (ix3 r w z) = north x b (row i r) w z := by
  rw [north_eq gi x0 x2 r w z]
  unfold north
  have hrow : (row i r).val = 8 * i.val + r.val := rfl
  have hi := i.isLt
  have hr := r.isLt
  by_cases hr7 : r.val = 7
  · rw [dif_pos hr7, T.coord]
    by_cases hi31 : i.val = 31
    · rw [if_pos hi31, dif_pos (by rw [hrow]; omega)]
    · rw [if_neg hi31, dif_neg (by rw [hrow]; omega), T.after hi31 w z]
      refine congrArg x (ix4_row_congr b ?_ w z)
      show 8 * i.val + 8 = (row i r).val + 1
      rw [hrow]; omega
  · rw [dif_neg hr7, dif_neg (by rw [hrow]; omega), T.centre]
    refine congrArg x (ix4_row_congr b ?_ w z)
    show 8 * i.val + (r.val + 1) = (row i r).val + 1
    rw [hrow]; omega

/-- The kernel's weighted sum at a place of the tile is the specification's stencil at the point. -/
theorem stencilArr (r : Fin 8) (w z : Fin 256) :
    k0_pay12 (F := Ideal) (k0_pay5 x0) (k0_pay6 x3) (k0_pay9 gi x0 x1) (k0_pay10 gi x0 x2) (iota .tc S8x256x256 32 [1] iota_S8x256x256_d1_w32) (k0_pay11 x0) 255#32 (ix3 r w z)
      = stencilAt x cf b (row i r) w z := by
  rw [stencilTile_eq, centreArr T, westArr T, eastArr T, southArr T, northArr T, bottomArr T, topArr T,
    coefArr T r w 6, coefArr T r w 0, coefArr T r w 1, coefArr T r w 2, coefArr T r w 3, coefArr T r w 4, coefArr T r w 5]
  rfl

/-- The stored block at a place of the tile is the specification's stencil at the point. -/
theorem outArr (r : Fin 8) (w z : Fin 256) : outTile gi x0 x1 x2 x3 (ix4 (0 : Fin 1) r w z) = stencilAt x cf b (row i r) w z :=
  (outBlock_eq _ _ _ _ _ r w z).trans (stencilArr T r w z)

/-- The kernel's error at a place of the tile is the specification's error at the point. -/
theorem errArr (r : Fin 8) (w z : Fin 256) : errTile gi x0 x1 x2 x3 x4 (ix3 r w z) = err x cf tg (ix4 b (row i r) w z) := by
  unfold errTile
  rw [errTile_eq, stencilArr T, targetTile_eq, T.target]
  rfl

end

end Cert.KernelIdeal.Tile

end
-- ==== Proof.TileTotals.lean ====
/-
  The two running totals a tile of eight rows contributes, each read at one entry.

  For the error on a tile (rows s < 8, and w, z < 256) the program adds, into entry (0, s, l) of a running array of
  shape 1 x 8 x 128, the sum over w and z of the squared error of row s, the same for every l; and takes, into the
  same entry of a second running array, the larger of what is there and the maximum over w and z of the absolute
  error of row s. The sum and the maximum are taken over z first and then over w; the column of eight results is
  given a unit axis behind and a unit axis in front and repeated 128 times along the last axis, so entry (0, s, l)
  reads result s. The two arrays start from the zero splat.
-/
import proofs.«175465_j3083786518603_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Tile

open Cert.KernelIdeal Cert.KernelIdeal.Gen
open Idealize.ShloMosaic Idealize.ShloMosaic.ValueIdx

/-! ## The column of eight results spread over the 1 x 8 x 128 array -/

/-- A column of 8 entries, given a unit axis behind, then a unit axis in front, cast to its own shape and repeated
    128 times along the last axis, reads entry s at (0, s, l). -/
theorem totals_spread_apply {α : Type} (v : S8.Idx → α) (h1 : S8.ShapeCasts S8x1) (h2 : S8x1.ShapeCasts S1x8x1)
    (h3 : S1x8x1.ShapeCasts S1x8x1) (hb : S1x8x1.Broadcasts S1x8x128) (s : Fin 8) (l : Fin 128) :
    broadcastTo S1x8x128 (shapeCast S1x8x1 (shapeCast S1x8x1 (shapeCast S8x1 v h1) h2) h3) hb (ix3 (0 : Fin 1) s l)
      = v (ix1 s) := by
  rw [shapeCast_self]
  refine (broadcastTo_apply _ hb (ix3 (0 : Fin 1) s l) (ix3 (0 : Fin 1) s (0 : Fin 1)) ?_).trans ?_
  · intro a
    match a with
    | ⟨0, _⟩ => rfl
    | ⟨1, _⟩ => rfl
    | ⟨2, _⟩ => rfl
  refine (shapeCast_ab_1ab_apply _ h2 (0 : Fin 1) s (0 : Fin 1)).trans ?_
  exact shapeCast_apply v h1 (ix2 s (0 : Fin 1)) (ix1 s) (by
    rw [Shape.rowMajor_val_one, Shape.rowMajor_val_two]
    show s.val = s.val * 1 + 0
    omega)

/-! ## The two sums and the two maxima, one axis at a time -/

/-- The sum over the last axis of an 8 x 256 x 256 array, at (s, w): the sum over z of the entries (s, w, z). -/
theorem totals_sum_z (X : FVec Ideal S8x256x256 .f32) (h : S8x256x256.Reduces [2] S8x256) (hφ : FKind.Formats .f32)
    (hacc : (0x00000000#32 : BitVec 32) = FKind.add.neutral .f32 hφ) (s : Fin 8) (w : Fin 256) :
    multiReduction (F := Ideal) .add [2] S8x256 X 0x00000000#32 h hφ hacc (ix2 s w) = ∑ z : Fin 256, X (ix3 s w z) := by
  refine (Ideal.multiReduction_add_single X _ h hφ hacc (ix2 s w)).trans ?_
  refine Finset.sum_congr rfl fun z _ => congrArg X (funext fun a => ?_)
  match a with
  | ⟨0, _⟩ => rfl
  | ⟨1, _⟩ => rfl
  | ⟨2, _⟩ => rfl

/-- The sum over the last axis of an 8 x 256 array, at s: the sum over w of the entries (s, w). -/
theorem totals_sum_w (Y : FVec Ideal S8x256 .f32) (h : S8x256.Reduces [1] S8) (hφ : FKind.Formats .f32)
    (hacc : (0x00000000#32 : BitVec 32) = FKind.add.neutral .f32 hφ) (s : Fin 8) :
    multiReduction (F := Ideal) .add [1] S8 Y 0x00000000#32 h hφ hacc (ix1 s) = ∑ w : Fin 256, Y (ix2 s w) := by
  refine (Ideal.multiReduction_add_single Y _ h hφ hacc (ix1 s)).trans ?_
  refine Finset.sum_congr rfl fun w _ => congrArg Y (funext fun a => ?_)
  match a with
  | ⟨0, _⟩ => rfl
  | ⟨1, _⟩ => rfl

/-- The maximum over the last axis of an 8 x 256 x 256 array, at (s, w): the maximum over z of the entries (s, w, z),
    from the value the accumulator's pattern denotes. -/
theorem totals_max_z (X : FVec Ideal S8x256x256 .f32) (h : S8x256x256.Reduces [2] S8x256) (hφ : FKind.Formats .f32)
    (hacc : (0xFF800000#32 : BitVec 32) = FKind.maximumf.neutral .f32 hφ) (s : Fin 8) (w : Fin 256) :
    multiReduction (F := Ideal) .maximumf [2] S8x256 X 0xFF800000#32 h hφ hacc (ix2 s w)
      = (Finset.univ : Finset (Fin 256)).fold max (Ideal.ofBits .f32 0xFF800000#32) (fun z => X (ix3 s w z)) := by
  refine (Ideal.multiReduction_maximumf_single X _ h hφ hacc (ix2 s w)).trans ?_
  refine congrArg (fun f => (Finset.univ : Finset (Fin 256)).fold max (Ideal.ofBits .f32 0xFF800000#32) f)
    (funext fun z => congrArg X (funext fun a => ?_))
  match a with
  | ⟨0, _⟩ => rfl
  | ⟨1, _⟩ => rfl
  | ⟨2, _⟩ => rfl

/-- The maximum over the last axis of an 8 x 256 array, at s: the maximum over w of the entries (s, w), from the value
    the accumulator's pattern denotes. -/
theorem totals_max_w (Y : FVec Ideal S8x256 .f32) (h : S8x256.Reduces [1] S8) (hφ : FKind.Formats .f32)
    (hacc : (0xFF800000#32 : BitVec 32) = FKind.maximumf.neutral .f32 hφ) (s : Fin 8) :
    multiReduction (F := Ideal) .maximumf [1] S8 Y 0xFF800000#32 h hφ hacc (ix1 s)
      = (Finset.univ : Finset (Fin 256)).fold max (Ideal.ofBits .f32 0xFF800000#32) (fun w => Y (ix2 s w)) := by
  refine (Ideal.multiReduction_maximumf_single Y _ h hφ hacc (ix1 s)).trans ?_
  refine congrArg (fun f => (Finset.univ : Finset (Fin 256)).fold max (Ideal.ofBits .f32 0xFF800000#32) f)
    (funext fun w => congrArg Y (funext fun a => ?_))
  match a with
  | ⟨0, _⟩ => rfl
  | ⟨1, _⟩ => rfl

/-! ## The starting arrays -/

/-- (T3) The running sum starts from zero at every entry. -/
theorem totals_init_sum (s : Fin 8) (l : Fin 128) : k0_pay3 (F := Ideal) (ix3 (0 : Fin 1) s l) = 0 := by
  show Ideal.ofBits .f32 0x00000000#32 = 0
  exact Ideal.ofBits_zero_f32

/-- (T3) The running maximum starts from zero at every entry. -/
theorem totals_init_max (s : Fin 8) (l : Fin 128) : k0_pay4 (F := Ideal) (ix3 (0 : Fin 1) s l) = 0 := by
  show Ideal.ofBits .f32 0x00000000#32 = 0
  exact Ideal.ofBits_zero_f32

/-! ## The two running totals at an entry -/

/-- (T1) The running sum's new value at entry (0, s, l): what was there plus the sum over w and z of the squared
    error of row s of the tile. -/
theorem totals_sum (v74 : FVec Ideal S8x256x256 .f32) (acc : Vec Ideal S1x8x128 .f32) (s : Fin 8) (l : Fin 128) :
    k0_pay1 (F := Ideal) v74 acc (ix3 (0 : Fin 1) s l)
      = acc (ix3 0 s l) + ∑ w : Fin 256, ∑ z : Fin 256, v74 (ix3 s w z) * v74 (ix3 s w z) := by
  unfold k0_pay1
  show shapeCast S1x8x128 acc _ (ix3 (0 : Fin 1) s l)
      + broadcastTo S1x8x128 (shapeCast S1x8x1 (shapeCast S1x8x1 (shapeCast S8x1
          (multiReduction (F := Ideal) .add [1] S8
            (multiReduction (F := Ideal) .add [2] S8x256 (mulf v74 v74) 0x00000000#32 _ _ _) 0x00000000#32 _ _ _) _) _) _) _
          (ix3 (0 : Fin 1) s l) = _
  rw [shapeCast_self acc, totals_spread_apply]
  refine congrArg (fun t => acc (ix3 0 s l) + t) ?_
  refine (totals_sum_w _ _ _ _ s).trans ?_
  refine Finset.sum_congr rfl fun w _ => ?_
  exact totals_sum_z (mulf v74 v74) _ _ _ s w

/-- (T2) The running maximum's new value at entry (0, s, l): the larger of what was there and the maximum over w and
    z of the absolute error of row s of the tile, each maximum from the value the pattern 0xFF800000 denotes. -/
theorem totals_max (v74 : FVec Ideal S8x256x256 .f32) (acc : Vec Ideal S1x8x128 .f32) (s : Fin 8) (l : Fin 128) :
    k0_pay2 (F := Ideal) v74 acc (ix3 (0 : Fin 1) s l)
      = max (acc (ix3 0 s l)) ((Finset.univ : Finset (Fin 256)).fold max (Ideal.ofBits .f32 0xFF800000#32) (fun w =>
          (Finset.univ : Finset (Fin 256)).fold max (Ideal.ofBits .f32 0xFF800000#32) (fun z =>
            max (v74 (ix3 s w z)) (-(v74 (ix3 s w z)))))) := by
  unfold k0_pay2
  show max (shapeCast S1x8x128 acc _ (ix3 (0 : Fin 1) s l))
      (broadcastTo S1x8x128 (shapeCast S1x8x1 (shapeCast S1x8x1 (shapeCast S8x1
          (multiReduction (F := Ideal) .maximumf [1] S8
            (multiReduction (F := Ideal) .maximumf [2] S8x256 (absf v74) 0xFF800000#32 _ _ _) 0xFF800000#32 _ _ _) _) _) _) _
          (ix3 (0 : Fin 1) s l)) = _
  rw [shapeCast_self acc, totals_spread_apply]
  refine congrArg (fun t => max (acc (ix3 0 s l)) t) ?_
  refine (totals_max_w _ _ _ _ s).trans ?_
  refine congrArg (fun f => (Finset.univ : Finset (Fin 256)).fold max (Ideal.ofBits .f32 0xFF800000#32) f) (funext fun w => ?_)
  exact totals_max_z (absf v74) _ _ _ s w

end Cert.KernelIdeal.Tile

end
-- ==== Proof.PointValues.lean ====
/-
  What the three result buffers hold after each grid point, in terms of the point's blocks.

  After the body has run at a grid point the output block's buffer holds the stencil's values on the point's tile. Each
  running total's buffer holds the tile's contribution combined with zeros when the point is the first tile of its
  batch entry, and combined with what the buffer held after the point before otherwise.
-/
import proofs.«175465_j3083786518603_2_alg».proof.Proof.BodyPieces

set_option maxRecDepth 16384

noncomputable section

namespace Cert.KernelIdeal.Body

open Cert.KernelIdeal Cert.KernelIdeal.Gen
open Idealize.ShloMosaic Idealize.ShloMosaic.TcCoe
open Idealize.SL Idealize.SL.Sem

variable (m : (ℓ : Loc nD τ sig) → Buf (Elt Ideal) ℓ) (c : Dev nD)

/-- After any point the output block's buffer holds the stencil's values on the point's tile. -/
theorem leftAt_out (t : Fin cfg0.N) :
    (leftAt (F := Ideal) m c t.val t.isLt).1 = outTile (grid0.coords t) (iblk m c 0 t) (iblk m c 1 t) (iblk m c 2 t) (iblk m c 3 t) := by
  by_cases h0 : t.val % 32 = 0
  · rw [leftAt_first m c t h0]; exact leftFirst_out _ _ _ _ _ _ _ _ _ _ _ _ _ _ _ _ _ _ _ _ _ _ _ _
  · rw [leftAt_later m c t h0]; exact leftLater_out _ _ _ _ _ _ _ _ _ _ _ _ _ _ _ _ _ _ _ _ _ _ _ _ _ _

/-- After a first tile the sum's buffer holds the tile's contribution over zeros. -/
theorem leftAt_sum_first (t : Fin cfg0.N) (h0 : t.val % 32 = 0) :
    (leftAt (F := Ideal) m c t.val t.isLt).2.1 = k0_pay1 (F := Ideal) (errTile (grid0.coords t) (iblk m c 0 t) (iblk m c 1 t) (iblk m c 2 t) (iblk m c 3 t) (iblk m c 4 t)) (k0_pay3 (F := Ideal)) := by
  rw [leftAt_first m c t h0]; exact leftFirst_sum _ _ _ _ _ _ _ _ _ _ _ _ _ _ _ _ _ _ _ _ _ _ _ _

/-- After a later tile the sum's buffer holds the tile's contribution over what it held after the point before. -/
theorem leftAt_sum_later (t : Fin cfg0.N) (h0 : ¬t.val % 32 = 0) :
    (leftAt (F := Ideal) m c t.val t.isLt).2.1
      = k0_pay1 (F := Ideal) (errTile (grid0.coords t) (iblk m c 0 t) (iblk m c 1 t) (iblk m c 2 t) (iblk m c 3 t) (iblk m c 4 t)) (leftAt (F := Ideal) m c (t.val - 1) (Nat.lt_of_le_of_lt (Nat.sub_le _ _) t.isLt)).2.1 := by
  rw [leftAt_later m c t h0]; exact leftLater_sum _ _ _ _ _ _ _ _ _ _ _ _ _ _ _ _ _ _ _ _ _ _ _ _ _ _

/-- After a first tile the maximum's buffer holds the tile's contribution over zeros. -/
theorem leftAt_max_first (t : Fin cfg0.N) (h0 : t.val % 32 = 0) :
    (leftAt (F := Ideal) m c t.val t.isLt).2.2 = k0_pay2 (F := Ideal) (errTile (grid0.coords t) (iblk m c 0 t) (iblk m c 1 t) (iblk m c 2 t) (iblk m c 3 t) (iblk m c 4 t)) (k0_pay4 (F := Ideal)) := by
  rw [leftAt_first m c t h0]; exact leftFirst_max _ _ _ _ _ _ _ _ _ _ _ _ _ _ _ _ _ _ _ _ _ _ _ _

/-- After a later tile the maximum's buffer holds the tile's contribution over what it held after the point before. -/
theorem leftAt_max_later (t : Fin cfg0.N) (h0 : ¬t.val % 32 = 0) :
    (leftAt (F := Ideal) m c t.val t.isLt).2.2
      = k0_pay2 (F := Ideal) (errTile (grid0.coords t) (iblk m c 0 t) (iblk m c 1 t) (iblk m c 2 t) (iblk m c 3 t) (iblk m c 4 t)) (leftAt (F := Ideal) m c (t.val - 1) (Nat.lt_of_le_of_lt (Nat.sub_le _ _) t.isLt)).2.2 := by
  rw [leftAt_later m c t h0]; exact leftLater_max _ _ _ _ _ _ _ _ _ _ _ _ _ _ _ _ _ _ _ _ _ _ _ _ _ _

end Cert.KernelIdeal.Body

end
-- ==== Proof.PointIsSpec.lean ====
/-
  Every grid point's tile is a tile of the specification, and what that gives point by point.

  Grid point t is tile i = t mod 32 of batch entry b = t div 32, and the kernel's five input blocks there are the
  argument arrays at that tile's places. So after the point the output block's buffer holds the specification's stencil
  on rows 8i … 8i+7 of batch entry b; and, per row s of the tile, the sum's buffer holds the sum over w and z of the
  squared errors on row 8i + s added to zero (first tile) or to what it held after the point before (later tile), and
  the maximum's buffer the largest absolute error on that row combined likewise by taking the larger.
-/
import proofs.«175465_j3083786518603_2_alg».proof.Proof.TileIsSpec
import proofs.«175465_j3083786518603_2_alg».proof.Proof.TileTotals
import proofs.«175465_j3083786518603_2_alg».proof.Proof.PointValues
import proofs.«175465_j3083786518603_2_alg».proof.Proof.BlocksOut

set_option maxRecDepth 16384

noncomputable section

open scoped BigOperators

namespace Cert.KernelIdeal.Body

open Cert.KernelIdeal Cert.KernelIdeal.Gen Cert.KernelIdeal.Tile
open Idealize.ShloMosaic Idealize.ShloMosaic.TcCoe Idealize.ShloMosaic.ValueIdx
open Idealize.SL Idealize.SL.Sem
open Cert.StencilSpec

variable (m : (ℓ : Loc nD τ sig) → Buf (Elt Ideal) ℓ) (c : Dev nD)

/-- The three argument arrays as the region finds them. -/
abbrev fieldArr : SX.Idx → EReal := V m c main_arg0
abbrev coefArr0 : SC.Idx → EReal := V m c main_arg1
abbrev targetArr : SX.Idx → EReal := V m c main_arg2

/-- The bottom of the order as its pattern denotes it: where the kernel's and the host's maxima start. -/
abbrev botE : EReal := Ideal.ofBits .f32 0xFF800000#32

/-- The sum over w and z of the squared errors on row s of tile i of batch entry b. -/
def tileSq (b : Fin 2) (i : Fin 32) (s : Fin 8) : EReal :=
  ∑ w : Fin 256, ∑ z : Fin 256, err (fieldArr m c) (coefArr0 m c) (targetArr m c) (ix4 b (row i s) w z) * err (fieldArr m c) (coefArr0 m c) (targetArr m c) (ix4 b (row i s) w z)

/-- The largest absolute error on row s of tile i of batch entry b, over w and z. -/
def tileMax (b : Fin 2) (i : Fin 32) (s : Fin 8) : EReal :=
  (Finset.univ : Finset (Fin 256)).fold max botE (fun w => (Finset.univ : Finset (Fin 256)).fold max botE (fun z =>
    max (err (fieldArr m c) (coefArr0 m c) (targetArr m c) (ix4 b (row i s) w z)) (-(err (fieldArr m c) (coefArr0 m c) (targetArr m c) (ix4 b (row i s) w z)))))

/-- At every grid point the input blocks are the arrays at the places of the point's tile. -/
theorem isTileAt (t : Fin cfg0.N) :
    IsTile (fieldArr m c) (coefArr0 m c) (targetArr m c) (bOf t) (iOf t) (grid0.coords t)
      (iblk m c 0 t) (iblk m c 1 t) (iblk m c 2 t) (iblk m c 3 t) (iblk m c 4 t) :=
  ⟨blkCoords1 t, blk0_at m c t, fun hi => blk1_at m c t hi, fun hi => blk2_at m c t hi, blk3_at m c t, blk4_at m c t⟩

/-- After point t the output block's buffer holds the specification's stencil on the point's tile. -/
theorem out_at (t : Fin cfg0.N) (r : Fin 8) (w z : Fin 256) :
    (leftAt (F := Ideal) m c t.val t.isLt).1 (ix4 (0 : Fin 1) r w z)
      = stencil (fieldArr m c) (coefArr0 m c) (ix4 (bOf t) (row (iOf t) r) w z) := by
  rw [leftAt_out]
  exact outArr (isTileAt m c t) r w z

/-- The tile's squared errors summed over w and z, as the kernel forms them, are the specification's. -/
theorem sq_at (t : Fin cfg0.N) (s : Fin 8) :
    (∑ w : Fin 256, ∑ z : Fin 256,
        errTile (grid0.coords t) (iblk m c 0 t) (iblk m c 1 t) (iblk m c 2 t) (iblk m c 3 t) (iblk m c 4 t) (ix3 s w z)
          * errTile (grid0.coords t) (iblk m c 0 t) (iblk m c 1 t) (iblk m c 2 t) (iblk m c 3 t) (iblk m c 4 t) (ix3 s w z))
      = tileSq m c (bOf t) (iOf t) s := by
  unfold tileSq
  exact Finset.sum_congr rfl fun w _ => Finset.sum_congr rfl fun z _ => by rw [errArr (isTileAt m c t) s w z]

/-- The tile's largest absolute error over w and z, as the kernel forms it, is the specification's. -/
theorem abs_at (t : Fin cfg0.N) (s : Fin 8) :
    ((Finset.univ : Finset (Fin 256)).fold max botE (fun w => (Finset.univ : Finset (Fin 256)).fold max botE (fun z =>
        max (errTile (grid0.coords t) (iblk m c 0 t) (iblk m c 1 t) (iblk m c 2 t) (iblk m c 3 t) (iblk m c 4 t) (ix3 s w z))
          (-(errTile (grid0.coords t) (iblk m c 0 t) (iblk m c 1 t) (iblk m c 2 t) (iblk m c 3 t) (iblk m c 4 t) (ix3 s w z))))))
      = tileMax m c (bOf t) (iOf t) s := by
  unfold tileMax
  exact Finset.fold_congr fun w _ => Finset.fold_congr fun z _ => by rw [errArr (isTileAt m c t) s w z]

theorem sum_first (t : Fin cfg0.N) (h0 : t.val % 32 = 0) (s : Fin 8) (l : Fin 128) :
    (leftAt (F := Ideal) m c t.val t.isLt).2.1 (ix3 (0 : Fin 1) s l) = 0 + tileSq m c (bOf t) (iOf t) s := by
  rw [leftAt_sum_first m c t h0, totals_sum, totals_init_sum, sq_at]

theorem sum_later (t : Fin cfg0.N) (h0 : ¬t.val % 32 = 0) (s : Fin 8) (l : Fin 128) :
    (leftAt (F := Ideal) m c t.val t.isLt).2.1 (ix3 (0 : Fin 1) s l)
      = (leftAt (F := Ideal) m c (t.val - 1) (Nat.lt_of_le_of_lt (Nat.sub_le _ _) t.isLt)).2.1 (ix3 (0 : Fin 1) s l) + tileSq m c (bOf t) (iOf t) s := by
  rw [leftAt_sum_later m c t h0, totals_sum, sq_at]

theorem max_first (t : Fin cfg0.N) (h0 : t.val % 32 = 0) (s : Fin 8) (l : Fin 128) :
    (leftAt (F := Ideal) m c t.val t.isLt).2.2 (ix3 (0 : Fin 1) s l) = max 0 (tileMax m c (bOf t) (iOf t) s) := by
  rw [leftAt_max_first m c t h0, totals_max, totals_init_max, abs_at]

theorem max_later (t : Fin cfg0.N) (h0 : ¬t.val % 32 = 0) (s : Fin 8) (l : Fin 128) :
    (leftAt (F := Ideal) m c t.val t.isLt).2.2 (ix3 (0 : Fin 1) s l)
      = max ((leftAt (F := Ideal) m c (t.val - 1) (Nat.lt_of_le_of_lt (Nat.sub_le _ _) t.isLt)).2.2 (ix3 (0 : Fin 1) s l)) (tileMax m c (bOf t) (iOf t) s) := by
  rw [leftAt_max_later m c t h0, totals_max, abs_at]

end Cert.KernelIdeal.Body

end
-- ==== Proof.RegroupMax.lean ====
/-
  Regrouping a maximum by tiles of eight rows, and the sign of a largest absolute value.

  The maximum of a family from a starting value b is the least value above b and above every member. Taken batch by
  batch, then row of the tile by row, then tile by tile, then over the last two axes, each level starting again from
  b, it is above the same things as the maximum over every point taken once from b: the members are the same, since
  every point is (batch, row s of tile i, w, z) for exactly one choice, and b is counted more than once, which a
  maximum does not notice. Two values above the same things are equal.

  The larger of a value and its negation is never below zero, so neither is a maximum of such values over a nonempty
  index set, whatever it starts from; and the larger of zero and a value not below zero is that value.
-/
import proofs.«175465_j3083786518603_2_alg».proof.Proof.Spec
import proofs.«175465_j3083786518603_2_alg».proof.Proof.Regroup
import Mathlib.Data.Finset.Fold
import Mathlib.Data.Fintype.BigOperators
import Mathlib.Algebra.BigOperators.Group.Finset.Basic
import Mathlib.Data.EReal.Operations

noncomputable section

open scoped BigOperators

namespace Cert.StencilSpec

open Idealize.ShloMosaic Idealize.ShloMosaic.ValueIdx

/-- (M) The maximum taken by batch, row of the tile, tile and the last two coordinates, every level from the same
    starting value, is the maximum over every point from that value. -/
theorem fold_max_tiles (bot : EReal) (e : SX.Idx → EReal) :
    (Finset.univ : Finset (Fin 2)).fold max bot (fun b => (Finset.univ : Finset (Fin 8)).fold max bot (fun s =>
      (Finset.univ : Finset (Fin 32)).fold max bot (fun i => (Finset.univ : Finset (Fin 256)).fold max bot (fun w =>
        (Finset.univ : Finset (Fin 256)).fold max bot (fun z => e (ix4 b (row i s) w z))))))
      = (Finset.univ : Finset SX.Idx).fold max bot e := by
  refine eq_of_forall_ge_iff fun c => ?_
  simp only [Finset.fold_max_le, Finset.mem_univ, true_imp_iff]
  constructor
  · rintro ⟨hb, H⟩
    refine ⟨hb, fun j => ?_⟩
    obtain ⟨b, s, i, w, z, rfl⟩ := exists_tile j
    exact ((((H b).2 s).2 i).2 w).2 z
  · rintro ⟨hb, H⟩
    exact ⟨hb, fun b => ⟨hb, fun s => ⟨hb, fun i => ⟨hb, fun w => ⟨hb, fun z => H _⟩⟩⟩⟩⟩

/-- (Z1) The larger of a value and its negation is not below zero. -/
theorem zero_le_max_neg (a : EReal) : 0 ≤ max a (-a) := by
  rcases le_total 0 a with h | h
  · exact le_max_of_le_left h
  · exact le_max_of_le_right (EReal.neg_nonneg.2 h)

/-- (Z2) A maximum of absolute values over a nonempty index set is not below zero, whatever it starts from. -/
theorem zero_le_fold_max_abs {ι : Type*} [Fintype ι] [Nonempty ι] (bot : EReal) (a : ι → EReal) :
    0 ≤ (Finset.univ : Finset ι).fold max bot (fun j => max (a j) (-(a j))) :=
  (Finset.le_fold_max 0).2 (Or.inr ⟨Classical.arbitrary ι, Finset.mem_univ _, zero_le_max_neg _⟩)

/-- The array has a point. -/
instance : Nonempty SX.Idx := ⟨ix4 (0 : Fin 2) (0 : Fin 256) (0 : Fin 256) (0 : Fin 256)⟩

/-- (Z2) over the points of the array. -/
theorem zero_le_fold_max_abs_points (bot : EReal) (a : SX.Idx → EReal) :
    0 ≤ (Finset.univ : Finset SX.Idx).fold max bot (fun j => max (a j) (-(a j))) :=
  zero_le_fold_max_abs bot a

/-- (Z3) The larger of zero and a value not below zero is that value. -/
theorem max_zero_eq {t : EReal} (h : 0 ≤ t) : max 0 t = t := max_eq_right h

/-- (Z4) Zero plus a value is that value. -/
theorem zero_add_eq (t : EReal) : (0 : EReal) + t = t := zero_add t

end Cert.StencilSpec

end
-- ==== Proof.Accum.lean ====
/-
  Running totals over the 32 tiles of one batch entry.

  A running total is a sequence a 0, ..., a 31 in which a 0 is the first contribution combined with a starting value and
  each later a i is a (i - 1) combined with the i-th contribution. For addition from zero, a i is the sum of the
  contributions up to i, so the last one is the sum of them all. For the maximum, started from zero at a first
  contribution that is not below zero, a i is the maximum of the contributions up to i, and it may as well be taken
  from any value that is below every contribution. Both are inductions on i: the contributions up to i + 1 are those
  up to i and one more. A maximum taken from a value is never below that value, and a maximum of absolute values over
  a nonempty range is never below zero.
-/
import proofs.«175465_j3083786518603_2_alg».proof.Proof.Spec
import proofs.«175465_j3083786518603_2_alg».proof.Proof.RegroupMax
import Mathlib.Data.Finset.Fold
import Mathlib.Data.Fintype.BigOperators
import Mathlib.Algebra.BigOperators.Group.Finset.Basic
import Mathlib.Data.EReal.Operations

noncomputable section

open scoped BigOperators

namespace Cert.StencilSpec

open Idealize.ShloMosaic Idealize.ShloMosaic.ValueIdx

/-! ## The tiles up to a given one -/

/-- The tiles up to tile 0: tile 0 alone. -/
theorem tiles_le_zero : (Finset.univ.filter fun k : Fin 32 => k.val ≤ 0) = {(0 : Fin 32)} := by
  ext k
  simp only [Finset.mem_filter, Finset.mem_univ, true_and, Finset.mem_singleton, Fin.ext_iff]
  show k.val ≤ 0 ↔ k.val = 0
  omega

/-- The tiles up to tile n + 1: tile n + 1 and the tiles up to tile n. -/
theorem tiles_le_succ (n : Nat) (hn : n + 1 < 32) :
    (Finset.univ.filter fun k : Fin 32 => k.val ≤ n + 1)
      = insert (⟨n + 1, hn⟩ : Fin 32) (Finset.univ.filter fun k : Fin 32 => k.val ≤ n) := by
  ext k
  simp only [Finset.mem_filter, Finset.mem_univ, true_and, Finset.mem_insert, Fin.ext_iff]
  omega

/-- Tile n + 1 is not among the tiles up to tile n. -/
theorem tiles_succ_not_mem (n : Nat) (hn : n + 1 < 32) :
    (⟨n + 1, hn⟩ : Fin 32) ∉ (Finset.univ.filter fun k : Fin 32 => k.val ≤ n) := by
  simp only [Finset.mem_filter, Finset.mem_univ, true_and]
  omega

/-- The tiles up to the last one are all the tiles. -/
theorem tiles_le_last : (Finset.univ.filter fun k : Fin 32 => k.val ≤ 31) = Finset.univ :=
  Finset.filter_true_of_mem fun k _ => by have := k.isLt; omega

/-! ## The running sum -/

/-- The running sum after tile n is the sum of the contributions of the tiles up to n, in any commutative monoid. -/
theorem accum_sum_upto {M : Type*} [AddCommMonoid M] (f a : Fin 32 → M) (h0 : a 0 = 0 + f 0)
    (hs : ∀ i : Fin 32, (hi : i.val ≠ 0) → a i = a ⟨i.val - 1, by have := i.isLt; omega⟩ + f i) :
    ∀ (n : Nat) (hn : n < 32), a ⟨n, hn⟩ = ∑ k ∈ Finset.univ.filter (fun k : Fin 32 => k.val ≤ n), f k := by
  intro n
  induction n with
  | zero =>
    intro hn
    rw [tiles_le_zero, Finset.sum_singleton]
    exact h0.trans (zero_add _)
  | succ n ih =>
    intro hn
    rw [tiles_le_succ n hn, Finset.sum_insert (tiles_succ_not_mem n hn), ← ih (by omega)]
    exact (hs ⟨n + 1, hn⟩ (Nat.succ_ne_zero n)).trans (add_comm _ _)

/-- The invariant at a tile: the running sum there is the sum over the tiles up to it. -/
theorem accum_sum_at {M : Type*} [AddCommMonoid M] (f a : Fin 32 → M) (h0 : a 0 = 0 + f 0)
    (hs : ∀ i : Fin 32, (hi : i.val ≠ 0) → a i = a ⟨i.val - 1, by have := i.isLt; omega⟩ + f i) (i : Fin 32) :
    a i = ∑ k ∈ Finset.univ.filter (fun k : Fin 32 => k.val ≤ i.val), f k :=
  accum_sum_upto f a h0 hs i.val i.isLt

/-- (A-sum) The running sum after the last tile is the sum of all 32 contributions. -/
theorem accum_sum {M : Type*} [AddCommMonoid M] (f a : Fin 32 → M) (h0 : a 0 = 0 + f 0)
    (hs : ∀ i : Fin 32, (hi : i.val ≠ 0) → a i = a ⟨i.val - 1, by have := i.isLt; omega⟩ + f i) :
    a ⟨31, by decide⟩ = ∑ i : Fin 32, f i := by
  rw [accum_sum_upto f a h0 hs 31 (by decide), tiles_le_last]

/-- (A-sum) at the extended reals. -/
theorem accum_sum_ereal (f a : Fin 32 → EReal) (h0 : a 0 = 0 + f 0)
    (hs : ∀ i : Fin 32, (hi : i.val ≠ 0) → a i = a ⟨i.val - 1, by have := i.isLt; omega⟩ + f i) :
    a ⟨31, by decide⟩ = ∑ i : Fin 32, f i :=
  accum_sum f a h0 hs

/-! ## The running maximum -/

/-- The running maximum after tile n, started from zero at a first contribution not below zero, is the maximum of
    the contributions of the tiles up to n, taken from any value below every contribution. -/
theorem accum_max_upto (g a : Fin 32 → EReal) (bot : EReal) (hbot : ∀ i, bot ≤ g i) (h0 : 0 ≤ g 0)
    (ha0 : a 0 = max 0 (g 0))
    (hs : ∀ i : Fin 32, (hi : i.val ≠ 0) → a i = max (a ⟨i.val - 1, by have := i.isLt; omega⟩) (g i)) :
    ∀ (n : Nat) (hn : n < 32), a ⟨n, hn⟩ = (Finset.univ.filter (fun k : Fin 32 => k.val ≤ n)).fold max bot g := by
  intro n
  induction n with
  | zero =>
    intro hn
    rw [tiles_le_zero, Finset.fold_singleton]
    exact ha0.trans ((max_eq_right h0).trans (max_eq_left (hbot 0)).symm)
  | succ n ih =>
    intro hn
    rw [tiles_le_succ n hn, Finset.fold_insert (tiles_succ_not_mem n hn), ← ih (by omega)]
    exact (hs ⟨n + 1, hn⟩ (Nat.succ_ne_zero n)).trans (max_comm _ _)

/-- The invariant at a tile: the running maximum there is the maximum over the tiles up to it. -/
theorem accum_max_at (g a : Fin 32 → EReal) (bot : EReal) (hbot : ∀ i, bot ≤ g i) (h0 : 0 ≤ g 0)
    (ha0 : a 0 = max 0 (g 0))
    (hs : ∀ i : Fin 32, (hi : i.val ≠ 0) → a i = max (a ⟨i.val - 1, by have := i.isLt; omega⟩) (g i)) (i : Fin 32) :
    a i = (Finset.univ.filter (fun k : Fin 32 => k.val ≤ i.val)).fold max bot g :=
  accum_max_upto g a bot hbot h0 ha0 hs i.val i.isLt

/-- (A-max) The running maximum after the last tile is the maximum of all 32 contributions from that value. -/
theorem accum_max (g a : Fin 32 → EReal) (bot : EReal) (hbot : ∀ i, bot ≤ g i) (h0 : 0 ≤ g 0)
    (ha0 : a 0 = max 0 (g 0))
    (hs : ∀ i : Fin 32, (hi : i.val ≠ 0) → a i = max (a ⟨i.val - 1, by have := i.isLt; omega⟩) (g i)) :
    a ⟨31, by decide⟩ = (Finset.univ : Finset (Fin 32)).fold max bot g := by
  rw [accum_max_upto g a bot hbot h0 ha0 hs 31 (by decide), tiles_le_last]

/-! ## A maximum is not below where it starts, nor, of absolute values, below zero -/

/-- (A-bot) A maximum taken from a value is not below that value. -/
theorem bot_le_fold_max {ι : Type*} [Fintype ι] (bot : EReal) (h : ι → EReal) :
    bot ≤ (Finset.univ : Finset ι).fold max bot h :=
  (Finset.le_fold_max bot).2 (Or.inl le_rfl)

/-- (A-bot) The same for a maximum of maxima, each level taken from the same value. -/
theorem bot_le_fold_max_fold_max {ι κ : Type*} [Fintype ι] [Fintype κ] (bot : EReal) (h : ι → κ → EReal) :
    bot ≤ (Finset.univ : Finset ι).fold max bot (fun w => (Finset.univ : Finset κ).fold max bot (fun z => h w z)) :=
  bot_le_fold_max bot _

/-- (A-nonneg) A maximum of maxima of absolute values over two nonempty ranges is not below zero, whatever the two
    levels start from. -/
theorem zero_le_fold_max_fold_max_abs {ι κ : Type*} [Fintype ι] [Fintype κ] [Nonempty ι] [Nonempty κ] (bot : EReal)
    (u : ι → κ → EReal) :
    0 ≤ (Finset.univ : Finset ι).fold max bot (fun w =>
      (Finset.univ : Finset κ).fold max bot (fun z => max (u w z) (-(u w z)))) :=
  (Finset.le_fold_max 0).2 (Or.inr ⟨Classical.arbitrary ι, Finset.mem_univ _, zero_le_fold_max_abs bot (u _)⟩)

/-- (A-nonneg) over the last two axes of a tile. -/
theorem zero_le_fold_max_fold_max_abs_256 (bot : EReal) (u : Fin 256 → Fin 256 → EReal) :
    0 ≤ (Finset.univ : Finset (Fin 256)).fold max bot (fun w =>
      (Finset.univ : Finset (Fin 256)).fold max bot (fun z => max (u w z) (-(u w z)))) :=
  zero_le_fold_max_fold_max_abs bot u

end Cert.StencilSpec

end
-- ==== Proof.BatchTotals.lean ====
/-
  The two running totals after the last tile of a batch entry.

  Fix a batch entry b, a row s of the tile and a lane. Along the 32 grid points of the batch entry the sum's buffer at
  (s, lane) starts as zero plus the first tile's squared errors on its row s and gains each later tile's; so after the
  last tile it holds the sum over the 32 tiles. The maximum's buffer starts as the larger of zero and the first tile's
  largest absolute error on its row s — which is that largest absolute error, an absolute value being at least zero —
  and takes the larger with each later tile's; so after the last tile it holds the largest over the 32 tiles.
-/
import proofs.«175465_j3083786518603_2_alg».proof.Proof.PointIsSpec
import proofs.«175465_j3083786518603_2_alg».proof.Proof.Accum

set_option maxRecDepth 16384

noncomputable section

open scoped BigOperators

namespace Cert.KernelIdeal.Body

open Cert.KernelIdeal Cert.KernelIdeal.Gen Cert.KernelIdeal.Tile
open Idealize.ShloMosaic Idealize.ShloMosaic.TcCoe Idealize.ShloMosaic.ValueIdx
open Idealize.SL Idealize.SL.Sem
open Cert.StencilSpec

variable (m : (ℓ : Loc nD τ sig) → Buf (Elt Ideal) ℓ) (c : Dev nD)

/-- What the buffers hold after a position depends on the position's number only. -/
theorem leftAt_congr {n n' : ℕ} (e : n = n') (hn : n < cfg0.N) (hn' : n' < cfg0.N) :
    leftAt (F := Ideal) m c n hn = leftAt (F := Ideal) m c n' hn' := by
  subst e; rfl

/-- The sum's buffer at (s, lane) after tile i of batch entry b. -/
def sumAfter (b : Fin 2) (s : Fin 8) (l : Fin 128) (i : Fin 32) : EReal :=
  (leftAt (F := Ideal) m c (pointOf b i).val (pointOf b i).isLt).2.1 (ix3 (0 : Fin 1) s l)

/-- The maximum's buffer at (s, lane) after tile i of batch entry b. -/
def maxAfter (b : Fin 2) (s : Fin 8) (l : Fin 128) (i : Fin 32) : EReal :=
  (leftAt (F := Ideal) m c (pointOf b i).val (pointOf b i).isLt).2.2 (ix3 (0 : Fin 1) s l)

theorem sumAfter_zero (b : Fin 2) (s : Fin 8) (l : Fin 128) : sumAfter m c b s l 0 = 0 + tileSq m c b 0 s := by
  unfold sumAfter
  rw [sum_first m c (pointOf b 0) (pointOf_val_mod b 0) s l, bOf_pointOf, iOf_pointOf]

theorem sumAfter_succ (b : Fin 2) (s : Fin 8) (l : Fin 128) (i : Fin 32) (hi : i.val ≠ 0) :
    sumAfter m c b s l i = sumAfter m c b s l ⟨i.val - 1, by have := i.isLt; omega⟩ + tileSq m c b i s := by
  unfold sumAfter
  rw [sum_later m c (pointOf b i) (by rw [pointOf_val_mod]; exact hi) s l, bOf_pointOf, iOf_pointOf,
    leftAt_congr m c (pointOf_pred b i hi) _ (pointOf b ⟨i.val - 1, by have := i.isLt; omega⟩).isLt]

theorem maxAfter_zero (b : Fin 2) (s : Fin 8) (l : Fin 128) : maxAfter m c b s l 0 = max 0 (tileMax m c b 0 s) := by
  unfold maxAfter
  rw [max_first m c (pointOf b 0) (pointOf_val_mod b 0) s l, bOf_pointOf, iOf_pointOf]

theorem maxAfter_succ (b : Fin 2) (s : Fin 8) (l : Fin 128) (i : Fin 32) (hi : i.val ≠ 0) :
    maxAfter m c b s l i = max (maxAfter m c b s l ⟨i.val - 1, by have := i.isLt; omega⟩) (tileMax m c b i s) := by
  unfold maxAfter
  rw [max_later m c (pointOf b i) (by rw [pointOf_val_mod]; exact hi) s l, bOf_pointOf, iOf_pointOf,
    leftAt_congr m c (pointOf_pred b i hi) _ (pointOf b ⟨i.val - 1, by have := i.isLt; omega⟩).isLt]

/-- After the last tile of batch entry b the sum's buffer at (s, lane) holds the sum over the 32 tiles of the squared
    errors on their rows s. -/
theorem sum_last (b : Fin 2) (s : Fin 8) (l : Fin 128) :
    (leftAt (F := Ideal) m c (lastOf b).val (lastOf b).isLt).2.1 (ix3 (0 : Fin 1) s l) = ∑ i : Fin 32, tileSq m c b i s :=
  accum_sum_ereal (fun i => tileSq m c b i s) (sumAfter m c b s l) (sumAfter_zero m c b s l) (fun i hi => sumAfter_succ m c b s l i hi)

/-- After the last tile of batch entry b the maximum's buffer at (s, lane) holds the largest absolute error over the 32
    tiles' rows s. -/
theorem max_last (b : Fin 2) (s : Fin 8) (l : Fin 128) :
    (leftAt (F := Ideal) m c (lastOf b).val (lastOf b).isLt).2.2 (ix3 (0 : Fin 1) s l)
      = (Finset.univ : Finset (Fin 32)).fold max botE (fun i => tileMax m c b i s) :=
  accum_max (fun i => tileMax m c b i s) (maxAfter m c b s l) botE
    (fun i => bot_le_fold_max_fold_max botE _)
    (zero_le_fold_max_fold_max_abs_256 botE _)
    (maxAfter_zero m c b s l) (fun i hi => maxAfter_succ m c b s l i hi)

end Cert.KernelIdeal.Body

end
-- ==== Proof.Regrouped.lean ====
/-
  From the totals per row and tile to the totals over every point.

  The sum, over the batch entries, the rows of a tile and the tiles, of the squared errors summed over w and z on that
  row of that tile is the sum of the squared errors over every point, because every point is reached exactly once; so
  divided by the number of points it is the specification's loss. Likewise the largest, over the batch entries, the rows
  of a tile and the tiles, of the largest absolute error over w and z is the largest absolute error over every point:
  the specification's largest error.
-/
import proofs.«175465_j3083786518603_2_alg».proof.Proof.PointIsSpec
import proofs.«175465_j3083786518603_2_alg».proof.Proof.RegroupMax

noncomputable section

open scoped BigOperators

namespace Cert.KernelIdeal.Body

open Cert.KernelIdeal Cert.KernelIdeal.Gen
open Idealize.ShloMosaic Idealize.ShloMosaic.TcCoe Idealize.ShloMosaic.ValueIdx
open Idealize.SL Idealize.SL.Sem
open Cert.StencilSpec

variable (m : (ℓ : Loc nD τ sig) → Buf (Elt Ideal) ℓ) (c : Dev nD)

/-- The per-row, per-tile sums of squared errors add up to the specification's loss times the number of points. -/
theorem loss_regroup :
    Ideal.div (∑ b : Fin 2, ∑ s : Fin 8, ∑ i : Fin 32, tileSq m c b i s) (Ideal.ofBits .f32 0x4C000000#32)
      = loss (fieldArr m c) (coefArr0 m c) (targetArr m c) := by
  unfold loss tileSq
  rw [sum_tiles_ereal (fun j => err (fieldArr m c) (coefArr0 m c) (targetArr m c) j * err (fieldArr m c) (coefArr0 m c) (targetArr m c) j)]

/-- The per-row, per-tile largest absolute errors have the specification's largest error as their largest. -/
theorem max_regroup :
    (Finset.univ : Finset (Fin 2)).fold max botE (fun b => (Finset.univ : Finset (Fin 8)).fold max botE (fun s =>
        (Finset.univ : Finset (Fin 32)).fold max botE (fun i => tileMax m c b i s)))
      = maxAbs (fieldArr m c) (coefArr0 m c) (targetArr m c) := by
  unfold maxAbs tileMax
  exact fold_max_tiles botE (fun j => max (err (fieldArr m c) (coefArr0 m c) (targetArr m c) j) (-(err (fieldArr m c) (coefArr0 m c) (targetArr m c) j)))

end Cert.KernelIdeal.Body

end
-- ==== Proof.HostTail.lean ====
/-
  The operations that follow the region, read as mathematics.

  From each of the two running arrays of shape 2 x 8 x 128 the program keeps the first entry of the last axis, drops
  that axis, and reduces the 2 x 8 entries left to one number: for the first array their sum, started from the value the
  all-zero pattern denotes (the extended real 0) and then divided by the value the pattern 0x4C000000 denotes; for the
  second their maximum, started from the value the pattern 0xFF800000 denotes. The entry (b, s) of the reduced array
  is the entry (b, s, 0) of the running array; a sum or a maximum over the 2 x 8 index set is the one over b of the
  one over s, for the maximum because both are the least value above the starting value and above every entry.
  The two other patterns are kept as patterns and never evaluated.
-/
import proofs.«175465_j3083786518603_2_alg».proof.Proof.Gen.KernelIdeal.Launch
import Idealize.ShloMosaic.Lib.StableHlo.Run
import Idealize.ShloMosaic.Lib.ValueIdx
import Idealize.ShloMosaic.Lib.Pipeline.Value
import Idealize.ShloMosaic.Lib.IdealHost
import Idealize.ShloMosaic.PureOps.Reduce
import Idealize.ShloMosaic.PureOps.Ideal.Laws
import Mathlib.Data.Finset.Fold

noncomputable section

open scoped BigOperators

namespace Cert.KernelIdeal.Tail

open Cert.KernelIdeal Cert.KernelIdeal.Gen
open Idealize.ShloMosaic Idealize.ShloMosaic.TcCoe Idealize.SL.Sem Idealize.ShloMosaic.ValueIdx

/-- The first result after the operations that follow the region, as the operations' term of the contents before. -/
theorem tail_sum_term (W : Valuation τ sig (Elt Ideal)) :
    StableHlo.after (hostOps1 (F := Ideal)) W (Proc.devRef .tc main_v4)
      = Host.divf (F := Ideal)
          (Host.reduceAdd (F := Ideal)
            (shapeCast S2x8 (extractStridedSlice S2x8x1 ![0, 0, 0] (W (Proc.devRef .tc main_v0_1)) slices_S2x8x128_S2x8x1_0_0_0)
              shapeCasts_S2x8x1_S2x8)
            (constant (F := Ideal) S_ .f32 0x00000000#32) reducesTo_S2x8_S_d0_1 h_S_)
          (constant (F := Ideal) S_ .f32 0x4C000000#32) := by
  after_results
  rfl

/-! ## The first column of a running array -/

/-- The first entry of the last axis kept and that axis dropped: entry (b, s) reads entry (b, s, 0). -/
theorem tail_column_apply {α : Type} (A : S2x8x128.Idx → α) (hs : S2x8x128.Slices ![0, 0, 0] S2x8x1)
    (hc : S2x8x1.ShapeCasts S2x8) (b : Fin 2) (s : Fin 8) :
    shapeCast S2x8 (extractStridedSlice S2x8x1 ![0, 0, 0] A hs) hc (ix2 b s) = A (ix3 b s (0 : Fin 128)) := by
  refine (shapeCast_apply _ hc (ix2 b s) (ix3 b s (0 : Fin 1)) ?_).trans ?_
  · rw [Shape.rowMajor_val_three, Shape.rowMajor_val_two]
    show (b.val * 8 + s.val) * 1 + 0 = b.val * 8 + s.val
    omega
  · exact extractStridedSlice_apply ![0, 0, 0] A hs (ix3 b s (0 : Fin 1)) (ix3 b s (0 : Fin 128)) (fun a =>
      match a with
      | ⟨0, _⟩ => by show b.val = 0 + b.val; omega
      | ⟨1, _⟩ => by show s.val = 0 + s.val; omega
      | ⟨2, _⟩ => by show 0 = 0 + 0; omega)

/-! ## A maximum over the 2 x 8 index set, by rows -/

/-- The maximum over the 2 x 8 index set from a value is the maximum over b of the maxima over s, each from that
    value: both are the least value above it and above every entry. -/
theorem tail_fold_max_idx2 (bot : EReal) (e : S2x8.Idx → EReal) :
    (Finset.univ : Finset S2x8.Idx).fold max bot e
      = (Finset.univ : Finset (Fin 2)).fold max bot (fun b => (Finset.univ : Finset (Fin 8)).fold max bot (fun s => e (ix2 b s))) := by
  refine eq_of_forall_ge_iff fun c => ?_
  simp only [Finset.fold_max_le, Finset.mem_univ, true_imp_iff]
  constructor
  · rintro ⟨hb, H⟩
    exact ⟨hb, fun b => ⟨hb, fun s => H _⟩⟩
  · rintro ⟨hb, H⟩
    refine ⟨hb, fun j => ?_⟩
    have e2 : j = ix2 (j 0) (j 1) := eq_ix2 j
    rw [e2]
    exact ((H (j 0)).2 (j 1))

/-! ## The two results -/

/-- (H4) The first result: the sum over b and s of the entries (b, s, 0) of the first running array, divided by the
    value the pattern 0x4C000000 denotes. -/
theorem tail_sum (W : Valuation τ sig (Elt Ideal)) :
    StableHlo.after (hostOps1 (F := Ideal)) W (Proc.devRef .tc main_v4)
      = fun _ => Ideal.div (∑ b : Fin 2, ∑ s : Fin 8, W (Proc.devRef .tc main_v0_1) (ix3 b s (0 : Fin 128)))
          (Ideal.ofBits .f32 0x4C000000#32) := by
  rw [tail_sum_term]
  funext j
  show Ideal.div (Host.reduceAdd (F := Ideal) _ (constant (F := Ideal) S_ .f32 0x00000000#32) reducesTo_S2x8_S_d0_1 h_S_ j)
      (Ideal.ofBits .f32 0x4C000000#32) = _
  refine congrArg (fun t => Ideal.div t (Ideal.ofBits .f32 0x4C000000#32)) ?_
  refine (Ideal.hostReduceAdd_total reducesTo_S2x8_S_d0_1 (fun b => b.elim0) _ _ j).trans ?_
  refine (congrArg (fun t => t + _) Ideal.ofBits_zero_f32).trans ((zero_add _).trans ?_)
  refine (sum_idx2 _).trans ?_
  exact Finset.sum_congr rfl fun b _ => Finset.sum_congr rfl fun s _ => tail_column_apply _ _ _ b s

/-- The second result after the operations that follow the region, as the operations' term of the contents before. -/
theorem tail_max_term (W : Valuation τ sig (Elt Ideal)) :
    StableHlo.after (hostOps1 (F := Ideal)) W (Proc.devRef .tc main_v7)
      = Host.reduce (FloatOps.maximumf (F := Ideal) (φ := .f32))
          (shapeCast S2x8 (extractStridedSlice S2x8x1 ![0, 0, 0] (W (Proc.devRef .tc main_v0_2)) slices_S2x8x128_S2x8x1_0_0_0)
            shapeCasts_S2x8x1_S2x8)
          (constant (F := Ideal) S_ .f32 0xFF800000#32) reducesTo_S2x8_S_d0_1 h_S_ := by
  after_results
  rfl

/-- (H7) The second result: the maximum over b and s of the entries (b, s, 0) of the second running array, each level
    from the value the pattern 0xFF800000 denotes. -/
theorem tail_max (W : Valuation τ sig (Elt Ideal)) :
    StableHlo.after (hostOps1 (F := Ideal)) W (Proc.devRef .tc main_v7)
      = fun _ => (Finset.univ : Finset (Fin 2)).fold max (Ideal.ofBits .f32 0xFF800000#32) (fun b =>
          (Finset.univ : Finset (Fin 8)).fold max (Ideal.ofBits .f32 0xFF800000#32) (fun s =>
            W (Proc.devRef .tc main_v0_2) (ix3 b s (0 : Fin 128)))) := by
  rw [tail_max_term]
  funext j
  rw [Host.reduce_eq_fold, Finset.filter_true_of_mem fun i _ => funext fun b => b.elim0]
  refine (tail_fold_max_idx2 (Ideal.ofBits .f32 0xFF800000#32) _).trans ?_
  refine congrArg (fun f => (Finset.univ : Finset (Fin 2)).fold max (Ideal.ofBits .f32 0xFF800000#32) f) (funext fun b => ?_)
  exact congrArg (fun f => (Finset.univ : Finset (Fin 8)).fold max (Ideal.ofBits .f32 0xFF800000#32) f)
    (funext fun s => tail_column_apply _ _ _ b s)

end Cert.KernelIdeal.Tail

end
-- ==== Proof.KernelValue.lean ====
/-
  The kernel program's three results, at the extended reals, as the specification's functions of its arguments.

  After the run the output array holds the stencil's values, because every point of it lies in the block some grid
  point wrote back and that block holds the stencil on its tile. The two small result arrays hold, per batch entry and
  row of a tile, what their buffers held after the batch entry's last tile: the sum over its 32 tiles of the squared
  errors on that row, and the largest absolute error over them. The host operations after the region add the sixteen
  sums and divide by the number of points, and take the largest of the sixteen maxima; regrouped over every point these
  are the specification's loss and largest error.
-/
import proofs.«175465_j3083786518603_2_alg».proof.Proof.Frames
import proofs.«175465_j3083786518603_2_alg».proof.Proof.FinalArrays
import proofs.«175465_j3083786518603_2_alg».proof.Proof.BatchTotals
import proofs.«175465_j3083786518603_2_alg».proof.Proof.Regrouped
import proofs.«175465_j3083786518603_2_alg».proof.Proof.HostTail

set_option maxRecDepth 16384

noncomputable section

open scoped BigOperators

namespace Cert.KernelIdeal.Results

open Cert.KernelIdeal Cert.KernelIdeal.Gen Cert.KernelIdeal.Body
open Idealize.ShloMosaic Idealize.ShloMosaic.TcCoe Idealize.ShloMosaic.ValueIdx
open Idealize.SL Idealize.SL.Sem
open Cert.StencilSpec

variable (m : (ℓ : Loc nD τ sig) → Buf (Elt Ideal) ℓ) (ρ : Dev nD → PrngReg)

/-- What the sum's array holds after the run: per batch entry and row of a tile, the sum over the 32 tiles. -/
def sumArr (c : Dev nD) : S2x8x128.Idx → Elt Ideal .f32 := fun j => ∑ i : Fin 32, tileSq m c (j 0) i (j 1)
/-- What the maximum's array holds after the run: per batch entry and row of a tile, the largest over the 32 tiles. -/
def maxArr (c : Dev nD) : S2x8x128.Idx → Elt Ideal .f32 := fun j => (Finset.univ : Finset (Fin 32)).fold max botE (fun i => tileMax m c (j 0) i (j 1))

theorem outArr_final (c : Dev nD) : (Frames.dats (F := Ideal) m 0 c).arrAt 5 cfg0.N = stencil (fieldArr m c) (coefArr0 m c) :=
  final5 (F := Ideal) m Frames.qShared c (stencil (fieldArr m c) (coefArr0 m c)) (fun t r w z => out_at m c t r w z)

theorem sumArr_final (c : Dev nD) : (Frames.dats (F := Ideal) m 0 c).arrAt 6 cfg0.N = sumArr m c :=
  final6 (F := Ideal) m Frames.qShared c (sumArr m c) (fun b s l => sum_last m c b s l)

theorem maxArr_final (c : Dev nD) : (Frames.dats (F := Ideal) m 0 c).arrAt 7 cfg0.N = maxArr m c :=
  final7 (F := Ideal) m Frames.qShared c (maxArr m c) (fun b s l => max_last m c b s l)

/-- The kernel program runs to its end, and its three results are the specification's loss, stencil and largest error
    of its argument arrays, which end unchanged. -/
theorem run_value : θ_run defs (onTc (τ := τ) (main (F := Ideal))) ⟨m, fun _ => 0, ρ⟩ (fun r => ∀ c : Dev nD,
      r.2.mem ((c.tc : Thread nD τ).loc main_v4) = (fun _ => loss (fieldArr m c) (coefArr0 m c) (targetArr m c))
      ∧ r.2.mem ((c.tc : Thread nD τ).loc main_v0_0) = stencil (fieldArr m c) (coefArr0 m c)
      ∧ r.2.mem ((c.tc : Thread nD τ).loc main_v7) = (fun _ => maxAbs (fieldArr m c) (coefArr0 m c) (targetArr m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono (fun r h c => ⟨?_, ?_, ?_, ?_, ?_, ?_⟩) (Frames.run (F := Ideal) m ρ)
  · rw [(h c).2 main_v4 (by decide), Tail.tail_sum, Shared.exitV_v0_1, sumArr_final]
    funext _
    exact loss_regroup m c
  · exact ((h c).1 5).trans (outArr_final m c)
  · rw [(h c).2 main_v7 (by decide), Tail.tail_max, Shared.exitV_v0_2, maxArr_final]
    funext _
    exact max_regroup m c
  · exact ((h c).1 0).trans ((Frames.dats (F := Ideal) m 0 c).arrAt_in 0 rfl _)
  · exact ((h c).1 3).trans ((Frames.dats (F := Ideal) m 0 c).arrAt_in 3 rfl _)
  · exact ((h c).1 4).trans ((Frames.dats (F := Ideal) m 0 c).arrAt_in 4 rfl _)

end Cert.KernelIdeal.Results

end
-- ==== Proof.lean ====
/-
  The certificate: a seven-point stencil with variable coefficients on a 2 × 256 × 256 × 256 field, its mean squared
  error against a target and its largest absolute error, computed by a kernel tile by tile and by a reference on the
  whole arrays.

  The kernel walks a grid of 2 × 32 tiles of eight rows. At each tile it forms the six neighbours of every point — the
  four within the tile's full w and z axes by rotating and masking, the two across tiles from the tile's own rows and one
  extra row before and after it —, the weighted sum of the point and its neighbours, and the error against the target;
  it stores the weighted sums as its output block and adds the tile's squared errors, and takes the maximum of its
  absolute errors, per row of the tile, into two small running totals that are reset at the first tile of a batch entry
  and written back after the last. After the region the host adds the sixteen per-row sums and divides by the number of
  points, and takes the maximum of the sixteen per-row maxima. The reference pads and slices the whole field for the six
  neighbours, forms the same weighted sum with its factors and its terms in another order, and reduces the squared and
  the absolute errors over all four axes at once.

  Three of the kernel's windows read the same argument array, so the frames of the two kernel programs go through the
  launch of a pipeline whose windows share an array, with the array's share dealt among the three windows; the kernel's
  body is run once for a first tile and once for a later tile, and what the result buffers hold is followed point by
  point. The reference's frame is its run with the results dropped. Nothing was rewritten between the kernel and its
  idealization. At the extended reals the two programs' results are one function of the arguments: sums and maxima do
  not depend on order or grouping, products commute, and the kernel's maximum starting from zero instead of from the
  bottom changes nothing because absolute values are not negative.
-/
import proofs.«175465_j3083786518603_2_alg».proof.Defs
import proofs.«175465_j3083786518603_2_alg».proof.Proof.Gen.Kernel
import proofs.«175465_j3083786518603_2_alg».proof.Proof.Gen.KernelIdeal
import proofs.«175465_j3083786518603_2_alg».proof.Proof.Gen.ReferenceIdeal
import proofs.«175465_j3083786518603_2_alg».proof.Proof.Gen.Pre_finite_inputs
import proofs.«175465_j3083786518603_2_alg».proof.Proof.Gen.ReferenceIdeal.Run
import proofs.«175465_j3083786518603_2_alg».proof.Proof.Gen.ReferenceIdeal.Read
import proofs.«175465_j3083786518603_2_alg».proof.Proof.Frames
import proofs.«175465_j3083786518603_2_alg».proof.Proof.FramesBits
import proofs.«175465_j3083786518603_2_alg».proof.Proof.RefRun
import proofs.«175465_j3083786518603_2_alg».proof.Proof.KernelValue
import Idealize.ShloMosaic.Adequacy
import Idealize.ShloMosaic.Init

noncomputable section

namespace Cert.Proof

open Idealize.ShloMosaic Idealize.SL.Sem

/-- The kernel as printed runs to its end, faults nowhere and leaves its three argument arrays unchanged. -/
theorem frame_kernel [Cert.Kernel.Facts] [Cert.Pre_finite_inputs.Facts] : Cert.frame_Kernel :=
  fun m ρ _ => Cert.Kernel.Frames.frame (F := Bits) m ρ

/-- So does its idealization. -/
theorem frame_kernelIdeal [Cert.KernelIdeal.Facts] [Cert.Pre_finite_inputs.Facts] : Cert.frame_KernelIdeal :=
  fun m ρ _ => Cert.KernelIdeal.Frames.frame (F := Ideal) m ρ

/-- So does the reference: its run, with what it says of the results dropped. -/
theorem frame_reference [Cert.ReferenceIdeal.Facts] [Cert.Pre_finite_inputs.Facts] : Cert.frame_ReferenceIdeal :=
  fun m ρ _ => (θ_run Cert.ReferenceIdeal.defs _ _).mono (fun _ h c => (h c).2.2.2) (Cert.ReferenceIdeal.Value.run (F := Ideal) m ρ)

/-- At the extended reals the idealized kernel and the idealized reference, run from memories that agree on the three
    arguments, both end with the specification's loss, stencil and largest error of those arguments as their three
    results, and with the arguments unchanged: the kernel by following its tiles and running totals and regrouping
    its sums and maxima over every point, the reference by reading its whole-array operations index by index. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => fun _ => Cert.StencilSpec.loss (Cert.KernelIdeal.Body.fieldArr m c) (Cert.KernelIdeal.Body.coefArr0 m c) (Cert.KernelIdeal.Body.targetArr m c),
    fun c => Cert.StencilSpec.stencil (Cert.KernelIdeal.Body.fieldArr m c) (Cert.KernelIdeal.Body.coefArr0 m c),
    fun c => fun _ => Cert.StencilSpec.maxAbs (Cert.KernelIdeal.Body.fieldArr m c) (Cert.KernelIdeal.Body.coefArr0 m c) (Cert.KernelIdeal.Body.targetArr m c),
    Cert.KernelIdeal.Results.run_value m ρ, ?_⟩
  refine (θ_run Cert.ReferenceIdeal.defs _ _).mono (fun _ h c => ⟨?_, ?_, ?_, (h c).2.2.2⟩)
    (Cert.ReferenceIdeal.Value.run (F := Ideal) m' ρ')
  · rw [(h c).1, Cert.ReferenceIdeal.RefSpec.res_loss_eq, (hagree c).1, (hagree c).2.1, (hagree c).2.2]
    rfl
  · rw [(h c).2.1, Cert.ReferenceIdeal.RefSpec.res_stencil_eq, (hagree c).1, (hagree c).2.1]
  · rw [(h c).2.2.1, Cert.ReferenceIdeal.RefSpec.res_maxAbs_eq, (hagree c).1, (hagree c).2.1, (hagree c).2.2]
    rfl

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
